-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x256 : Shape := ⟨2, ![100000, 256]⟩
abbrev S20000x256 : Shape := ⟨2, ![20000, 256]⟩
abbrev S300000 : Shape := ⟨1, ![300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S20000x256 : S_.BroadcastsInDim S20000x256 (![] : Fin 0 → Fin S20000x256.rank)
  reducesTo_S20000x256_S_d0_1 : S20000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg26 : FVec F S1 .f32) (main_v83 : IVec S_ 1) (main_v84 : FVec F S256x1 .f32) (main_cst_32 : FVec F S_ .f32) : IVec S_ 1 :=
  let main_v85 : FVec F S256x1 .f32 := broadcastInDim S256x1 ![] bcast_S_S256x1 main_cst_32
  let main_v86 : IVec S256x1 1 := cmpf .olt main_v84 main_v85
  let main_c_33 : IVec S_ 1 := constantI S_ 1 1#1
  let main_v87 : IVec S_ 1 := (fun x v => Host.reduce IntOp.andi x v reducesTo_S256x1_S_d0_1 h_S_) main_v86 main_c_33
  let main_v88 : IVec S_ 1 := andi main_v83 main_v87
  let main_v89 : FVec F S1 .f32 := Host.absf main_arg26
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg22 : FVec F S256x256 .f32) (main_arg23 : FVec F S256x1 .f32) (main_arg24 : FVec F S1 .f32) (main_arg25 : FVec F S256x1 .f32) (main_arg26 : FVec F S1 .f32) (main_v63 : IVec S_ 1) (main_v67 : IVec S_ 1) : IVec S_ 1 :=
  let main_v68 : IVec S_ 1 := andi main_v63 main_v67
  let main_v69 : FVec F S256x256 .f32 := Host.absf main_arg22
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x1 .f32 := Host.absf main_arg23
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg24
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S256x1 .f32 := Host.absf main_arg25
  let main_cst_32 : FVec F S_ .f32 := constant S_ .f32 0x7F800000#32
  fn_part5 (F := F) main_arg26 main_v83 main_v84 main_cst_32

def fn_part3 {F : FTy → Type} [FloatOps F] (main_arg19 : FVec F S256x256 .f32) (main_arg20 : FVec F S256x256 .f32) (main_arg21 : FVec F S256 .f32) (main_arg22 : FVec F S256x256 .f32) (main_arg23 : FVec F S256x1 .f32) (main_arg24 : FVec F S1 .f32) (main_arg25 : FVec F S256x1 .f32) (main_arg26 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg19
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg20
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg21
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg22 main_arg23 main_arg24 main_arg25 main_arg26 main_v63 main_v67

def fn_part2 {F : FTy → Type} [FloatOps F] (main_arg15 : FVec F S256 .f32) (main_arg16 : FVec F S256x256 .f32) (main_arg17 : FVec F S256x256 .f32) (main_arg18 : FVec F S256 .f32) (main_arg19 : FVec F S256x256 .f32) (main_arg20 : FVec F S256x256 .f32) (main_arg21 : FVec F S256 .f32) (main_arg22 : FVec F S256x256 .f32) (main_arg23 : FVec F S256x1 .f32) (main_arg24 : FVec F S1 .f32) (main_arg25 : FVec F S256x1 .f32) (main_arg26 : FVec F S1 .f32) (main_v33 : IVec S_ 1) : IVec S_ 1 :=
  let main_v34 : FVec F S256 .f32 := Host.absf main_arg15
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg16
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg17
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg18
  let main_cst_18 : FVec F S_ .f32 := constant S_ .f32 0x7F800000#32
  let main_v50 : FVec F S256 .f32 := broadcastInDim S256 ![] bcast_S_S256 main_cst_18
  fn_part3 (F := F) main_arg19 main_arg20 main_arg21 main_arg22 main_arg23 main_arg24 main_arg25 main_arg26 main_v48 main_v49 main_v50

def fn_part1 {F : FTy → Type} [FloatOps F] (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256x256 .f32) (main_arg21 : FVec F S256 .f32) (main_arg22 : FVec F S256x256 .f32) (main_arg23 : FVec F S256x1 .f32) (main_arg24 : FVec F S1 .f32) (main_arg25 : FVec F S256x1 .f32) (main_arg26 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg12
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg13
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg14
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_v33

def fn {F : FTy → Type} [FloatOps F] (main_arg0 : FVec F S50000x256 .f32) (main_arg1 : FVec F S100000x256 .f32) (main_arg2 : FVec F S20000x256 .f32) (main_arg3 : IVec S300000 32) (main_arg4 : IVec S300000 32) (main_arg5 : IVec S300000 32) (main_arg6 : IVec S300000 32) (main_arg7 : IVec S300000 32) (main_arg8 : IVec S300000 32) (main_arg9 : IVec S300000 32) (main_arg10 : IVec S300000 32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256x256 .f32) (main_arg21 : FVec F S256 .f32) (main_arg22 : FVec F S256x256 .f32) (main_arg23 : FVec F S256x1 .f32) (main_arg24 : FVec F S1 .f32) (main_arg25 : FVec F S256x1 .f32) (main_arg26 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S20000x256 .f32 := Host.absf main_arg2
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S256x256 .f32 := Host.absf main_arg11
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_v13 main_v16
-- ==== Kernel.lean ====
abbrev S50000x256 : Shape := ⟨2, ![50000, 256]⟩
abbrev S100000x256 : Shape := ⟨2, ![100000, 256]⟩
abbrev S20000x256 : Shape := ⟨2, ![20000, 256]⟩
abbrev S300000 : Shape := ⟨1, ![300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩
abbrev S20000 : Shape := ⟨1, ![20000]⟩
abbrev S20000x1 : Shape := ⟨2, ![20000, 1]⟩
abbrev S1x256 : Shape := ⟨2, ![1, 256]⟩
abbrev S2000x256 : Shape := ⟨2, ![2000, 256]⟩
abbrev S2000x1 : Shape := ⟨2, ![2000, 1]⟩
abbrev S2000 : Shape := ⟨1, ![2000]⟩
abbrev S1x1 : Shape := ⟨2, ![1, 1]⟩

abbrev nBuf : Space → Nat
  | .hbm => 120
  | .vmem => 44
  | .smem => 0
  | _ => 0

abbrev bufTy : (tb : Table) → Fin (tcTables nBuf tb) → BufTy
  | .hbm, ⟨0, _⟩ => ⟨S50000x256, .f32⟩
  | .hbm, ⟨1, _⟩ => ⟨S100000x256, .f32⟩
  | .hbm, ⟨2, _⟩ => ⟨S20000x256, .f32⟩
  | .hbm, ⟨3, _⟩ => ⟨S300000, .i32⟩
  | .hbm, ⟨4, _⟩ => ⟨S300000, .i32⟩
  | .hbm, ⟨5, _⟩ => ⟨S300000, .i32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S300000, .i32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256x256, .f32⟩
  | .hbm, ⟨18, _⟩ => ⟨S256, .f32⟩
  | .hbm, ⟨19, _⟩ => ⟨S256x256, .f32⟩
  | .hbm, ⟨20, _⟩ => ⟨S256x256, .f32⟩
  | .hbm, ⟨21, _⟩ => ⟨S256, .f32⟩
  | .hbm, ⟨22, _⟩ => ⟨S256x256, .f32⟩
  | .hbm, ⟨23, _⟩ => ⟨S256x1, .f32⟩
  | .hbm, ⟨24, _⟩ => ⟨S1, .f32⟩
  | .hbm, ⟨25, _⟩ => ⟨S256x1, .f32⟩
  | .hbm, ⟨26, _⟩ => ⟨S1, .f32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x256, .f32⟩
  | .hbm, ⟨36, _⟩ => ⟨S_, .f32⟩
  | .hbm, ⟨37, _⟩ => ⟨S100000x256, .f32⟩
  | .hbm, ⟨38, _⟩ => ⟨S300000x1, .i32⟩
  | .hbm, ⟨39, _⟩ => ⟨S100000x256, .f32⟩
  | .hbm, ⟨40, _⟩ => ⟨S_, .f32⟩
  | .hbm, ⟨41, _⟩ => ⟨S300000, .f32⟩
  | .hbm, ⟨42, _⟩ => ⟨S_, .f32⟩
  | .hbm, ⟨43, _⟩ => ⟨S100000, .f32⟩
  | .hbm, ⟨44, _⟩ => ⟨S300000x1, .i32⟩
  | .hbm, ⟨45, _⟩ => ⟨S100000, .f32⟩
  | .hbm, ⟨46, _⟩ => ⟨S100000x1, .f32⟩
  | .hbm, ⟨47, _⟩ => ⟨S_, .i32⟩
  | .hbm, ⟨48, _⟩ => ⟨S300000, .i32⟩
  | .hbm, ⟨49, _⟩ => ⟨S300000, .i1⟩
  | .hbm, ⟨50, _⟩ => ⟨S_, .i32⟩
  | .hbm, ⟨51, _⟩ => ⟨S300000, .i32⟩
  | .hbm, ⟨52, _⟩ => ⟨S300000, .i32⟩
  | .hbm, ⟨53, _⟩ => ⟨S300000, .i32⟩
  | .hbm, ⟨54, _⟩ => ⟨S300000x1, .i32⟩
  | .hbm, ⟨55, _⟩ => ⟨S300000x256, .f32⟩
  | .hbm, ⟨56, _⟩ => ⟨S_, .f32⟩
  | .hbm, ⟨57, _⟩ => ⟨S50000x256, .f32⟩
  | .hbm, ⟨58, _⟩ => ⟨S300000x1, .i32⟩
  | .hbm, ⟨59, _⟩ => ⟨S50000x256, .f32⟩
  | .hbm, ⟨60, _⟩ => ⟨S_, .f32⟩
  | .hbm, ⟨61, _⟩ => ⟨S300000, .f32⟩
  | .hbm, ⟨62, _⟩ => ⟨S_, .f32⟩
  | .hbm, ⟨63, _⟩ => ⟨S50000, .f32⟩
  | .hbm, ⟨64, _⟩ => ⟨S300000x1, .i32⟩
  | .hbm, ⟨65, _⟩ => ⟨S50000, .f32⟩
  | .hbm, ⟨66, _⟩ => ⟨S50000x1, .f32⟩
  | .hbm, ⟨67, _⟩ => ⟨S_, .i32⟩
  | .hbm, ⟨68, _⟩ => ⟨S300000, .i32⟩
  | .hbm, ⟨69, _⟩ => ⟨S300000, .i1⟩
  | .hbm, ⟨70, _⟩ => ⟨S_, .i32⟩
  | .hbm, ⟨71, _⟩ => ⟨S300000, .i32⟩
  | .hbm, ⟨72, _⟩ => ⟨S300000, .i32⟩
  | .hbm, ⟨73, _⟩ => ⟨S300000, .i32⟩
  | .hbm, ⟨74, _⟩ => ⟨S300000x1, .i32⟩
  | .hbm, ⟨75, _⟩ => ⟨S300000x256, .f32⟩
  | .hbm, ⟨76, _⟩ => ⟨S_, .f32⟩
  | .hbm, ⟨77, _⟩ => ⟨S50000x256, .f32⟩
  | .hbm, ⟨78, _⟩ => ⟨S300000x1, .i32⟩
  | .hbm, ⟨79, _⟩ => ⟨S50000x256, .f32⟩
  | .hbm, ⟨80, _⟩ => ⟨S_, .f32⟩
  | .hbm, ⟨81, _⟩ => ⟨S300000, .f32⟩
  | .hbm, ⟨82, _⟩ => ⟨S_, .f32⟩
  | .hbm, ⟨83, _⟩ => ⟨S50000, .f32⟩
  | .hbm, ⟨84, _⟩ => ⟨S300000x1, .i32⟩
  | .hbm, ⟨85, _⟩ => ⟨S50000, .f32⟩
  | .hbm, ⟨86, _⟩ => ⟨S50000x1, .f32⟩
  | .hbm, ⟨87, _⟩ => ⟨S_, .i32⟩
  | .hbm, ⟨88, _⟩ => ⟨S300000, .i32⟩
  | .hbm, ⟨89, _⟩ => ⟨S300000, .i1⟩
  | .hbm, ⟨90, _⟩ => ⟨S_, .i32⟩
  | .hbm, ⟨91, _⟩ => ⟨S300000, .i32⟩
  | .hbm, ⟨92, _⟩ => ⟨S300000, .i32⟩
  | .hbm, ⟨93, _⟩ => ⟨S300000, .i32⟩
  | .hbm, ⟨94, _⟩ => ⟨S300000x1, .i32⟩
  | .hbm, ⟨95, _⟩ => ⟨S300000x256, .f32⟩
  | .hbm, ⟨96, _⟩ => ⟨S_, .f32⟩
  | .hbm, ⟨97, _⟩ => ⟨S20000x256, .f32⟩
  | .hbm, ⟨98, _⟩ => ⟨S300000x1, .i32⟩
  | .hbm, ⟨99, _⟩ => ⟨S20000x256, .f32⟩
  | .hbm, ⟨100, _⟩ => ⟨S_, .f32⟩
  | .hbm, ⟨101, _⟩ => ⟨S300000, .f32⟩
  | .hbm, ⟨102, _⟩ => ⟨S_, .f32⟩
  | .hbm, ⟨103, _⟩ => ⟨S20000, .f32⟩
  | .hbm, ⟨104, _⟩ => ⟨S300000x1, .i32⟩
  | .hbm, ⟨105, _⟩ => ⟨S20000, .f32⟩
  | .hbm, ⟨106, _⟩ => ⟨S20000x1, .f32⟩
  | .hbm, ⟨107, _⟩ => ⟨S256x256, .bf16⟩
  | .hbm, ⟨108, _⟩ => ⟨S256x256, .bf16⟩
  | .hbm, ⟨109, _⟩ => ⟨S1x256, .f32⟩
  | .hbm, ⟨110, _⟩ => ⟨S100000x1, .f32⟩
  | .hbm, ⟨111, _⟩ => ⟨S256x256, .bf16⟩
  | .hbm, ⟨112, _⟩ => ⟨S256x256, .bf16⟩
  | .hbm, ⟨113, _⟩ => ⟨S256x256, .bf16⟩
  | .hbm, ⟨114, _⟩ => ⟨S256x256, .bf16⟩
  | .hbm, ⟨115, _⟩ => ⟨S1x256, .f32⟩
  | .hbm, ⟨116, _⟩ => ⟨S50000x1, .f32⟩
  | .hbm, ⟨117, _⟩ => ⟨S256x256, .bf16⟩
  | .hbm, ⟨118, _⟩ => ⟨S256x256, .bf16⟩
  | .hbm, ⟨119, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S1x256, .f32⟩
  | .local _ .vmem, ⟨10, _⟩ => ⟨S1, .f32⟩
  | .local _ .vmem, ⟨11, _⟩ => ⟨S2000x1, .f32⟩
  | .local _ .vmem, ⟨12, _⟩ => ⟨S2000x1, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S2000x256, .f32⟩
  | .local _ .vmem, ⟨18, _⟩ => ⟨S2000x256, .f32⟩
  | .local _ .vmem, ⟨19, _⟩ => ⟨S2000x1, .f32⟩
  | .local _ .vmem, ⟨20, _⟩ => ⟨S2000x1, .f32⟩
  | .local _ .vmem, ⟨21, _⟩ => ⟨S2000x256, .f32⟩
  | .local _ .vmem, ⟨22, _⟩ => ⟨S2000x256, .f32⟩
  | .local _ .vmem, ⟨23, _⟩ => ⟨S256x256, .bf16⟩
  | .local _ .vmem, ⟨24, _⟩ => ⟨S256, .f32⟩
  | .local _ .vmem, ⟨25, _⟩ => ⟨S256x256, .bf16⟩
  | .local _ .vmem, ⟨26, _⟩ => ⟨S256x256, .bf16⟩
  | .local _ .vmem, ⟨27, _⟩ => ⟨S256, .f32⟩
  | .local _ .vmem, ⟨28, _⟩ => ⟨S256x256, .bf16⟩
  | .local _ .vmem, ⟨29, _⟩ => ⟨S1x256, .f32⟩
  | .local _ .vmem, ⟨30, _⟩ => ⟨S1, .f32⟩
  | .local _ .vmem, ⟨31, _⟩ => ⟨S2000x1, .f32⟩
  | .local _ .vmem, ⟨32, _⟩ => ⟨S2000x1, .f32⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S2000x256, .f32⟩
  | .local _ .vmem, ⟨38, _⟩ => ⟨S2000x256, .f32⟩
  | .local _ .vmem, ⟨39, _⟩ => ⟨S256x256, .bf16⟩
  | .local _ .vmem, ⟨40, _⟩ => ⟨S256, .f32⟩
  | .local _ .vmem, ⟨41, _⟩ => ⟨S256x256, .bf16⟩
  | .local _ .vmem, ⟨42, _⟩ => ⟨S2000x256, .f32⟩
  | .local _ .vmem, ⟨43, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c_3 : Ref sig .tc := ⟨.hbm, 47, rfl⟩
abbrev main_v15 : Ref sig .tc := ⟨.hbm, 48, rfl⟩
abbrev main_v16 : Ref sig .tc := ⟨.hbm, 49, rfl⟩
abbrev main_c_4 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_cst_7 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_8 : Ref sig .tc := ⟨.hbm, 67, rfl⟩
abbrev main_v30 : Ref sig .tc := ⟨.hbm, 68, rfl⟩
abbrev main_v31 : Ref sig .tc := ⟨.hbm, 69, rfl⟩
abbrev main_c_9 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_10 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_11 : Ref sig .tc := ⟨.hbm, 80, rfl⟩
abbrev main_v40 : Ref sig .tc := ⟨.hbm, 81, rfl⟩
abbrev main_cst_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_13 : Ref sig .tc := ⟨.hbm, 87, rfl⟩
abbrev main_v45 : Ref sig .tc := ⟨.hbm, 88, rfl⟩
abbrev main_v46 : Ref sig .tc := ⟨.hbm, 89, rfl⟩
abbrev main_c_14 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_15 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_16 : Ref sig .tc := ⟨.hbm, 100, rfl⟩
abbrev main_v55 : Ref sig .tc := ⟨.hbm, 101, rfl⟩
abbrev main_cst_17 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg13_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem13_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem6_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S_S100000 : S_.BroadcastsInDim S100000 (![] : Fin 0 → Fin S100000.rank)
  shapeCasts_S100000_S100000x1 : S100000.ShapeCasts S100000x1
  bcast_S_S50000x256 : S_.BroadcastsInDim S50000x256 (![] : Fin 0 → Fin S50000x256.rank)
  bcast_S_S50000 : S_.BroadcastsInDim S50000 (![] : Fin 0 → Fin S50000.rank)
  shapeCasts_S50000_S50000x1 : S50000.ShapeCasts S50000x1
  bcast_S_S20000x256 : S_.BroadcastsInDim S20000x256 (![] : Fin 0 → Fin S20000x256.rank)
  bcast_S_S20000 : S_.BroadcastsInDim S20000 (![] : Fin 0 → Fin S20000.rank)
  shapeCasts_S20000_S20000x1 : S20000.ShapeCasts S20000x1
  bitsLt_bf16_f32 : FTy.bits .bf16 < FTy.bits .f32
  transposes_S256x1_S1x256_1_0 : S256x1.Transposes [1, 0] S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2000x256_S2000 : S2000x256.Reduces [1] S2000
  shapeCasts_S2000_S2000x1 : S2000.ShapeCasts S2000x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  gather_S50000x256_S300000x1_S300000x256_1_0_n_n_0_1_1256_wf : GatherDims.WF S50000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  gather_S100000x256_S300000x1_S300000x256_1_0_n_n_0_1_1256_wf : GatherDims.WF S100000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  gather_S20000x256_S300000x1_S300000x256_1_0_n_n_0_1_1256_wf : GatherDims.WF S20000x256 S300000x1 S300000x256 [1] [0] [] [0] [] 1 ![1, 256]
  scatter_S20000x256_S300000x1_S300000x256_1_0_0_1_wf : ScatterDims.WF S20000x256 S300000x1 S300000x256 [1] [0] [0] 1
  scatter_S20000_S300000x1_S300000_n_0_0_1_wf : ScatterDims.WF S20000 S300000x1 S300000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S100000x1.size a
  hwx0_8 : ∀ i : grid0.Coords, EltTy.bits .f32 = 32 ∨ (Rect.block (s := S100000x1) S2000x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .bf16 = 32 ∨ (Rect.block (s := S256x256) S256x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S256.size a
  hwx1_9 : ∀ i : grid1.Coords, EltTy.bits .f32 = 32 ∨ (Rect.block (s := S256) S256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x256.size a ≤ S256x256.size a
  hwx1_10 : ∀ i : grid1.Coords, EltTy.bits .bf16 = 32 ∨ (Rect.block (s := S256x256) S256x256.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1.size a ≤ S1.size a
  hwx1_12 : ∀ i : grid1.Coords, EltTy.bits .f32 = 32 ∨ (Rect.block (s := S1) S1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x1.size a ≤ S50000x1.size a
  hwx1_13 : ∀ i : grid1.Coords, EltTy.bits .f32 = 32 ∨ (Rect.block (s := S50000x1) S2000x1.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S20000x256.size a
  hwx2_6 : ∀ i : grid2.Coords, EltTy.bits .f32 = 32 ∨ (Rect.block (s := S20000x256) S2000x256.size (cc2_transform_6 i) (hinb2_6 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v9) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v62) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg24) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v63) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v64) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v65) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v66) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg21) S256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v67) S256x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v68) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg26) S1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v69) S2000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v54) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v70) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S100000x256 : Shape := ⟨2, ![100000, 256]⟩
abbrev S20000x256 : Shape := ⟨2, ![20000, 256]⟩
abbrev S300000 : Shape := ⟨1, ![300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩
abbrev S1x256 : Shape := ⟨2, ![1, 256]⟩
abbrev S50000 : Shape := ⟨1, ![50000]⟩
abbrev S50000x1 : Shape := ⟨2, ![50000, 1]⟩
abbrev S20000 : Shape := ⟨1, ![20000]⟩
abbrev S20000x1 : Shape := ⟨2, ![20000, 1]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S50000x256, .f32⟩
  | 1 => ⟨S100000x256, .f32⟩
  | 2 => ⟨S20000x256, .f32⟩
  | 3 => ⟨S300000, .i32⟩
  | 4 => ⟨S300000, .i32⟩
  | 5 => ⟨S300000, .i32⟩
  | 6 => ⟨S300000, .i32⟩
  | 7 => ⟨S300000, .i32⟩
  | 8 => ⟨S300000, .i32⟩
  | 9 => ⟨S300000, .i32⟩
  | 10 => ⟨S300000, .i32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S256x256, .f32⟩
  | 21 => ⟨S256, .f32⟩
  | 22 => ⟨S256x256, .f32⟩
  | 23 => ⟨S256x1, .f32⟩
  | 24 => ⟨S1, .f32⟩
  | 25 => ⟨S256x1, .f32⟩
  | 26 => ⟨S1, .f32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x256, .f32⟩
  | 36 => ⟨S_, .f32⟩
  | 37 => ⟨S100000x256, .f32⟩
  | 38 => ⟨S300000x1, .i32⟩
  | 39 => ⟨S100000x256, .f32⟩
  | 40 => ⟨S_, .f32⟩
  | 41 => ⟨S300000, .f32⟩
  | 42 => ⟨S_, .f32⟩
  | 43 => ⟨S100000, .f32⟩
  | 44 => ⟨S300000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x256, .f32⟩
  | 51 => ⟨S100000x256, .f32⟩
  | 52 => ⟨S100000x256, .f32⟩
  | 53 => ⟨S1x256, .f32⟩
  | 54 => ⟨S100000x256, .f32⟩
  | 55 => ⟨S100000x256, .f32⟩
  | 56 => ⟨S100000x256, .f32⟩
  | 57 => ⟨S100000x256, .f32⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S300000x256, .f32⟩
  | 67 => ⟨S_, .f32⟩
  | 68 => ⟨S50000x256, .f32⟩
  | 69 => ⟨S300000x1, .i32⟩
  | 70 => ⟨S50000x256, .f32⟩
  | 71 => ⟨S_, .f32⟩
  | 72 => ⟨S300000, .f32⟩
  | 73 => ⟨S_, .f32⟩
  | 74 => ⟨S50000, .f32⟩
  | 75 => ⟨S300000x1, .i32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S50000x256, .f32⟩
  | 88 => ⟨S50000x256, .f32⟩
  | 89 => ⟨S_, .i32⟩
  | 90 => ⟨S300000, .i32⟩
  | 91 => ⟨S300000, .i1⟩
  | 92 => ⟨S_, .i32⟩
  | 93 => ⟨S300000, .i32⟩
  | 94 => ⟨S300000, .i32⟩
  | 95 => ⟨S300000, .i32⟩
  | 96 => ⟨S300000x1, .i32⟩
  | 97 => ⟨S300000x256, .f32⟩
  | 98 => ⟨S_, .f32⟩
  | 99 => ⟨S50000x256, .f32⟩
  | 100 => ⟨S300000x1, .i32⟩
  | 101 => ⟨S50000x256, .f32⟩
  | 102 => ⟨S_, .f32⟩
  | 103 => ⟨S300000, .f32⟩
  | 104 => ⟨S_, .f32⟩
  | 105 => ⟨S50000, .f32⟩
  | 106 => ⟨S300000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S50000x256, .f32⟩
  | 119 => ⟨S50000x256, .f32⟩
  | 120 => ⟨S50000x256, .f32⟩
  | 121 => ⟨S_, .i32⟩
  | 122 => ⟨S300000, .i32⟩
  | 123 => ⟨S300000, .i1⟩
  | 124 => ⟨S_, .i32⟩
  | 125 => ⟨S300000, .i32⟩
  | 126 => ⟨S300000, .i32⟩
  | 127 => ⟨S300000, .i32⟩
  | _ => ⟨S50000x256, .f32⟩

abbrev hbmTy0_1 (i : Nat) : BufTy := match i % 128 with
  | 0 => ⟨S300000x1, .i32⟩
  | 1 => ⟨S300000x256, .f32⟩
  | 2 => ⟨S_, .f32⟩
  | 3 => ⟨S20000x256, .f32⟩
  | 4 => ⟨S300000x1, .i32⟩
  | 5 => ⟨S20000x256, .f32⟩
  | 6 => ⟨S_, .f32⟩
  | 7 => ⟨S300000, .f32⟩
  | 8 => ⟨S_, .f32⟩
  | 9 => ⟨S20000, .f32⟩
  | 10 => ⟨S300000x1, .i32⟩
  | 11 => ⟨S20000, .f32⟩
  | 12 => ⟨S_, .f32⟩
  | 13 => ⟨S20000, .f32⟩
  | 14 => ⟨S20000, .f32⟩
  | 15 => ⟨S20000x1, .f32⟩
  | 16 => ⟨S20000x256, .f32⟩
  | 17 => ⟨S20000x256, .f32⟩
  | 18 => ⟨S20000x256, .f32⟩
  | 19 => ⟨S1x256, .f32⟩
  | 20 => ⟨S20000x256, .f32⟩
  | 21 => ⟨S20000x256, .f32⟩
  | 22 => ⟨S20000x256, .f32⟩
  | 23 => ⟨S20000x256, .f32⟩
  | 24 => ⟨S_, .f32⟩
  | 25 => ⟨S100000x256, .f32⟩
  | 26 => ⟨S100000x256, .f32⟩
  | 27 => ⟨S_, .f32⟩
  | 28 => ⟨S50000x256, .f32⟩
  | 29 => ⟨S50000x256, .f32⟩
  | 30 => ⟨S_, .f32⟩
  | 31 => ⟨S20000x256, .f32⟩
  | 32 => ⟨S20000x256, .f32⟩
  | 33 => ⟨S100000x1, .f32⟩
  | 34 => ⟨S1x1, .f32⟩
  | 35 => ⟨S100000x1, .f32⟩
  | 36 => ⟨S100000x1, .f32⟩
  | 37 => ⟨S_, .f32⟩
  | 38 => ⟨S_, .f32⟩
  | 39 => ⟨S100000x1, .f32⟩
  | 40 => ⟨S100000x1, .i1⟩
  | 41 => ⟨S_, .f32⟩
  | 42 => ⟨S100000x1, .f32⟩
  | 43 => ⟨S100000x1, .f32⟩
  | 44 => ⟨S100000x1, .f32⟩
  | 45 => ⟨S50000x1, .f32⟩
  | 46 => ⟨S1x1, .f32⟩
  | 47 => ⟨S50000x1, .f32⟩
  | 48 => ⟨S50000x1, .f32⟩
  | 49 => ⟨S_, .f32⟩
  | 50 => ⟨S_, .f32⟩
  | 51 => ⟨S50000x1, .f32⟩
  | 52 => ⟨S50000x1, .i1⟩
  | 53 => ⟨S_, .f32⟩
  | 54 => ⟨S50000x1, .f32⟩
  | 55 => ⟨S50000x1, .f32⟩
  | 56 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_4 : Ref sig .tc := ⟨.hbm, 58, rfl⟩
abbrev main_v25 : Ref sig .tc := ⟨.hbm, 59, rfl⟩
abbrev main_v26 : Ref sig .tc := ⟨.hbm, 60, rfl⟩
abbrev main_c_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_10 : Ref sig .tc := ⟨.hbm, 89, rfl⟩
abbrev main_v50 : Ref sig .tc := ⟨.hbm, 90, rfl⟩
abbrev main_v51 : Ref sig .tc := ⟨.hbm, 91, rfl⟩
abbrev main_c_11 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_12 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_cst_14 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_15 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_16 : Ref sig .tc := ⟨.hbm, 121, rfl⟩
abbrev main_v76 : Ref sig .tc := ⟨.hbm, 122, rfl⟩
abbrev main_v77 : Ref sig .tc := ⟨.hbm, 123, rfl⟩
abbrev main_c_17 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_18 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_19 : Ref sig .tc := ⟨.hbm, 134, rfl⟩
abbrev main_v86 : Ref sig .tc := ⟨.hbm, 135, rfl⟩
abbrev main_cst_20 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_21 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_call0_cst : Ref sig .tc := ⟨.hbm, 152, rfl⟩
abbrev main_call0_v0 : Ref sig .tc := ⟨.hbm, 153, rfl⟩
abbrev main_v101 : Ref sig .tc := ⟨.hbm, 154, rfl⟩
abbrev main_call1_cst : Ref sig .tc := ⟨.hbm, 155, rfl⟩
abbrev main_call1_v0 : Ref sig .tc := ⟨.hbm, 156, rfl⟩
abbrev main_v102 : Ref sig .tc := ⟨.hbm, 157, rfl⟩
abbrev main_call2_cst : Ref sig .tc := ⟨.hbm, 158, rfl⟩
abbrev main_call2_v0 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_22 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_23 : Ref sig .tc := ⟨.hbm, 177, rfl⟩
abbrev main_call4_cst : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_v113 : Ref sig .tc := ⟨.hbm, 184, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x256_S300000x1_S300000x256_1_0_n_n_0_1_1256_wf : GatherDims.WF S50000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  dot_S100000x256_S256x256_S100000x256_1_0_0_1_n_n_wf : DotDims.WF S100000x256 S256x256 S100000x256 [1] [0] [0] [1] [] []
  gather_S100000x256_S300000x1_S300000x256_1_0_n_n_0_1_1256_wf : GatherDims.WF S100000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []
  gather_S20000x256_S300000x1_S300000x256_1_0_n_n_0_1_1256_wf : GatherDims.WF S20000x256 S300000x1 S300000x256 [1] [0] [] [0] [] 1 ![1, 256]
  scatter_S20000x256_S300000x1_S300000x256_1_0_0_1_wf : ScatterDims.WF S20000x256 S300000x1 S300000x256 [1] [0] [0] 1
  scatter_S20000_S300000x1_S300000_n_0_0_1_wf : ScatterDims.WF S20000 S300000x1 S300000 [] [0] [0] 1
  dot_S20000x256_S256x256_S20000x256_1_0_0_1_n_n_wf : DotDims.WF S20000x256 S256x256 S20000x256 [1] [0] [0] [1] [] []
  dot_S100000x256_S256x1_S100000x1_1_0_0_1_n_n_wf : DotDims.WF S100000x256 S256x1 S100000x1 [1] [0] [0] [1] [] []
  dot_S50000x256_S256x1_S50000x1_1_0_0_1_n_n_wf : DotDims.WF S50000x256 S256x1 S50000x1 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The idealized kernel's whole run, with every unscoped buffer NAMED at the end: the same launch over @main's six
  segments (three stretches of host operations, three pipelined regions) as the frame's, read against the final
  state at the last boundary's contents — each region's arrays at what its write-backs leave, every other buffer
  at the host operations' fold.
-/
import proofs.«148278_j50689204027573_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every final state has each unscoped
    buffer at the last boundary's contents. -/
theorem run_last : θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.Whole

end
-- ==== Proof.GnnSpec.lean ====
/-
  The arithmetic both programs compute, row by row, and the laws that read each side's operations at an index.

  One SAGE layer's pre-activation at destination row r and output column j is
      (Σ_k (agg[r,k] / max(cnt[r], 1)) · Wl[k,j] + bl[j]) + Σ_k x[r,k] · Wr[k,j];
  it depends on row r of the aggregated messages, the row's message count and row r of the node features only. The
  scalar head of a row is Σ_k relu(h[r,k]) · w[k] + b followed by the leaky rectifier. Both programs spell the
  matrix products as sums over a contraction index of their own shape; for the plain "rows × contraction by
  contraction × columns" dimension numbers that index is one coordinate, and the sum is the sum over Fin K.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Gnn

open Idealize.ShloMosaic Idealize.ShloMosaic.ValueIdx

/-! ## The plain matrix product's contraction, as a sum over one coordinate -/

theorem plain_lhs0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 {M K N : ℕ} (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 {M K N : ℕ} (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The plain product's sum over its contraction index is the sum over the shared axis's coordinate. -/
theorem plain_sum {M K N : ℕ} (L : (⟨2, ![M, K]⟩ : Shape).Idx → EReal) (R : (⟨2, ![K, N]⟩ : Shape).Idx → EReal)
    (r : Fin M) (c : Fin N) :
    ∑ q : (DotDims.plain M K N).contr.Idx,
        L ((DotDims.plain M K N).lhsIdx (ix2 r c) q) * R ((DotDims.plain M K N).rhsIdx (ix2 r c) q)
      = ∑ k : Fin K, L (ix2 r k) * R (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs0 _ _
      | ⟨1, _⟩ => exact (plain_lhs1 _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs0 _ _).trans hk
      | ⟨1, _⟩ => exact plain_rhs1 _ _)
  rw [el, er]

/-! ## The rows -/

/-- One SAGE layer's pre-activation at output column `j` of a destination row: the row's aggregated messages divided by
    its message count (at least `one`), times the left weights, plus the bias, plus the row's own features times the
    right weights. -/
def sageAt (one : EReal) (aggRow : Fin 256 → EReal) (cnt : EReal) (xRow : Fin 256 → EReal)
    (Wl : Fin 256 → Fin 256 → EReal) (bl : Fin 256 → EReal) (Wr : Fin 256 → Fin 256 → EReal) (j : Fin 256) : EReal :=
  ((∑ k : Fin 256, Ideal.div (aggRow k) (max cnt one) * Wl k j) + bl j) + ∑ k : Fin 256, xRow k * Wr k j

/-- The leaky rectifier as both programs spell it: `y` where `y ≥ zero`, `slope · y` elsewhere. -/
def lrelu (zero slope y : EReal) : EReal :=
  Scalar.select (FloatOps.cmpf (F := Ideal) (φ := FTy.f32) .oge y zero) y (slope * y)

/-- A row's scalar head: the rectified activations against the head's weights, plus its bias, leaky-rectified. -/
def headAt (zero slope : EReal) (h : Fin 256 → EReal) (w : Fin 256 → EReal) (b : EReal) : EReal :=
  lrelu zero slope ((∑ k : Fin 256, max (h k) zero * w k) + b)

/-! ## The host's operations at an index -/

section Host
variable {n : ℕ}

/-- The per-row message count, clamped below by one and broadcast along a row, read at `(r, k)`. -/
theorem host_count_apply (one : BitVec 32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, 256]⟩ ![0, 1])
    (cnt : FVec Ideal ⟨1, ![n]⟩ .f32) (r : Fin n) (k : Fin 256) :
    broadcastInDim ⟨2, ![n, 256]⟩ ![0, 1] h2 (broadcastInDim ⟨2, ![n, 1]⟩ ![0] h1
        (maximumf cnt (broadcastInDim ⟨1, ![n]⟩ ![] h0 (constant (F := Ideal) ⟨0, ![]⟩ .f32 one)))) (ix2 r k)
      = max (cnt (ix1 r)) (Ideal.ofBits .f32 one) := by
  rw [broadcastInDim_apply _ h2 _ (ix2 r k) (ix2 r (0 : Fin 1)) (fun a => by
    match a with
    | ⟨0, _⟩ =>
      show r.val = if n = 1 then 0 else r.val
      split
      · have := r.isLt; omega
      · rfl
    | ⟨1, _⟩ => rfl)]
  rw [broadcastInDim_apply _ h1 _ (ix2 r (0 : Fin 1)) (ix1 r) (fun a => by
    match a with
    | ⟨0, _⟩ =>
      show r.val = if n = 1 then 0 else r.val
      split
      · have := r.isLt; omega
      · rfl)]
  rw [maximumf_apply, broadcastInDim_scalar_apply]
  rfl

/-- The bias, broadcast to one row and then down the rows, read at `(r, j)`. -/
theorem host_bias_apply
    (h3 : (⟨1, ![256]⟩ : Shape).BroadcastsInDim ⟨2, ![1, 256]⟩ ![1])
    (h4 : (⟨2, ![1, 256]⟩ : Shape).BroadcastsInDim ⟨2, ![n, 256]⟩ ![0, 1])
    (bl : FVec Ideal ⟨1, ![256]⟩ .f32) (r : Fin n) (j : Fin 256) :
    broadcastInDim ⟨2, ![n, 256]⟩ ![0, 1] h4 (broadcastInDim ⟨2, ![1, 256]⟩ ![1] h3 bl) (ix2 r j) = bl (ix1 j) := by
  rw [broadcastInDim_apply _ h4 _ (ix2 r j) (ix2 (0 : Fin 1) j) (fun a => by
    match a with
    | ⟨0, _⟩ => rfl
    | ⟨1, _⟩ => rfl)]
  rw [broadcastInDim_apply _ h3 _ (ix2 (0 : Fin 1) j) (ix1 j) (fun a => by
    match a with
    | ⟨0, _⟩ => rfl)]

/-- The host's plain matrix product at `(r, c)`. -/
theorem host_dot_apply {K N : ℕ} {φ₁ φ₂ : FTy} (D : DotDims ⟨2, ![n, K]⟩ ⟨2, ![K, N]⟩ ⟨2, ![n, N]⟩) (hD : D = DotDims.plain n K N)
    (L : FVec Ideal ⟨2, ![n, K]⟩ φ₁) (R : FVec Ideal ⟨2, ![K, N]⟩ φ₂) (r : Fin n) (c : Fin N) :
    Host.dotGeneral D none L R (ix2 r c) = ∑ k : Fin K, L (ix2 r k) * R (ix2 k c) := by
  subst hD
  simp only [Host.dotGeneral]
  rw [Ideal.dotGeneral_apply]
  exact plain_sum L R r c

/-- The reference's SAGE layer, as its host operations compose it, read at `(r, j)`. -/
theorem host_sage_apply (D : DotDims ⟨2, ![n, 256]⟩ ⟨2, ![256, 256]⟩ ⟨2, ![n, 256]⟩) (hD : D = DotDims.plain n 256 256)
    (one : BitVec 32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, 256]⟩ ![0, 1])
    (h3 : (⟨1, ![256]⟩ : Shape).BroadcastsInDim ⟨2, ![1, 256]⟩ ![1])
    (h4 : (⟨2, ![1, 256]⟩ : Shape).BroadcastsInDim ⟨2, ![n, 256]⟩ ![0, 1])
    (agg x : FVec Ideal ⟨2, ![n, 256]⟩ .f32) (cnt : FVec Ideal ⟨1, ![n]⟩ .f32)
    (Wl Wr : FVec Ideal ⟨2, ![256, 256]⟩ .f32) (bl : FVec Ideal ⟨1, ![256]⟩ .f32) (r : Fin n) (j : Fin 256) :
    addf (addf (Host.dotGeneral D none (Host.divf agg (broadcastInDim ⟨2, ![n, 256]⟩ ![0, 1] h2 (broadcastInDim ⟨2, ![n, 1]⟩ ![0] h1
          (maximumf cnt (broadcastInDim ⟨1, ![n]⟩ ![] h0 (constant (F := Ideal) ⟨0, ![]⟩ .f32 one)))))) Wl)
        (broadcastInDim ⟨2, ![n, 256]⟩ ![0, 1] h4 (broadcastInDim ⟨2, ![1, 256]⟩ ![1] h3 bl)))
      (Host.dotGeneral D none x Wr) (ix2 r j)
    = sageAt (Ideal.ofBits .f32 one) (fun k => agg (ix2 r k)) (cnt (ix1 r)) (fun k => x (ix2 r k))
        (fun k j => Wl (ix2 k j)) (fun j => bl (ix1 j)) (fun k j => Wr (ix2 k j)) j := by
  rw [addf_apply, addf_apply, host_dot_apply D hD, host_dot_apply D hD, host_bias_apply]
  unfold sageAt
  refine congrArg₂ (· + ·) (congrArg₂ (· + ·) (Finset.sum_congr rfl fun k _ => ?_) rfl) rfl
  show Ideal.div (agg (ix2 r k)) _ * _ = _
  rw [host_count_apply]

end Host

section HostHead
variable {n : ℕ}

/-- The reference's head before its leaky rectifier, read at `(r, c)`: the rectified activations' product with the
    one-column weight matrix, plus the bias broadcast from its one entry. -/
theorem host_headsum_apply (D1 : DotDims ⟨2, ![n, 256]⟩ ⟨2, ![256, 1]⟩ ⟨2, ![n, 1]⟩) (hD1 : D1 = DotDims.plain n 256 1)
    (zero : BitVec 32)
    (h5 : (⟨1, ![1]⟩ : Shape).BroadcastsInDim ⟨2, ![1, 1]⟩ ![1])
    (h6 : (⟨2, ![1, 1]⟩ : Shape).BroadcastsInDim ⟨2, ![n, 1]⟩ ![0, 1])
    (h7 : (⟨0, ![]⟩ : Shape).BroadcastsInDim ⟨2, ![n, 256]⟩ ![])
    (A : FVec Ideal ⟨2, ![n, 256]⟩ .f32) (W : FVec Ideal ⟨2, ![256, 1]⟩ .f32) (b : FVec Ideal ⟨1, ![1]⟩ .f32)
    (r : Fin n) (c : Fin 1) :
    addf (Host.dotGeneral D1 none (maximumf A (broadcastInDim ⟨2, ![n, 256]⟩ ![] h7 (constant (F := Ideal) ⟨0, ![]⟩ .f32 zero))) W)
        (broadcastInDim ⟨2, ![n, 1]⟩ ![0, 1] h6 (broadcastInDim ⟨2, ![1, 1]⟩ ![1] h5 b)) (ix2 r c)
      = (∑ k : Fin 256, max (A (ix2 r k)) (Ideal.ofBits .f32 zero) * W (ix2 k (0 : Fin 1))) + b (ix1 (0 : Fin 1)) := by
  obtain rfl : c = 0 := Subsingleton.elim _ _
  rw [addf_apply, host_dot_apply D1 hD1]
  rw [broadcastInDim_apply _ h6 _ (ix2 r (0 : Fin 1)) (ix2 (0 : Fin 1) (0 : Fin 1)) (fun a => by
    match a with
    | ⟨0, _⟩ => rfl
    | ⟨1, _⟩ => rfl)]
  rw [broadcastInDim_apply _ h5 _ (ix2 (0 : Fin 1) (0 : Fin 1)) (ix1 (0 : Fin 1)) (fun a => by
    match a with
    | ⟨0, _⟩ => rfl)]
  refine congrArg₂ (· + ·) (Finset.sum_congr rfl fun k _ => ?_) rfl
  rw [maximumf_apply, broadcastInDim_scalar_apply]
  rfl

/-- The reference's leaky rectifier at an index: the comparison against the broadcast zero selects between the value
    and its product with the broadcast slope. -/
theorem host_lrelu_apply {s : Shape} (zero : BitVec 32) (S : FVec Ideal ⟨0, ![]⟩ .f32)
    (h8 : (⟨0, ![]⟩ : Shape).BroadcastsInDim s ![])
    (Y : FVec Ideal s .f32) (i : s.Idx) :
    select (cmpf .oge Y (broadcastInDim s ![] h8 (constant (F := Ideal) ⟨0, ![]⟩ .f32 zero))) Y
        (mulf (broadcastInDim s ![] h8 S) Y) i
      = lrelu (Ideal.ofBits .f32 zero) (S ix0) (Y i) := by
  rw [select_apply, cmpf_apply, mulf_apply, broadcastInDim_scalar_apply, broadcastInDim_scalar_apply]
  rfl

end HostHead

/-! ## The kernel body's operations at an index of a block of `m` rows -/

section Block
variable {m : ℕ}

/-- A block row's mean: the aggregated messages over the row's count, clamped below by one and broadcast along the
    row, rounded to the matrix unit's input format (the identity on extended reals). -/
theorem ker_mean_apply (one : EReal)
    (hs : (⟨2, ![m, 256]⟩ : Shape).ShapeCasts ⟨2, ![m, 256]⟩) (hs' : (⟨2, ![m, 1]⟩ : Shape).ShapeCasts ⟨2, ![m, 1]⟩)
    (hb : (⟨2, ![m, 1]⟩ : Shape).Broadcasts ⟨2, ![m, 256]⟩) (hlt : FTy.bf16.bits < FTy.f32.bits)
    (agg : FVec Ideal ⟨2, ![m, 256]⟩ .f32) (cnt : FVec Ideal ⟨2, ![m, 1]⟩ .f32) (p : Fin m) (k : Fin 256) :
    (truncf .bf16 (divf (shapeCast ⟨2, ![m, 256]⟩ agg hs)
        (broadcastTo ⟨2, ![m, 256]⟩ (maximumf (shapeCast ⟨2, ![m, 1]⟩ cnt hs') (broadcast ⟨2, ![m, 1]⟩ one)) hb)) hlt
          : FVec Ideal ⟨2, ![m, 256]⟩ .bf16) (ix2 p k)
      = Ideal.div (agg (ix2 p k)) (max (cnt (ix2 p (0 : Fin 1))) one) := by
  rw [truncf_apply, divf_apply, shapeCast_self, shapeCast_self]
  rw [broadcastTo_apply _ hb (ix2 p k) (ix2 p (0 : Fin 1)) (fun a => by
    match a with
    | ⟨0, _⟩ =>
      show p.val = if m = 1 then 0 else p.val
      split
      · have := p.isLt; omega
      · rfl
    | ⟨1, _⟩ => rfl)]
  rfl

/-- The matrix unit's product into a zero accumulator at `(p, q)`. -/
theorem ker_dot_apply {φ₁ φ₂ : FTy} (D : DotDims ⟨2, ![m, 256]⟩ ⟨2, ![256, 256]⟩ ⟨2, ![m, 256]⟩) (hD : D = DotDims.plain m 256 256)
    (hc : (⟨2, ![256, 256]⟩ : Shape).ShapeCasts ⟨2, ![256, 256]⟩)
    (X : FVec Ideal ⟨2, ![m, 256]⟩ φ₁) (W : FVec Ideal ⟨2, ![256, 256]⟩ φ₂) (p : Fin m) (q : Fin 256) :
    matmul D none X (shapeCast ⟨2, ![256, 256]⟩ W hc) (constant ⟨2, ![m, 256]⟩ .f32 0x00000000#32) (ix2 p q)
      = ∑ k : Fin 256, X (ix2 p k) * W (ix2 k q) := by
  subst hD
  rw [shapeCast_self]
  simp only [matmul]
  rw [Ideal.matmul_constant_zero_apply]
  exact plain_sum X W p q

/-- A bias vector laid out as one row and broadcast down the block, at `(p, q)`. -/
theorem ker_bias_apply (hc : (⟨1, ![256]⟩ : Shape).ShapeCasts ⟨2, ![1, 256]⟩)
    (hb : (⟨2, ![1, 256]⟩ : Shape).Broadcasts ⟨2, ![m, 256]⟩)
    (bl : FVec Ideal ⟨1, ![256]⟩ .f32) (p : Fin m) (q : Fin 256) :
    broadcastTo ⟨2, ![m, 256]⟩ (shapeCast ⟨2, ![1, 256]⟩ bl hc) hb (ix2 p q) = bl (ix1 q) := by
  rw [broadcastTo_1b_ab_apply, shapeCast_a_1a_apply]

/-- A one-row array (the head's weights) broadcast down the block, at `(p, q)`. -/
theorem ker_row_apply (hc : (⟨2, ![1, 256]⟩ : Shape).ShapeCasts ⟨2, ![1, 256]⟩)
    (hb : (⟨2, ![1, 256]⟩ : Shape).Broadcasts ⟨2, ![m, 256]⟩)
    (w : FVec Ideal ⟨2, ![1, 256]⟩ .f32) (p : Fin m) (q : Fin 256) :
    broadcastTo ⟨2, ![m, 256]⟩ (shapeCast ⟨2, ![1, 256]⟩ w hc) hb (ix2 p q) = w (ix2 (0 : Fin 1) q) := by
  rw [broadcastTo_1b_ab_apply, shapeCast_self]

/-- The block's head before its leaky rectifier, at `(p, c)`: the lane sum of the products, kept as a column, plus the
    bias's one entry. -/
theorem ker_headsum_apply (hred : (⟨2, ![m, 256]⟩ : Shape).Reduces [1] ⟨1, ![m]⟩) (hφ : FKind.Formats .f32)
    (hacc : (0x00000000#32 : BitVec 32) = FKind.add.neutral .f32 hφ)
    (hc1 : (⟨1, ![m]⟩ : Shape).ShapeCasts ⟨2, ![m, 1]⟩) (hc2 : (⟨1, ![1]⟩ : Shape).ShapeCasts ⟨2, ![1, 1]⟩)
    (hb2 : (⟨2, ![1, 1]⟩ : Shape).Broadcasts ⟨2, ![m, 1]⟩)
    (P : FVec Ideal ⟨2, ![m, 256]⟩ .f32) (b : FVec Ideal ⟨1, ![1]⟩ .f32) (p : Fin m) (c : Fin 1) :
    addf (shapeCast ⟨2, ![m, 1]⟩ (multiReduction .add [1] ⟨1, ![m]⟩ P 0x00000000#32 hred hφ hacc) hc1)
        (broadcastTo ⟨2, ![m, 1]⟩ (shapeCast ⟨2, ![1, 1]⟩ b hc2) hb2) (ix2 p c)
      = (∑ k : Fin 256, P (ix2 p k)) + b (ix1 (0 : Fin 1)) := by
  obtain rfl : c = 0 := Subsingleton.elim _ _
  rw [addf_apply]
  refine congrArg₂ (· + ·) ?_ ?_
  · rw [shapeCast_apply _ hc1 (ix2 p (0 : Fin 1)) (ix1 p) (by
      rw [Shape.rowMajor_val_two, Shape.rowMajor_val_one]
      show p.val = p.val * 1 + 0
      omega)]
    refine (Ideal.multiReduction_add_single P 0x00000000#32 hred hφ hacc (ix1 p)).trans ?_
    refine Finset.sum_congr rfl fun k _ => ?_
    exact congrArg P (funext fun a => Fin.ext (by match a with | ⟨0, _⟩ => rfl | ⟨1, _⟩ => rfl))
  · rw [broadcastTo_apply _ hb2 (ix2 p (0 : Fin 1)) (ix2 (0 : Fin 1) (0 : Fin 1)) (fun a => by
      match a with
      | ⟨0, _⟩ => rfl
      | ⟨1, _⟩ => rfl)]
    rw [shapeCast_apply _ hc2 (ix2 (0 : Fin 1) (0 : Fin 1)) (ix1 (0 : Fin 1)) (by
      rw [Shape.rowMajor_val_two, Shape.rowMajor_val_one]; rfl)]

/-- The body's leaky rectifier at an index. -/
theorem ker_lrelu_apply {s : Shape} (zero slope : EReal) (Y : FVec Ideal s .f32) (i : s.Idx) :
    select (cmpf .oge Y (broadcast s zero)) Y (mulf (broadcast s slope) Y) i = lrelu zero slope (Y i) := rfl

end Block

/-! ## Whole arrays -/

section Arrays
variable {n : ℕ}

/-- The SAGE layer over whole arrays: row `r`, column `j`. The message counts come as a function of the row. -/
def sageArr (one : EReal) (agg : (⟨2, ![n, 256]⟩ : Shape).Idx → EReal) (cnt : Fin n → EReal)
    (x : (⟨2, ![n, 256]⟩ : Shape).Idx → EReal) (Wl : (⟨2, ![256, 256]⟩ : Shape).Idx → EReal)
    (bl : (⟨1, ![256]⟩ : Shape).Idx → EReal) (Wr : (⟨2, ![256, 256]⟩ : Shape).Idx → EReal) (r : Fin n) (j : Fin 256) : EReal :=
  sageAt one (fun k => agg (ix2 r k)) (cnt r) (fun k => x (ix2 r k)) (fun k j => Wl (ix2 k j)) (fun j => bl (ix1 j))
    (fun k j => Wr (ix2 k j)) j

/-- A rectified array of pre-activations `h`. -/
def reluArr (zero : EReal) (h : Fin n → Fin 256 → EReal) : (⟨2, ![n, 256]⟩ : Shape).Idx → EReal :=
  fun i => max (h ⟨(i 0).val, idx2_lt0 i⟩ ⟨(i 1).val, idx2_lt1 i⟩) zero

/-- The head's one column over pre-activations `h`, the head's weights a function of the feature and its bias a number. -/
def headArr (zero slope : EReal) (h : Fin n → Fin 256 → EReal) (w : Fin 256 → EReal) (b : EReal) :
    (⟨2, ![n, 1]⟩ : Shape).Idx → EReal :=
  fun i => headAt zero slope (h ⟨(i 0).val, idx2_lt0 i⟩) w b

theorem reluArr_ix2 (zero : EReal) (h : Fin n → Fin 256 → EReal) (r : Fin n) (j : Fin 256) :
    reluArr zero h (ix2 r j) = max (h r j) zero := rfl
theorem headArr_ix2 (zero slope : EReal) (h : Fin n → Fin 256 → EReal) (w : Fin 256 → EReal) (b : EReal) (r : Fin n) (c : Fin 1) :
    headArr zero slope h w b (ix2 r c) = headAt zero slope (h r) w b := rfl

end Arrays

/-! ## Small layout facts and congruences -/

/-- A length-`n` vector laid out as a column reads, at `(r, c)`, the vector at `r`. -/
theorem shapeCast_col_apply {n : ℕ} {α : Type} (x : (⟨1, ![n]⟩ : Shape).Idx → α)
    (h : (⟨1, ![n]⟩ : Shape).ShapeCasts ⟨2, ![n, 1]⟩) (r : Fin n) (c : Fin 1) :
    shapeCast ⟨2, ![n, 1]⟩ x h (ix2 r c) = x (ix1 r) :=
  shapeCast_apply x h _ _ (by
    have hc : c.val = 0 := by omega
    rw [Shape.rowMajor_val_two, Shape.rowMajor_val_one]
    show r.val = r.val * 1 + c.val
    omega)

/-- Rounding to the matrix unit's input format is the identity on arrays of extended reals. -/
theorem truncf_ideal {s : Shape} {φ ψ : FTy} (x : FVec Ideal s φ) (h : ψ.bits < φ.bits) :
    (truncf (F := Ideal) ψ x h : s.Idx → EReal) = x := rfl

theorem sageArr_congr {n : ℕ} (one : EReal) {A A' X X' : (⟨2, ![n, 256]⟩ : Shape).Idx → EReal} {C C' : Fin n → EReal}
    {Wl Wl' Wr Wr' : (⟨2, ![256, 256]⟩ : Shape).Idx → EReal} {bl bl' : (⟨1, ![256]⟩ : Shape).Idx → EReal}
    (hA : A = A') (hC : C = C') (hX : X = X') (hWl : Wl = Wl') (hbl : bl = bl') (hWr : Wr = Wr') :
    sageArr one A C X Wl bl Wr = sageArr one A' C' X' Wl' bl' Wr' := by
  subst hA hC hX hWl hbl hWr; rfl

theorem headArr_congr {n : ℕ} (zero slope : EReal) {h h' : Fin n → Fin 256 → EReal} {w w' : Fin 256 → EReal} {b b' : EReal}
    (hh : h = h') (hw : w = w') (hb : b = b') : headArr zero slope h w b = headArr zero slope h' w' b' := by
  subst hh hw hb; rfl

theorem reluArr_congr {n : ℕ} (zero : EReal) {h h' : Fin n → Fin 256 → EReal} (hh : h = h') :
    reluArr zero h = reluArr zero h' := by
  subst hh; rfl

end Gnn

end
-- ==== Proof.KBlocks.lean ====
/-
  Each kernel body's stored block, read at one element: the body's arithmetic is the row-level specification of the
  blocks it loads — one SAGE layer for the 20000-row kernel, the layer and the scalar head for the 100000-row kernel,
  two layers summed and the head for the 50000-row kernel.
-/
import proofs.«148278_j50689204027573_2_alg».proof.Proof.Gen.KernelIdeal.Frame
import proofs.«148278_j50689204027573_2_alg».proof.Proof.GnnSpec

set_option maxRecDepth 16384

noncomputable section

namespace Cert.KernelIdeal.Blocks

open Cert.KernelIdeal Cert.KernelIdeal.Gen Idealize.ShloMosaic Idealize.ShloMosaic.ValueIdx Gnn

theorem hz2 : (![0, 0] : Fin 2 → Nat) = fun _ => 0 := funext fun a => by fin_cases a <;> rfl
theorem hz1 : (![0] : Fin 1 → Nat) = fun _ => 0 := funext fun a => by fin_cases a <;> rfl

/-- The kernels' matrix products carry the plain dimension numbers. -/
theorem dot_plain : dot_S2000x256_S256x256_S2000x256_1_0_0_1_n_n = DotDims.plain 2000 256 256 := rfl

/-- The words the bodies splat. -/
abbrev oneW : EReal := Ideal.ofBits .f32 0x3F800000#32
abbrev zeroW : EReal := Ideal.ofBits .f32 0x00000000#32
abbrev slopeW : EReal := Ideal.ofBits .f32 0x3A83126F#32

/-! ## The shared pieces of the three bodies, at an element of a 2000-row block -/

/-- One SAGE layer as a body spells it — the means rounded into the matrix unit against the left weights, the bias
    row broadcast down the block, the block's own features against the right weights — at `(p, q)`. -/
theorem sage_term_apply (v0 : FVec Ideal S2000x1 .f32) (v4 : FVec Ideal S2000x256 .f32) (xb : FVec Ideal S2000x256 .bf16)
    (v11 : FVec Ideal S256x256 .bf16) (v14 : FVec Ideal S256 .f32) (v18 : FVec Ideal S256x256 .bf16) (p : Fin 2000) (q : Fin 256) :
    addf (addf (matmul dot_S2000x256_S256x256_S2000x256_1_0_0_1_n_n none
          (truncf .bf16 (divf (shapeCast S2000x256 v4 shapeCasts_S2000x256_S2000x256)
            (broadcastTo S2000x256 (maximumf (shapeCast S2000x1 v0 shapeCasts_S2000x1_S2000x1)
              (broadcast S2000x1 (Scalar.ofBits (F := Ideal) .f32 0x3F800000#32))) broadcasts_S2000x1_S2000x256)) bitsLt_bf16_f32)
          (shapeCast S256x256 v11 shapeCasts_S256x256_S256x256) (constant S2000x256 .f32 0x00000000#32))
        (broadcastTo S2000x256 (shapeCast S1x256 v14 shapeCasts_S256_S1x256) broadcasts_S1x256_S2000x256))
      (matmul dot_S2000x256_S256x256_S2000x256_1_0_0_1_n_n none xb
        (shapeCast S256x256 v18 shapeCasts_S256x256_S256x256) (constant S2000x256 .f32 0x00000000#32)) (ix2 p q)
    = sageAt oneW (fun k => v4 (ix2 p k)) (v0 (ix2 p (0 : Fin 1))) (fun k => xb (ix2 p k))
        (fun k j => v11 (ix2 k j)) (fun j => v14 (ix1 j)) (fun k j => v18 (ix2 k j)) q := by
  rw [addf_apply, addf_apply]
  refine congrArg₂ (· + ·) (congrArg₂ (· + ·) ?_ ?_) ?_
  · refine (ker_dot_apply _ dot_plain _ _ _ p q).trans ?_
    exact Finset.sum_congr rfl fun k _ => congrArg (· * _) (ker_mean_apply _ _ _ _ _ v4 v0 p k)
  · exact ker_bias_apply _ _ v14 p q
  · exact ker_dot_apply _ dot_plain _ _ _ p q

/-- The scalar head before its leaky rectifier, as a body spells it over pre-activations `H`, at `(p, c)`. -/
theorem head_term_apply (H : FVec Ideal S2000x256 .f32) (w : FVec Ideal S1x256 .f32) (b : FVec Ideal S1 .f32)
    (p : Fin 2000) (c : Fin 1) :
    addf (shapeCast S2000x1 (multiReduction .add [1] S2000
          (mulf (maximumf H (broadcast S2000x256 (Scalar.ofBits (F := Ideal) .f32 0x00000000#32)))
            (broadcastTo S2000x256 (shapeCast S1x256 w shapeCasts_S1x256_S1x256) broadcasts_S1x256_S2000x256))
          0x00000000#32 reduces_S2000x256_S2000 (.inl rfl) rfl) shapeCasts_S2000_S2000x1)
        (broadcastTo S2000x1 (shapeCast S1x1 b shapeCasts_S1_S1x1) broadcasts_S1x1_S2000x1) (ix2 p c)
      = (∑ k : Fin 256, max (H (ix2 p k)) zeroW * w (ix2 (0 : Fin 1) k)) + b (ix1 (0 : Fin 1)) := by
  refine (ker_headsum_apply _ _ _ _ _ _ _ b p c).trans ?_
  refine congrArg₂ (· + ·) (Finset.sum_congr rfl fun k _ => ?_) rfl
  rw [mulf_apply, maximumf_apply]
  exact congrArg₂ (· * ·) rfl (ker_row_apply _ _ w p k)

/-! ## The 20000-row kernel -/

theorem pay2_apply (v0 : FVec Ideal S2000x1 .f32) (v4 v9 : FVec Ideal S2000x256 .f32) (v11 : FVec Ideal S256x256 .bf16)
    (v14 : FVec Ideal S256 .f32) (v18 : FVec Ideal S256x256 .bf16) (p : Fin 2000) (q : Fin 256) :
    k2_pay1 (F := Ideal) v0 v4 v9 v11 v14 v18 (ix2 p q)
      = max (sageAt oneW (fun k => v4 (ix2 p k)) (v0 (ix2 p (0 : Fin 1))) (fun k => v9 (ix2 p k))
          (fun k j => v11 (ix2 k j)) (fun j => v14 (ix1 j)) (fun k j => v18 (ix2 k j)) q) zeroW := by
  unfold k2_pay1
  rw [maximumf_apply]
  exact congrArg₂ max (sage_term_apply v0 v4 _ v11 v14 v18 p q) rfl

/-- The 20000-row body's stored block at `(p, q)`: the rectified layer of the loaded blocks' row `p`. -/
theorem out2_apply (x0 : FVec Ideal S2000x256 .f32) (x1 : FVec Ideal S2000x1 .f32) (x2 : FVec Ideal S2000x256 .f32)
    (x3 : FVec Ideal S256x256 .bf16) (x4 : FVec Ideal S256 .f32) (x5 : FVec Ideal S256x256 .bf16) (p : Fin 2000) (q : Fin 256) :
    out2_6 (F := Ideal) x0 x1 x2 x3 x4 x5 (ix2 p q)
      = max (sageAt oneW (fun k => x0 (ix2 p k)) (x1 (ix2 p (0 : Fin 1))) (fun k => x2 (ix2 p k))
          (fun k j => x3 (ix2 k j)) (fun j => x4 (ix1 j)) (fun k j => x5 (ix2 k j)) q) zeroW := by
  unfold out2_6
  rw [View.canon_unit_zero hz2]
  simp only [View.ld_unit_zero (S := S2000x1) hz2, View.ld_unit_zero (S := S2000x256) hz2, View.ld_unit_zero (S := S256x256) hz2,
    View.ld_unit_zero (S := S256) hz1]
  exact pay2_apply x1 x0 x2 x3 x4 x5 p q

/-! ## The 100000-row kernel -/

/-- The 100000-row body's stored block at `(p, c)`: the head of the loaded blocks' row `p`. -/
theorem out0_apply (x0 : FVec Ideal S2000x256 .f32) (x1 : FVec Ideal S2000x1 .f32) (x2 : FVec Ideal S2000x256 .f32)
    (x3 : FVec Ideal S256x256 .bf16) (x4 : FVec Ideal S256 .f32) (x5 : FVec Ideal S256x256 .bf16)
    (x6 : FVec Ideal S1x256 .f32) (x7 : FVec Ideal S1 .f32) (p : Fin 2000) (c : Fin 1) :
    out0_8 (F := Ideal) x0 x1 x2 x3 x4 x5 x6 x7 (ix2 p c)
      = headAt zeroW slopeW (fun k => sageAt oneW (fun k' => x0 (ix2 p k')) (x1 (ix2 p (0 : Fin 1))) (fun k' => x2 (ix2 p k'))
          (fun k' j => x3 (ix2 k' j)) (fun j => x4 (ix1 j)) (fun k' j => x5 (ix2 k' j)) k)
          (fun k => x6 (ix2 (0 : Fin 1) k)) (x7 (ix1 (0 : Fin 1))) := by
  unfold out0_8
  rw [View.canon_unit_zero hz2]
  simp only [View.ld_unit_zero (S := S2000x1) hz2, View.ld_unit_zero (S := S2000x256) hz2, View.ld_unit_zero (S := S256x256) hz2,
    View.ld_unit_zero (S := S256) hz1, View.ld_unit_zero (S := S1x256) hz2, View.ld_unit_zero (S := S1) hz1]
  unfold k0_pay1 k0_pay3 k0_pay4
  refine (ker_lrelu_apply zeroW slopeW _ _).trans ?_
  unfold headAt
  refine congrArg (lrelu zeroW slopeW) ?_
  unfold k0_pay2
  refine (head_term_apply _ x6 x7 p c).trans ?_
  exact congrArg₂ (· + ·) (Finset.sum_congr rfl fun k _ =>
    congrArg₂ (· * ·) (congrArg₂ max (sage_term_apply x1 x0 _ x3 x4 x5 p k) rfl) rfl) rfl

/-! ## The 50000-row kernel -/

/-- The 50000-row body's stored block at `(p, c)`: the head of the two layers' sum at the loaded blocks' row `p`. -/
theorem out1_apply (x0 : FVec Ideal S2000x256 .f32) (x1 : FVec Ideal S2000x1 .f32) (x2 : FVec Ideal S2000x256 .f32)
    (x3 : FVec Ideal S2000x1 .f32) (x4 : FVec Ideal S2000x256 .f32)
    (x5 : FVec Ideal S256x256 .bf16) (x6 : FVec Ideal S256 .f32) (x7 : FVec Ideal S256x256 .bf16)
    (x8 : FVec Ideal S256x256 .bf16) (x9 : FVec Ideal S256 .f32) (x10 : FVec Ideal S256x256 .bf16)
    (x11 : FVec Ideal S1x256 .f32) (x12 : FVec Ideal S1 .f32) (p : Fin 2000) (c : Fin 1) :
    out1_13 (F := Ideal) x0 x1 x2 x3 x4 x5 x6 x7 x8 x9 x10 x11 x12 (ix2 p c)
      = headAt zeroW slopeW (fun k =>
            sageAt oneW (fun k' => x0 (ix2 p k')) (x1 (ix2 p (0 : Fin 1))) (fun k' => x4 (ix2 p k'))
              (fun k' j => x5 (ix2 k' j)) (fun j => x6 (ix1 j)) (fun k' j => x7 (ix2 k' j)) k
            + sageAt oneW (fun k' => x2 (ix2 p k')) (x3 (ix2 p (0 : Fin 1))) (fun k' => x4 (ix2 p k'))
              (fun k' j => x8 (ix2 k' j)) (fun j => x9 (ix1 j)) (fun k' j => x10 (ix2 k' j)) k)
          (fun k => x11 (ix2 (0 : Fin 1) k)) (x12 (ix1 (0 : Fin 1))) := by
  unfold out1_13
  rw [View.canon_unit_zero hz2]
  simp only [View.ld_unit_zero (S := S2000x1) hz2, View.ld_unit_zero (S := S2000x256) hz2, View.ld_unit_zero (S := S256x256) hz2,
    View.ld_unit_zero (S := S256) hz1, View.ld_unit_zero (S := S1x256) hz2, View.ld_unit_zero (S := S1) hz1]
  unfold k1_pay1
  refine (ker_lrelu_apply zeroW slopeW _ _).trans ?_
  unfold headAt
  refine congrArg (lrelu zeroW slopeW) ?_
  refine (head_term_apply _ x11 x12 p c).trans ?_
  refine congrArg₂ (· + ·) (Finset.sum_congr rfl fun k _ => congrArg₂ (· * ·) (congrArg₂ max ?_ rfl) rfl) rfl
  rw [addf_apply]
  refine congrArg₂ (· + ·) ?_ ?_
  · unfold k1_pay3 k1_pay2
    exact sage_term_apply x1 x0 _ x5 x6 x7 p k
  · unfold k1_pay4 k1_pay5 k1_pay2
    exact sage_term_apply x3 x2 _ x8 x9 x10 p k

end Cert.KernelIdeal.Blocks

end
-- ==== Proof.KRegion0.lean ====
/-
  The 100000-row region: the array its write-backs leave is the scalar head of the SAGE layer of the arrays the region
  finds, row by row — block `t` holds rows 2000·t … 2000·t + 1999, the weights' windows stay at their one block.
-/
import proofs.«148278_j50689204027573_2_alg».proof.Proof.KBlocks

set_option maxRecDepth 16384

noncomputable section

namespace Cert.KernelIdeal.Region0

open Cert.KernelIdeal Cert.KernelIdeal.Gen Cert.KernelIdeal.Blocks Idealize.ShloMosaic Idealize.ShloMosaic.TcCoe Idealize.ShloMosaic.ValueIdx Gnn
open Idealize.ShloMosaic.Pipeline (Dat Cfg Window)

variable (V : (c : Dev nD) → (b : Ref sig .tc) → Buf (Elt Ideal) ((c : Thread nD τ).loc b))

/-- The printed index maps over the grid: the row-blocked windows sit at block `t`, every other window at its one block. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 1) = 0
    ∧ win0_8.index t (0 : Fin 2) = t.val
    ∧ win0_8.index t (1 : Fin 2) = 0 :=
  (by decide +kernel : ∀ t : Fin grid0.N, _)

/-- Row `p` of block `t` is row `2000·t + p` of the array. -/
def row (t : Fin cfg0.N) (p : Fin 2000) : Fin 100000 :=
  ⟨t.val * 2000 + p.val, by have := t.isLt; have h : cfg0.N = 50 := N_0; have := p.isLt; omega⟩

theorem read_0 (c : Dev nD) (t : Fin cfg0.N) (p : Fin 2000) (k : Fin 256) :
    iblk0 V c 0 t (ix2 p k) = (V c main_v9 : S100000x256.Idx → EReal) (ix2 (row t p) k) := by
  obtain ⟨e0, e1, -⟩ := idx_facts t
  show (V c main_v9 : S100000x256.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

theorem read_1 (c : Dev nD) (t : Fin cfg0.N) (p : Fin 2000) :
    iblk0 V c 1 t (ix2 p (0 : Fin 1)) = (V c main_v14 : S100000x1.Idx → EReal) (ix2 (row t p) (0 : Fin 1)) := by
  obtain ⟨-, -, e0, e1, -⟩ := idx_facts t
  show (V c main_v14 : S100000x1.Idx → EReal) (((cfg0.win 1).blk t).view.emb (ix2 p (0 : Fin 1))) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

theorem read_2 (c : Dev nD) (t : Fin cfg0.N) (p : Fin 2000) (k : Fin 256) :
    iblk0 V c 2 t (ix2 p k) = (V c main_arg1 : S100000x256.Idx → EReal) (ix2 (row t p) k) := by
  obtain ⟨-, -, -, -, e0, e1, -⟩ := idx_facts t
  show (V c main_arg1 : S100000x256.Idx → EReal) (((cfg0.win 2).blk t).view.emb (ix2 p k)) = _
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 256 + 1 * k.val = k.val; omega

theorem read_3 (c : Dev nD) (t : Fin cfg0.N) (k j : Fin 256) :
    iblk0 V c 3 t (ix2 k j) = (V c main_v60 : S256x256.Idx → EReal) (ix2 k j) := by
  obtain ⟨-, -, -, -, -, -, e0, e1, -⟩ := idx_facts t
  show (V c main_v60 : S256x256.Idx → EReal) (((cfg0.win 3).blk t).view.emb (ix2 k j)) = _
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * j.val = j.val; omega

theorem read_4 (c : Dev nD) (t : Fin cfg0.N) (j : Fin 256) :
    iblk0 V c 4 t (ix1 j) = (V c main_arg12 : S256.Idx → EReal) (ix1 j) := by
  obtain ⟨-, -, -, -, -, -, -, -, e0, -⟩ := idx_facts t
  show (V c main_arg12 : S256.Idx → EReal) (((cfg0.win 4).blk t).view.emb (ix1 j)) = _
  refine congrArg _ (funext fun a => Fin.ext ?_)
  match a with
  | ⟨0, _⟩ => show win0_4.index t (0 : Fin 1) * 256 + 1 * j.val = j.val; omega

theorem read_5 (c : Dev nD) (t : Fin cfg0.N) (k j : Fin 256) :
    iblk0 V c 5 t (ix2 k j) = (V c main_v61 : S256x256.Idx → EReal) (ix2 k j) := by
  obtain ⟨-, -, -, -, -, -, -, -, -, e0, e1, -⟩ := idx_facts t
  show (V c main_v61 : S256x256.Idx → EReal) (((cfg0.win 5).blk t).view.emb (ix2 k j)) = _
  refine congrArg _ (funext fun a => Fin.ext ?_)
  match a with
  | ⟨0, _⟩ => show win0_5.index t (0 : Fin 2) * 256 + 1 * k.val = k.val; omega
  | ⟨1, _⟩ => show win0_5.index t (1 : Fin 2) * 256 + 1 * j.val = j.val; omega

theorem read_6 (c : Dev nD) (t : Fin cfg0.N) (k : Fin 256) :
    iblk0 V c 6 t (ix2 (0 : Fin 1) k) = (V c main_v62 : S1x256.Idx → EReal) (ix2 (0 : Fin 1) k) := by
  obtain ⟨-, -, -, -, -, -, -, -, -, -, -, e0, e1, -⟩ := idx_facts t
  show (V c main_v62 : S1x256.Idx → EReal) (((cfg0.win 6).blk t).view.emb (ix2 (0 : Fin 1) k)) = _
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * k.val = k.val; omega

theorem read_7 (c : Dev nD) (t : Fin cfg0.N)  :
    iblk0 V c 7 t (ix1 (0 : Fin 1)) = (V c main_arg24 : S1.Idx → EReal) (ix1 (0 : Fin 1)) := by
  obtain ⟨-, -, -, -, -, -, -, -, -, -, -, -, -, e0, -⟩ := idx_facts t
  show (V c main_arg24 : S1.Idx → EReal) (((cfg0.win 7).blk t).view.emb (ix1 (0 : Fin 1))) = _
  refine congrArg _ (funext fun a => Fin.ext ?_)
  match a with
  | ⟨0, _⟩ => show win0_7.index t (0 : Fin 1) * 1 + 1 * 0 = 0; omega

theorem emb_out (t : Fin cfg0.N) (p : Fin 2000) (q : Fin 1) :
    ((cfg0.win 8).blk t).view.emb (ix2 p q) = (ix2 (row t p) q : S100000x1.Idx) := by
  obtain ⟨-, -, -, -, -, -, -, -, -, -, -, -, -, -, e0, e1⟩ := idx_facts t
  refine funext fun a => Fin.ext ?_
  match a with
  | ⟨0, _⟩ => show win0_8.index t (0 : Fin 2) * 2000 + 1 * p.val = t.val * 2000 + p.val; omega
  | ⟨1, _⟩ => show win0_8.index t (1 : Fin 2) * 1 + 1 * q.val = q.val; omega

/-- The array the region's write-backs leave, as one function of the arrays the region finds. -/
abbrev result (c : Dev nD) : S100000x1.Idx → EReal :=
  headArr (n := 100000) zeroW slopeW (sageArr oneW (V c main_v9 : S100000x256.Idx → EReal)
      (fun r => (V c main_v14 : S100000x1.Idx → EReal) (ix2 r (0 : Fin 1))) (V c main_arg1 : S100000x256.Idx → EReal)
      (V c main_v60 : S256x256.Idx → EReal) (V c main_arg12 : S256.Idx → EReal) (V c main_v61 : S256x256.Idx → EReal))
    (fun k => (V c main_v62 : S1x256.Idx → EReal) (ix2 (0 : Fin 1) k)) ((V c main_arg24 : S1.Idx → EReal) (ix1 (0 : Fin 1)))

/-- What point `t` writes back is block `t` of that function. -/
theorem flushed_eq (c : Dev nD) (t : Fin cfg0.N) :
    (dat0 V c).flushed 8 t = ((cfg0.win 8).blk t).view.read (Elt Ideal) (result V c) := by
  show (cfg0.win 8).cut (grid0.coords t) ((dat0 V c).after 8 t) = _
  rw [after0_8]
  funext y
  obtain ⟨p, q, rfl⟩ : ∃ (p : Fin 2000) (q : Fin 1), y = ix2 p q := ⟨y 0, y 1, eq_ix2 y⟩
  show out0_8 (iblk0 V c 0 t) (iblk0 V c 1 t) (iblk0 V c 2 t) (iblk0 V c 3 t) (iblk0 V c 4 t) (iblk0 V c 5 t) (iblk0 V c 6 t) (iblk0 V c 7 t) (ix2 p q)
    = result V c (((cfg0.win 8).blk t).view.emb (ix2 p q))
  rw [emb_out]
  refine (out0_apply _ _ _ _ _ _ _ _ p q).trans ?_
  show _ = headAt zeroW slopeW (fun k => sageArr oneW _ _ _ _ _ _ (row t p) k) _ _
  unfold sageArr
  simp only [read_0 V c t, read_1 V c t, read_2 V c t, read_3 V c t, read_4 V c t, read_5 V c t, read_6 V c t, read_7 V c t]

/-- An index is in point `t`'s block iff its row is among the block's 2000. -/
theorem mem_blk (t : Fin cfg0.N) (i : S100000x1.Idx) :
    i ∈ ((cfg0.win 8).blk t).view.set ↔ ∀ a : Fin 2, win0_8.index t a * S2000x1.size a ≤ (i a).val ∧ (i a).val < win0_8.index t a * S2000x1.size a + S2000x1.size a := by
  show i ∈ ((View.whole main_v63).slice (win0_8.rect t)).set ↔ _
  rw [View.set_slice_whole, Rect.mem_set_unit]
  exact Iff.rfl

/-- The blocks cover the array: row `r` is in block `r / 2000`. -/
theorem cover (i : S100000x1.Idx) : ∃ t : Fin cfg0.N, (cfg0.win 8).flush t = true ∧ i ∈ ((cfg0.win 8).blk t).view.set := by
  have hi0 : (i 0).val < 100000 := (i 0).isLt
  have hi1 : (i 1).val < 1 := (i 1).isLt
  have hN : cfg0.N = 50 := N_0
  refine ⟨⟨(i 0).val / 2000, by omega⟩, flush0_8 _, ?_⟩
  rw [mem_blk]
  obtain ⟨-, -, -, -, -, -, -, -, -, -, -, -, -, -, e0, e1⟩ := idx_facts ⟨(i 0).val / 2000, by omega⟩
  intro a
  match a with
  | ⟨0, _⟩ =>
    show win0_8.index _ (0 : Fin 2) * 2000 ≤ (i 0).val ∧ (i 0).val < win0_8.index _ (0 : Fin 2) * 2000 + 2000
    rw [e0]; show (i 0).val / 2000 * 2000 ≤ (i 0).val ∧ (i 0).val < (i 0).val / 2000 * 2000 + 2000; omega
  | ⟨1, _⟩ =>
    show win0_8.index _ (1 : Fin 2) * 1 ≤ (i 1).val ∧ (i 1).val < win0_8.index _ (1 : Fin 2) * 1 + 1
    rw [e1]; omega

/-- The region's output array after its last point. -/
theorem final (c : Dev nD) : (dat0 V c).arrAt 8 cfg0.N = result V c :=
  (dat0 V c).arrAt_eq_of_cover 8 (result V c) (fun t _ => flushed_eq V c t) cover

end Cert.KernelIdeal.Region0

end
-- ==== Proof.KRegion1.lean ====
/-
  The 50000-row region: the array its write-backs leave is the scalar head of the sum of the two SAGE layers of the
  arrays the region finds, row by row — block `t` holds rows 2000·t … 2000·t + 1999, the weights' windows stay at their
  one block.
-/
import proofs.«148278_j50689204027573_2_alg».proof.Proof.KBlocks

set_option maxRecDepth 16384

noncomputable section

namespace Cert.KernelIdeal.Region1

open Cert.KernelIdeal Cert.KernelIdeal.Gen Cert.KernelIdeal.Blocks Idealize.ShloMosaic Idealize.ShloMosaic.TcCoe Idealize.ShloMosaic.ValueIdx Gnn
open Idealize.ShloMosaic.Pipeline (Dat Cfg Window)

variable (V : (c : Dev nD) → (b : Ref sig .tc) → Buf (Elt Ideal) ((c : Thread nD τ).loc b))

/-- The printed index maps over the grid: the row-blocked windows sit at block `t`, every other window at its one block. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 1) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 1) = 0
    ∧ win1_13.index t (0 : Fin 2) = t.val
    ∧ win1_13.index t (1 : Fin 2) = 0 :=
  (by decide +kernel : ∀ t : Fin grid1.N, _)

/-- Row `p` of block `t` is row `2000·t + p` of the array. -/
def row (t : Fin cfg1.N) (p : Fin 2000) : Fin 50000 :=
  ⟨t.val * 2000 + p.val, by have := t.isLt; have h : cfg1.N = 25 := N_1; have := p.isLt; omega⟩

theorem read_0 (c : Dev nD) (t : Fin cfg1.N) (p : Fin 2000) (k : Fin 256) :
    iblk1 V c 0 t (ix2 p k) = (V c main_v24 : S50000x256.Idx → EReal) (ix2 (row t p) k) := by
  obtain ⟨e0, e1, -⟩ := idx_facts t
  show (V c main_v24 : S50000x256.Idx → EReal) (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

theorem read_1 (c : Dev nD) (t : Fin cfg1.N) (p : Fin 2000) :
    iblk1 V c 1 t (ix2 p (0 : Fin 1)) = (V c main_v29 : S50000x1.Idx → EReal) (ix2 (row t p) (0 : Fin 1)) := by
  obtain ⟨-, -, e0, e1, -⟩ := idx_facts t
  show (V c main_v29 : S50000x1.Idx → EReal) (((cfg1.win 1).blk t).view.emb (ix2 p (0 : Fin 1))) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

theorem read_2 (c : Dev nD) (t : Fin cfg1.N) (p : Fin 2000) (k : Fin 256) :
    iblk1 V c 2 t (ix2 p k) = (V c main_v39 : S50000x256.Idx → EReal) (ix2 (row t p) k) := by
  obtain ⟨-, -, -, -, e0, e1, -⟩ := idx_facts t
  show (V c main_v39 : S50000x256.Idx → EReal) (((cfg1.win 2).blk t).view.emb (ix2 p k)) = _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 256 + 1 * k.val = k.val; omega

theorem read_3 (c : Dev nD) (t : Fin cfg1.N) (p : Fin 2000) :
    iblk1 V c 3 t (ix2 p (0 : Fin 1)) = (V c main_v44 : S50000x1.Idx → EReal) (ix2 (row t p) (0 : Fin 1)) := by
  obtain ⟨-, -, -, -, -, -, e0, e1, -⟩ := idx_facts t
  show (V c main_v44 : S50000x1.Idx → EReal) (((cfg1.win 3).blk t).view.emb (ix2 p (0 : Fin 1))) = _
  refine congrArg _ (funext fun a => Fin.ext ?_)
  match a with
  | ⟨0, _⟩ => show win1_3.index t (0 : Fin 2) * 2000 + 1 * p.val = t.val * 2000 + p.val; omega
  | ⟨1, _⟩ => show win1_3.index t (1 : Fin 2) * 1 + 1 * 0 = 0; omega

theorem read_4 (c : Dev nD) (t : Fin cfg1.N) (p : Fin 2000) (k : Fin 256) :
    iblk1 V c 4 t (ix2 p k) = (V c main_arg0 : S50000x256.Idx → EReal) (ix2 (row t p) k) := by
  obtain ⟨-, -, -, -, -, -, -, -, e0, e1, -⟩ := idx_facts t
  show (V c main_arg0 : S50000x256.Idx → EReal) (((cfg1.win 4).blk t).view.emb (ix2 p k)) = _
  refine congrArg _ (funext fun a => Fin.ext ?_)
  match a with
  | ⟨0, _⟩ => show win1_4.index t (0 : Fin 2) * 2000 + 1 * p.val = t.val * 2000 + p.val; omega
  | ⟨1, _⟩ => show win1_4.index t (1 : Fin 2) * 256 + 1 * k.val = k.val; omega

theorem read_5 (c : Dev nD) (t : Fin cfg1.N) (k j : Fin 256) :
    iblk1 V c 5 t (ix2 k j) = (V c main_v64 : S256x256.Idx → EReal) (ix2 k j) := by
  obtain ⟨-, -, -, -, -, -, -, -, -, -, e0, e1, -⟩ := idx_facts t
  show (V c main_v64 : S256x256.Idx → EReal) (((cfg1.win 5).blk t).view.emb (ix2 k j)) = _
  refine congrArg _ (funext fun a => Fin.ext ?_)
  match a with
  | ⟨0, _⟩ => show win1_5.index t (0 : Fin 2) * 256 + 1 * k.val = k.val; omega
  | ⟨1, _⟩ => show win1_5.index t (1 : Fin 2) * 256 + 1 * j.val = j.val; omega

theorem read_6 (c : Dev nD) (t : Fin cfg1.N) (j : Fin 256) :
    iblk1 V c 6 t (ix1 j) = (V c main_arg15 : S256.Idx → EReal) (ix1 j) := by
  obtain ⟨-, -, -, -, -, -, -, -, -, -, -, -, e0, -⟩ := idx_facts t
  show (V c main_arg15 : S256.Idx → EReal) (((cfg1.win 6).blk t).view.emb (ix1 j)) = _
  refine congrArg _ (funext fun a => Fin.ext ?_)
  match a with
  | ⟨0, _⟩ => show win1_6.index t (0 : Fin 1) * 256 + 1 * j.val = j.val; omega

theorem read_7 (c : Dev nD) (t : Fin cfg1.N) (k j : Fin 256) :
    iblk1 V c 7 t (ix2 k j) = (V c main_v65 : S256x256.Idx → EReal) (ix2 k j) := by
  obtain ⟨-, -, -, -, -, -, -, -, -, -, -, -, -, e0, e1, -⟩ := idx_facts t
  show (V c main_v65 : S256x256.Idx → EReal) (((cfg1.win 7).blk t).view.emb (ix2 k j)) = _
  refine congrArg _ (funext fun a => Fin.ext ?_)
  match a with
  | ⟨0, _⟩ => show win1_7.index t (0 : Fin 2) * 256 + 1 * k.val = k.val; omega
  | ⟨1, _⟩ => show win1_7.index t (1 : Fin 2) * 256 + 1 * j.val = j.val; omega

theorem read_8 (c : Dev nD) (t : Fin cfg1.N) (k j : Fin 256) :
    iblk1 V c 8 t (ix2 k j) = (V c main_v66 : S256x256.Idx → EReal) (ix2 k j) := by
  obtain ⟨-, -, -, -, -, -, -, -, -, -, -, -, -, -, -, e0, e1, -⟩ := idx_facts t
  show (V c main_v66 : S256x256.Idx → EReal) (((cfg1.win 8).blk t).view.emb (ix2 k j)) = _
  refine congrArg _ (funext fun a => Fin.ext ?_)
  match a with
  | ⟨0, _⟩ => show win1_8.index t (0 : Fin 2) * 256 + 1 * k.val = k.val; omega
  | ⟨1, _⟩ => show win1_8.index t (1 : Fin 2) * 256 + 1 * j.val = j.val; omega

theorem read_9 (c : Dev nD) (t : Fin cfg1.N) (j : Fin 256) :
    iblk1 V c 9 t (ix1 j) = (V c main_arg21 : S256.Idx → EReal) (ix1 j) := by
  obtain ⟨-, -, -, -, -, -, -, -, -, -, -, -, -, -, -, -, -, e0, -⟩ := idx_facts t
  show (V c main_arg21 : S256.Idx → EReal) (((cfg1.win 9).blk t).view.emb (ix1 j)) = _
  refine congrArg _ (funext fun a => Fin.ext ?_)
  match a with
  | ⟨0, _⟩ => show win1_9.index t (0 : Fin 1) * 256 + 1 * j.val = j.val; omega

theorem read_10 (c : Dev nD) (t : Fin cfg1.N) (k j : Fin 256) :
    iblk1 V c 10 t (ix2 k j) = (V c main_v67 : S256x256.Idx → EReal) (ix2 k j) := by
  obtain ⟨-, -, -, -, -, -, -, -, -, -, -, -, -, -, -, -, -, -, e0, e1, -⟩ := idx_facts t
  show (V c main_v67 : S256x256.Idx → EReal) (((cfg1.win 10).blk t).view.emb (ix2 k j)) = _
  refine congrArg _ (funext fun a => Fin.ext ?_)
  match a with
  | ⟨0, _⟩ => show win1_10.index t (0 : Fin 2) * 256 + 1 * k.val = k.val; omega
  | ⟨1, _⟩ => show win1_10.index t (1 : Fin 2) * 256 + 1 * j.val = j.val; omega

theorem read_11 (c : Dev nD) (t : Fin cfg1.N) (k : Fin 256) :
    iblk1 V c 11 t (ix2 (0 : Fin 1) k) = (V c main_v68 : S1x256.Idx → EReal) (ix2 (0 : Fin 1) k) := by
  obtain ⟨-, -, -, -, -, -, -, -, -, -, -, -, -, -, -, -, -, -, -, -, e0, e1, -⟩ := idx_facts t
  show (V c main_v68 : S1x256.Idx → EReal) (((cfg1.win 11).blk t).view.emb (ix2 (0 : Fin 1) k)) = _
  refine congrArg _ (funext fun a => Fin.ext ?_)
  match a with
  | ⟨0, _⟩ => show win1_11.index t (0 : Fin 2) * 1 + 1 * 0 = 0; omega
  | ⟨1, _⟩ => show win1_11.index t (1 : Fin 2) * 256 + 1 * k.val = k.val; omega

theorem read_12 (c : Dev nD) (t : Fin cfg1.N)  :
    iblk1 V c 12 t (ix1 (0 : Fin 1)) = (V c main_arg26 : S1.Idx → EReal) (ix1 (0 : Fin 1)) := by
  obtain ⟨-, -, -, -, -, -, -, -, -, -, -, -, -, -, -, -, -, -, -, -, -, -, e0, -⟩ := idx_facts t
  show (V c main_arg26 : S1.Idx → EReal) (((cfg1.win 12).blk t).view.emb (ix1 (0 : Fin 1))) = _
  refine congrArg _ (funext fun a => Fin.ext ?_)
  match a with
  | ⟨0, _⟩ => show win1_12.index t (0 : Fin 1) * 1 + 1 * 0 = 0; omega

theorem emb_out (t : Fin cfg1.N) (p : Fin 2000) (q : Fin 1) :
    ((cfg1.win 13).blk t).view.emb (ix2 p q) = (ix2 (row t p) q : S50000x1.Idx) := by
  obtain ⟨-, -, -, -, -, -, -, -, -, -, -, -, -, -, -, -, -, -, -, -, -, -, -, e0, e1⟩ := idx_facts t
  refine funext fun a => Fin.ext ?_
  match a with
  | ⟨0, _⟩ => show win1_13.index t (0 : Fin 2) * 2000 + 1 * p.val = t.val * 2000 + p.val; omega
  | ⟨1, _⟩ => show win1_13.index t (1 : Fin 2) * 1 + 1 * q.val = q.val; omega

/-- The array the region's write-backs leave, as one function of the arrays the region finds. -/
abbrev result (c : Dev nD) : S50000x1.Idx → EReal :=
  headArr (n := 50000) zeroW slopeW (fun r k =>
      (sageArr oneW (V c main_v24 : S50000x256.Idx → EReal)
      (fun r => (V c main_v29 : S50000x1.Idx → EReal) (ix2 r (0 : Fin 1))) (V c main_arg0 : S50000x256.Idx → EReal)
      (V c main_v64 : S256x256.Idx → EReal) (V c main_arg15 : S256.Idx → EReal) (V c main_v65 : S256x256.Idx → EReal)) r k
      + (sageArr oneW (V c main_v39 : S50000x256.Idx → EReal)
      (fun r => (V c main_v44 : S50000x1.Idx → EReal) (ix2 r (0 : Fin 1))) (V c main_arg0 : S50000x256.Idx → EReal)
      (V c main_v66 : S256x256.Idx → EReal) (V c main_arg21 : S256.Idx → EReal) (V c main_v67 : S256x256.Idx → EReal)) r k)
    (fun k => (V c main_v68 : S1x256.Idx → EReal) (ix2 (0 : Fin 1) k)) ((V c main_arg26 : S1.Idx → EReal) (ix1 (0 : Fin 1)))

/-- What point `t` writes back is block `t` of that function. -/
theorem flushed_eq (c : Dev nD) (t : Fin cfg1.N) :
    (dat1 V c).flushed 13 t = ((cfg1.win 13).blk t).view.read (Elt Ideal) (result V c) := by
  show (cfg1.win 13).cut (grid1.coords t) ((dat1 V c).after 13 t) = _
  rw [after1_13]
  funext y
  obtain ⟨p, q, rfl⟩ : ∃ (p : Fin 2000) (q : Fin 1), y = ix2 p q := ⟨y 0, y 1, eq_ix2 y⟩
  show out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 p q)
    = result V c (((cfg1.win 13).blk t).view.emb (ix2 p q))
  rw [emb_out]
  refine (out1_apply _ _ _ _ _ _ _ _ _ _ _ _ _ p q).trans ?_
  show _ = headAt zeroW slopeW (fun k => sageArr oneW _ _ _ _ _ _ (row t p) k + sageArr oneW _ _ _ _ _ _ (row t p) k) _ _
  unfold sageArr
  simp only [read_0 V c t, read_1 V c t, read_2 V c t, read_3 V c t, read_4 V c t, read_5 V c t, read_6 V c t, read_7 V c t, read_8 V c t, read_9 V c t, read_10 V c t, read_11 V c t, read_12 V c t]

/-- An index is in point `t`'s block iff its row is among the block's 2000. -/
theorem mem_blk (t : Fin cfg1.N) (i : S50000x1.Idx) :
    i ∈ ((cfg1.win 13).blk t).view.set ↔ ∀ a : Fin 2, win1_13.index t a * S2000x1.size a ≤ (i a).val ∧ (i a).val < win1_13.index t a * S2000x1.size a + S2000x1.size a := by
  show i ∈ ((View.whole main_v69).slice (win1_13.rect t)).set ↔ _
  rw [View.set_slice_whole, Rect.mem_set_unit]
  exact Iff.rfl

/-- The blocks cover the array: row `r` is in block `r / 2000`. -/
theorem cover (i : S50000x1.Idx) : ∃ t : Fin cfg1.N, (cfg1.win 13).flush t = true ∧ i ∈ ((cfg1.win 13).blk t).view.set := by
  have hi0 : (i 0).val < 50000 := (i 0).isLt
  have hi1 : (i 1).val < 1 := (i 1).isLt
  have hN : cfg1.N = 25 := N_1
  refine ⟨⟨(i 0).val / 2000, by omega⟩, flush1_13 _, ?_⟩
  rw [mem_blk]
  obtain ⟨-, -, -, -, -, -, -, -, -, -, -, -, -, -, -, -, -, -, -, -, -, -, -, e0, e1⟩ := idx_facts ⟨(i 0).val / 2000, by omega⟩
  intro a
  match a with
  | ⟨0, _⟩ =>
    show win1_13.index _ (0 : Fin 2) * 2000 ≤ (i 0).val ∧ (i 0).val < win1_13.index _ (0 : Fin 2) * 2000 + 2000
    rw [e0]; show (i 0).val / 2000 * 2000 ≤ (i 0).val ∧ (i 0).val < (i 0).val / 2000 * 2000 + 2000; omega
  | ⟨1, _⟩ =>
    show win1_13.index _ (1 : Fin 2) * 1 ≤ (i 1).val ∧ (i 1).val < win1_13.index _ (1 : Fin 2) * 1 + 1
    rw [e1]; omega

/-- The region's output array after its last point. -/
theorem final (c : Dev nD) : (dat1 V c).arrAt 13 cfg1.N = result V c :=
  (dat1 V c).arrAt_eq_of_cover 13 (result V c) (fun t _ => flushed_eq V c t) cover

end Cert.KernelIdeal.Region1

end
-- ==== Proof.KRegion2.lean ====
/-
  The 20000-row region: the array its write-backs leave is the rectified SAGE layer of the arrays the region finds,
  row by row — block `t` holds rows 2000·t … 2000·t + 1999, the weights' windows stay at their one block.
-/
import proofs.«148278_j50689204027573_2_alg».proof.Proof.KBlocks

set_option maxRecDepth 16384

noncomputable section

namespace Cert.KernelIdeal.Region2

open Cert.KernelIdeal Cert.KernelIdeal.Gen Cert.KernelIdeal.Blocks Idealize.ShloMosaic Idealize.ShloMosaic.TcCoe Idealize.ShloMosaic.ValueIdx Gnn
open Idealize.ShloMosaic.Pipeline (Dat Cfg Window)

variable (V : (c : Dev nD) → (b : Ref sig .tc) → Buf (Elt Ideal) ((c : Thread nD τ).loc b))

/-- The printed index maps over the grid: the row-blocked windows sit at block `t`, every other window at its one block. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- Row `p` of block `t` is row `2000·t + p` of the array. -/
def row (t : Fin cfg2.N) (p : Fin 2000) : Fin 20000 :=
  ⟨t.val * 2000 + p.val, by have := t.isLt; have h : cfg2.N = 10 := N_2; have := p.isLt; omega⟩

theorem read_0 (c : Dev nD) (t : Fin cfg2.N) (p : Fin 2000) (k : Fin 256) :
    iblk2 V c 0 t (ix2 p k) = (V c main_v54 : S20000x256.Idx → EReal) (ix2 (row t p) k) := by
  obtain ⟨e0, e1, -⟩ := idx_facts t
  show (V c main_v54 : S20000x256.Idx → EReal) (((cfg2.win 0).blk t).view.emb (ix2 p k)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 256 + 1 * k.val = k.val; omega

theorem read_1 (c : Dev nD) (t : Fin cfg2.N) (p : Fin 2000) :
    iblk2 V c 1 t (ix2 p (0 : Fin 1)) = (V c main_v59 : S20000x1.Idx → EReal) (ix2 (row t p) (0 : Fin 1)) := by
  obtain ⟨-, -, e0, e1, -⟩ := idx_facts t
  show (V c main_v59 : S20000x1.Idx → EReal) (((cfg2.win 1).blk t).view.emb (ix2 p (0 : Fin 1))) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 1 + 1 * 0 = 0; omega

theorem read_2 (c : Dev nD) (t : Fin cfg2.N) (p : Fin 2000) (k : Fin 256) :
    iblk2 V c 2 t (ix2 p k) = (V c main_arg2 : S20000x256.Idx → EReal) (ix2 (row t p) k) := by
  obtain ⟨-, -, -, -, e0, e1, -⟩ := idx_facts t
  show (V c main_arg2 : S20000x256.Idx → EReal) (((cfg2.win 2).blk t).view.emb (ix2 p k)) = _
  refine congrArg _ (funext fun a => Fin.ext ?_)
  match a with
  | ⟨0, _⟩ => show win2_2.index t (0 : Fin 2) * 2000 + 1 * p.val = t.val * 2000 + p.val; omega
  | ⟨1, _⟩ => show win2_2.index t (1 : Fin 2) * 256 + 1 * k.val = k.val; omega

theorem read_3 (c : Dev nD) (t : Fin cfg2.N) (k j : Fin 256) :
    iblk2 V c 3 t (ix2 k j) = (V c main_v70 : S256x256.Idx → EReal) (ix2 k j) := by
  obtain ⟨-, -, -, -, -, -, e0, e1, -⟩ := idx_facts t
  show (V c main_v70 : S256x256.Idx → EReal) (((cfg2.win 3).blk t).view.emb (ix2 k j)) = _
  refine congrArg _ (funext fun a => Fin.ext ?_)
  match a with
  | ⟨0, _⟩ => show win2_3.index t (0 : Fin 2) * 256 + 1 * k.val = k.val; omega
  | ⟨1, _⟩ => show win2_3.index t (1 : Fin 2) * 256 + 1 * j.val = j.val; omega

theorem read_4 (c : Dev nD) (t : Fin cfg2.N) (j : Fin 256) :
    iblk2 V c 4 t (ix1 j) = (V c main_arg18 : S256.Idx → EReal) (ix1 j) := by
  obtain ⟨-, -, -, -, -, -, -, -, e0, -⟩ := idx_facts t
  show (V c main_arg18 : S256.Idx → EReal) (((cfg2.win 4).blk t).view.emb (ix1 j)) = _
  refine congrArg _ (funext fun a => Fin.ext ?_)
  match a with
  | ⟨0, _⟩ => show win2_4.index t (0 : Fin 1) * 256 + 1 * j.val = j.val; omega

theorem read_5 (c : Dev nD) (t : Fin cfg2.N) (k j : Fin 256) :
    iblk2 V c 5 t (ix2 k j) = (V c main_v71 : S256x256.Idx → EReal) (ix2 k j) := by
  obtain ⟨-, -, -, -, -, -, -, -, -, e0, e1, -⟩ := idx_facts t
  show (V c main_v71 : S256x256.Idx → EReal) (((cfg2.win 5).blk t).view.emb (ix2 k j)) = _
  refine congrArg _ (funext fun a => Fin.ext ?_)
  match a with
  | ⟨0, _⟩ => show win2_5.index t (0 : Fin 2) * 256 + 1 * k.val = k.val; omega
  | ⟨1, _⟩ => show win2_5.index t (1 : Fin 2) * 256 + 1 * j.val = j.val; omega

theorem emb_out (t : Fin cfg2.N) (p : Fin 2000) (q : Fin 256) :
    ((cfg2.win 6).blk t).view.emb (ix2 p q) = (ix2 (row t p) q : S20000x256.Idx) := by
  obtain ⟨-, -, -, -, -, -, -, -, -, -, -, e0, e1⟩ := idx_facts t
  refine funext fun a => Fin.ext ?_
  match a with
  | ⟨0, _⟩ => show win2_6.index t (0 : Fin 2) * 2000 + 1 * p.val = t.val * 2000 + p.val; omega
  | ⟨1, _⟩ => show win2_6.index t (1 : Fin 2) * 256 + 1 * q.val = q.val; omega

/-- The array the region's write-backs leave, as one function of the arrays the region finds. -/
abbrev result (c : Dev nD) : S20000x256.Idx → EReal :=
  reluArr (n := 20000) zeroW (sageArr oneW (V c main_v54 : S20000x256.Idx → EReal)
      (fun r => (V c main_v59 : S20000x1.Idx → EReal) (ix2 r (0 : Fin 1))) (V c main_arg2 : S20000x256.Idx → EReal)
      (V c main_v70 : S256x256.Idx → EReal) (V c main_arg18 : S256.Idx → EReal) (V c main_v71 : S256x256.Idx → EReal))

/-- What point `t` writes back is block `t` of that function. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  funext y
  obtain ⟨p, q, rfl⟩ : ∃ (p : Fin 2000) (q : Fin 256), y = ix2 p q := ⟨y 0, y 1, eq_ix2 y⟩
  show out2_6 (iblk2 V c 0 t) (iblk2 V c 1 t) (iblk2 V c 2 t) (iblk2 V c 3 t) (iblk2 V c 4 t) (iblk2 V c 5 t) (ix2 p q)
    = result V c (((cfg2.win 6).blk t).view.emb (ix2 p q))
  rw [emb_out]
  refine (out2_apply _ _ _ _ _ _ p q).trans ?_
  show _ = max (sageArr oneW _ _ _ _ _ _ (row t p) q) zeroW
  unfold sageArr
  simp only [read_0 V c t, read_1 V c t, read_2 V c t, read_3 V c t, read_4 V c t, read_5 V c t]

/-- An index is in point `t`'s block iff its row is among the block's 2000. -/
theorem mem_blk (t : Fin cfg2.N) (i : S20000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v72).slice (win2_6.rect t)).set ↔ _
  rw [View.set_slice_whole, Rect.mem_set_unit]
  exact Iff.rfl

/-- The blocks cover the array: row `r` is in block `r / 2000`. -/
theorem cover (i : S20000x256.Idx) : ∃ t : Fin cfg2.N, (cfg2.win 6).flush t = true ∧ i ∈ ((cfg2.win 6).blk t).view.set := by
  have hi0 : (i 0).val < 20000 := (i 0).isLt
  have hi1 : (i 1).val < 256 := (i 1).isLt
  have hN : cfg2.N = 10 := N_2
  refine ⟨⟨(i 0).val / 2000, by omega⟩, flush2_6 _, ?_⟩
  rw [mem_blk]
  obtain ⟨-, -, -, -, -, -, -, -, -, -, -, e0, e1⟩ := idx_facts ⟨(i 0).val / 2000, by omega⟩
  intro a
  match a with
  | ⟨0, _⟩ =>
    show win2_6.index _ (0 : Fin 2) * 2000 ≤ (i 0).val ∧ (i 0).val < win2_6.index _ (0 : Fin 2) * 2000 + 2000
    rw [e0]; show (i 0).val / 2000 * 2000 ≤ (i 0).val ∧ (i 0).val < (i 0).val / 2000 * 2000 + 2000; omega
  | ⟨1, _⟩ =>
    show win2_6.index _ (1 : Fin 2) * 256 ≤ (i 1).val ∧ (i 1).val < win2_6.index _ (1 : Fin 2) * 256 + 256
    rw [e1]; omega

/-- The region's output array after its last point. -/
theorem final (c : Dev nD) : (dat2 V c).arrAt 6 cfg2.N = result V c :=
  (dat2 V c).arrAt_eq_of_cover 6 (result V c) (fun t _ => flushed_eq V c t) cover

end Cert.KernelIdeal.Region2

end
-- ==== Proof.RefTerms.lean ====
/-
  The reference's host operations composed into named array-level functions, over the reference's own dimension
  records: the edge aggregation (gather the source rows, scatter-add them at the destination rows) and the message
  counts for each of the four edge types, one SAGE layer per destination node type, the rectifier, and the scalar head
  with its leaky rectifier. Stated for every float instance; read at the ideal instance elsewhere.
-/
import proofs.«148278_j50689204027573_2_alg».proof.Proof.Gen.ReferenceIdeal

noncomputable section

namespace Cert.ReferenceIdeal.Terms

open Cert.ReferenceIdeal Cert.ReferenceIdeal.Gen Idealize.ShloMosaic

variable {F : FTy → Type} [FloatOps F]

/-- The source indices as the gather takes them: a negative index wrapped once by the source's row count `n`, laid
    out as a column. -/
def srcCol (n : BitVec 32) (src : IVec S300000 32) : IVec S300000x1 32 :=
  broadcastInDim S300000x1 ![0] bcast_S300000_S300000x1_0
    (select (cmpi .slt src (broadcastInDim S300000 ![] bcast_S_S300000 (constantI S_ 32 0#32)))
      (addi src (broadcastInDim S300000 ![] bcast_S_S300000 (constantI S_ 32 n))) src)

/-- The destination indices laid out as a column. -/
def dstCol (dst : IVec S300000 32) : IVec S300000x1 32 :=
  broadcastInDim S300000x1 ![0] bcast_S300000_S300000x1_0 dst

/-- One message per edge, each `1.0`. -/
def ones : FVec F S300000 .f32 := broadcastInDim S300000 ![] bcast_S_S300000 (constant S_ .f32 0x3F800000#32)

/-- Edges from the 50000-row type into the 100000-row type: the gathered source rows summed at their destinations. -/
def agg100 (x : FVec F S50000x256 .f32) (src dst : IVec S300000 32) : FVec F S100000x256 .f32 :=
  Host.scatterAdd scatter_S100000x256_S300000x1_S300000x256_1_0_0_1
    (broadcastInDim S100000x256 ![] bcast_S_S100000x256 (constant S_ .f32 0x00000000#32)) (dstCol dst)
    (Host.gather gather_S50000x256_S300000x1_S300000x256_1_0_n_n_0_1_1256 x (srcCol 50000#32 src))
/-- The number of messages each of the 100000 rows receives. -/
def cnt100 (dst : IVec S300000 32) : FVec F S100000 .f32 :=
  Host.scatterAdd scatter_S100000_S300000x1_S300000_n_0_0_1
    (broadcastInDim S100000 ![] bcast_S_S100000 (constant S_ .f32 0x00000000#32)) (dstCol dst) ones

/-- Edges from the 100000-row type into the 50000-row type. -/
def agg50a (x : FVec F S100000x256 .f32) (src dst : IVec S300000 32) : FVec F S50000x256 .f32 :=
  Host.scatterAdd scatter_S50000x256_S300000x1_S300000x256_1_0_0_1
    (broadcastInDim S50000x256 ![] bcast_S_S50000x256 (constant S_ .f32 0x00000000#32)) (dstCol dst)
    (Host.gather gather_S100000x256_S300000x1_S300000x256_1_0_n_n_0_1_1256 x (srcCol 100000#32 src))
/-- Edges from the 20000-row type into the 50000-row type. -/
def agg50b (x : FVec F S20000x256 .f32) (src dst : IVec S300000 32) : FVec F S50000x256 .f32 :=
  Host.scatterAdd scatter_S50000x256_S300000x1_S300000x256_1_0_0_1
    (broadcastInDim S50000x256 ![] bcast_S_S50000x256 (constant S_ .f32 0x00000000#32)) (dstCol dst)
    (Host.gather gather_S20000x256_S300000x1_S300000x256_1_0_n_n_0_1_1256 x (srcCol 20000#32 src))
/-- The number of messages each of the 50000 rows receives from one edge type. -/
def cnt50 (dst : IVec S300000 32) : FVec F S50000 .f32 :=
  Host.scatterAdd scatter_S50000_S300000x1_S300000_n_0_0_1
    (broadcastInDim S50000 ![] bcast_S_S50000 (constant S_ .f32 0x00000000#32)) (dstCol dst) ones

/-- Edges from the 50000-row type into the 20000-row type. -/
def agg20 (x : FVec F S50000x256 .f32) (src dst : IVec S300000 32) : FVec F S20000x256 .f32 :=
  Host.scatterAdd scatter_S20000x256_S300000x1_S300000x256_1_0_0_1
    (broadcastInDim S20000x256 ![] bcast_S_S20000x256 (constant S_ .f32 0x00000000#32)) (dstCol dst)
    (Host.gather gather_S50000x256_S300000x1_S300000x256_1_0_n_n_0_1_1256 x (srcCol 50000#32 src))
/-- The number of messages each of the 20000 rows receives. -/
def cnt20 (dst : IVec S300000 32) : FVec F S20000 .f32 :=
  Host.scatterAdd scatter_S20000_S300000x1_S300000_n_0_0_1
    (broadcastInDim S20000 ![] bcast_S_S20000 (constant S_ .f32 0x00000000#32)) (dstCol dst) ones

/-! ## One SAGE layer per destination type: its left half (mean · Wl + bl) and the whole -/

def left100 (agg : FVec F S100000x256 .f32) (cnt : FVec F S100000 .f32) (Wl : FVec F S256x256 .f32) (bl : FVec F S256 .f32) :
    FVec F S100000x256 .f32 :=
  addf (Host.dotGeneral dot_S100000x256_S256x256_S100000x256_1_0_0_1_n_n none
      (Host.divf agg (broadcastInDim S100000x256 ![0, 1] bcast_S100000x1_S100000x256_0_1
        (broadcastInDim S100000x1 ![0] bcast_S100000_S100000x1_0
          (maximumf cnt (broadcastInDim S100000 ![] bcast_S_S100000 (constant S_ .f32 0x3F800000#32)))))) Wl)
    (broadcastInDim S100000x256 ![0, 1] bcast_S1x256_S100000x256_0_1 (broadcastInDim S1x256 ![1] bcast_S256_S1x256_1 bl))
def sage100 (agg x : FVec F S100000x256 .f32) (cnt : FVec F S100000 .f32) (Wl : FVec F S256x256 .f32) (bl : FVec F S256 .f32)
    (Wr : FVec F S256x256 .f32) : FVec F S100000x256 .f32 :=
  addf (left100 agg cnt Wl bl) (Host.dotGeneral dot_S100000x256_S256x256_S100000x256_1_0_0_1_n_n none x Wr)

def left50 (agg : FVec F S50000x256 .f32) (cnt : FVec F S50000 .f32) (Wl : FVec F S256x256 .f32) (bl : FVec F S256 .f32) :
    FVec F S50000x256 .f32 :=
  addf (Host.dotGeneral dot_S50000x256_S256x256_S50000x256_1_0_0_1_n_n none
      (Host.divf agg (broadcastInDim S50000x256 ![0, 1] bcast_S50000x1_S50000x256_0_1
        (broadcastInDim S50000x1 ![0] bcast_S50000_S50000x1_0
          (maximumf cnt (broadcastInDim S50000 ![] bcast_S_S50000 (constant S_ .f32 0x3F800000#32)))))) Wl)
    (broadcastInDim S50000x256 ![0, 1] bcast_S1x256_S50000x256_0_1 (broadcastInDim S1x256 ![1] bcast_S256_S1x256_1 bl))
def sage50 (agg x : FVec F S50000x256 .f32) (cnt : FVec F S50000 .f32) (Wl : FVec F S256x256 .f32) (bl : FVec F S256 .f32)
    (Wr : FVec F S256x256 .f32) : FVec F S50000x256 .f32 :=
  addf (left50 agg cnt Wl bl) (Host.dotGeneral dot_S50000x256_S256x256_S50000x256_1_0_0_1_n_n none x Wr)

/-- The 20000-row layer's matrix product of the means with the left weights (the bias is added after it). -/
def mean20 (agg : FVec F S20000x256 .f32) (cnt : FVec F S20000 .f32) (Wl : FVec F S256x256 .f32) : FVec F S20000x256 .f32 :=
  Host.dotGeneral dot_S20000x256_S256x256_S20000x256_1_0_0_1_n_n none
      (Host.divf agg (broadcastInDim S20000x256 ![0, 1] bcast_S20000x1_S20000x256_0_1
        (broadcastInDim S20000x1 ![0] bcast_S20000_S20000x1_0
          (maximumf cnt (broadcastInDim S20000 ![] bcast_S_S20000 (constant S_ .f32 0x3F800000#32)))))) Wl
def sage20 (agg x : FVec F S20000x256 .f32) (cnt : FVec F S20000 .f32) (Wl : FVec F S256x256 .f32) (bl : FVec F S256 .f32)
    (Wr : FVec F S256x256 .f32) : FVec F S20000x256 .f32 :=
  addf (addf (mean20 agg cnt Wl)
      (broadcastInDim S20000x256 ![0, 1] bcast_S1x256_S20000x256_0_1 (broadcastInDim S1x256 ![1] bcast_S256_S1x256_1 bl)))
    (Host.dotGeneral dot_S20000x256_S256x256_S20000x256_1_0_0_1_n_n none x Wr)

/-! ## The rectifier and the heads -/

def relu100 (A : FVec F S100000x256 .f32) : FVec F S100000x256 .f32 :=
  maximumf A (broadcastInDim S100000x256 ![] bcast_S_S100000x256 (constant S_ .f32 0x00000000#32))
def relu50 (A : FVec F S50000x256 .f32) : FVec F S50000x256 .f32 :=
  maximumf A (broadcastInDim S50000x256 ![] bcast_S_S50000x256 (constant S_ .f32 0x00000000#32))
def relu20 (A : FVec F S20000x256 .f32) : FVec F S20000x256 .f32 :=
  maximumf A (broadcastInDim S20000x256 ![] bcast_S_S20000x256 (constant S_ .f32 0x00000000#32))

/-- The 100000-row head before its leaky rectifier. -/
def headY100 (A : FVec F S100000x256 .f32) (W : FVec F S256x1 .f32) (b : FVec F S1 .f32) : FVec F S100000x1 .f32 :=
  addf (Host.dotGeneral dot_S100000x256_S256x1_S100000x1_1_0_0_1_n_n none (relu100 A) W)
    (broadcastInDim S100000x1 ![0, 1] bcast_S1x1_S100000x1_0_1 (broadcastInDim S1x1 ![1] bcast_S1_S1x1_1 b))
def lrelu100 (Y : FVec F S100000x1 .f32) : FVec F S100000x1 .f32 :=
  select (cmpf .oge Y (broadcastInDim S100000x1 ![] bcast_S_S100000x1 (constant S_ .f32 0x00000000#32))) Y
    (mulf (broadcastInDim S100000x1 ![] bcast_S_S100000x1 (id (constant S_ .f32 0x3A83126F#32))) Y)

/-- The 50000-row head before its leaky rectifier. -/
def headY50 (A : FVec F S50000x256 .f32) (W : FVec F S256x1 .f32) (b : FVec F S1 .f32) : FVec F S50000x1 .f32 :=
  addf (Host.dotGeneral dot_S50000x256_S256x1_S50000x1_1_0_0_1_n_n none (relu50 A) W)
    (broadcastInDim S50000x1 ![0, 1] bcast_S1x1_S50000x1_0_1 (broadcastInDim S1x1 ![1] bcast_S1_S1x1_1 b))
def lrelu50 (Y : FVec F S50000x1 .f32) : FVec F S50000x1 .f32 :=
  select (cmpf .oge Y (broadcastInDim S50000x1 ![] bcast_S_S50000x1 (constant S_ .f32 0x00000000#32))) Y
    (mulf (broadcastInDim S50000x1 ![] bcast_S_S50000x1 (id (constant S_ .f32 0x3A83126F#32))) Y)

end Cert.ReferenceIdeal.Terms

end
-- ==== Proof.RefSpec.lean ====
/-
  The reference's three results, at the ideal instance, are the row-level specification of its argument arrays: the
  composed host operations read at an index — the products as sums over the shared axis, the broadcasts at the
  coordinates they copy, the rectifiers pointwise.
-/
import proofs.«148278_j50689204027573_2_alg».proof.Proof.RefTerms
import proofs.«148278_j50689204027573_2_alg».proof.Proof.GnnSpec

noncomputable section

namespace Cert.ReferenceIdeal.Spec

open Cert.ReferenceIdeal Cert.ReferenceIdeal.Gen Cert.ReferenceIdeal.Terms Idealize.ShloMosaic Idealize.ShloMosaic.ValueIdx Gnn

abbrev oneW : EReal := Ideal.ofBits .f32 0x3F800000#32
abbrev zeroW : EReal := Ideal.ofBits .f32 0x00000000#32
abbrev slopeW : EReal := Ideal.ofBits .f32 0x3A83126F#32

theorem dot100 : dot_S100000x256_S256x256_S100000x256_1_0_0_1_n_n = DotDims.plain 100000 256 256 := rfl
theorem dot50 : dot_S50000x256_S256x256_S50000x256_1_0_0_1_n_n = DotDims.plain 50000 256 256 := rfl
theorem dot20 : dot_S20000x256_S256x256_S20000x256_1_0_0_1_n_n = DotDims.plain 20000 256 256 := rfl
theorem dot100h : dot_S100000x256_S256x1_S100000x1_1_0_0_1_n_n = DotDims.plain 100000 256 1 := rfl
theorem dot50h : dot_S50000x256_S256x1_S50000x1_1_0_0_1_n_n = DotDims.plain 50000 256 1 := rfl

/-! ## The layers at an index -/

theorem sage100_apply (agg x : FVec Ideal S100000x256 .f32) (cnt : FVec Ideal S100000 .f32) (Wl : FVec Ideal S256x256 .f32)
    (bl : FVec Ideal S256 .f32) (Wr : FVec Ideal S256x256 .f32) (r : Fin 100000) (j : Fin 256) :
    sage100 agg x cnt Wl bl Wr (ix2 r j) = sageArr oneW agg (fun r => cnt (ix1 r)) x Wl bl Wr r j := by
  unfold sage100 left100
  exact host_sage_apply _ dot100 _ _ _ _ _ _ agg x cnt Wl Wr bl r j

theorem sage50_apply (agg x : FVec Ideal S50000x256 .f32) (cnt : FVec Ideal S50000 .f32) (Wl : FVec Ideal S256x256 .f32)
    (bl : FVec Ideal S256 .f32) (Wr : FVec Ideal S256x256 .f32) (r : Fin 50000) (j : Fin 256) :
    sage50 agg x cnt Wl bl Wr (ix2 r j) = sageArr oneW agg (fun r => cnt (ix1 r)) x Wl bl Wr r j := by
  unfold sage50 left50
  exact host_sage_apply _ dot50 _ _ _ _ _ _ agg x cnt Wl Wr bl r j

theorem sage20_apply (agg x : FVec Ideal S20000x256 .f32) (cnt : FVec Ideal S20000 .f32) (Wl : FVec Ideal S256x256 .f32)
    (bl : FVec Ideal S256 .f32) (Wr : FVec Ideal S256x256 .f32) (r : Fin 20000) (j : Fin 256) :
    sage20 agg x cnt Wl bl Wr (ix2 r j) = sageArr oneW agg (fun r => cnt (ix1 r)) x Wl bl Wr r j := by
  unfold sage20 mean20
  exact host_sage_apply _ dot20 _ _ _ _ _ _ agg x cnt Wl Wr bl r j

/-! ## The three results -/

/-- The rectified 20000-row layer is the rectified specification. -/
theorem relu20_eq (agg x : FVec Ideal S20000x256 .f32) (cnt : FVec Ideal S20000 .f32) (Wl : FVec Ideal S256x256 .f32)
    (bl : FVec Ideal S256 .f32) (Wr : FVec Ideal S256x256 .f32) :
    relu20 (sage20 agg x cnt Wl bl Wr) = reluArr (n := 20000) zeroW (sageArr oneW agg (fun r => cnt (ix1 r)) x Wl bl Wr) := by
  funext i
  obtain ⟨r, j, rfl⟩ : ∃ (r : Fin 20000) (j : Fin 256), i = ix2 r j := ⟨i 0, i 1, eq_ix2 i⟩
  unfold relu20
  rw [maximumf_apply, broadcastInDim_scalar_apply, sage20_apply, reluArr_ix2]
  rfl

/-- The 100000-row head is the specification's head of the layer. -/
theorem head100_eq (A : FVec Ideal S100000x256 .f32) (h : Fin 100000 → Fin 256 → EReal)
    (hA : ∀ r j, A (ix2 r j) = h r j) (W : FVec Ideal S256x1 .f32) (b : FVec Ideal S1 .f32) :
    lrelu100 (headY100 A W b) = headArr (n := 100000) zeroW slopeW h (fun k => W (ix2 k (0 : Fin 1))) (b (ix1 (0 : Fin 1))) := by
  funext i
  obtain ⟨r, c, rfl⟩ : ∃ (r : Fin 100000) (c : Fin 1), i = ix2 r c := ⟨i 0, i 1, eq_ix2 i⟩
  unfold lrelu100
  refine (host_lrelu_apply _ _ _ _ (ix2 r c)).trans ?_
  rw [headArr_ix2]
  unfold headAt
  refine congrArg₂ (lrelu zeroW) rfl ?_
  unfold headY100 relu100
  refine (host_headsum_apply _ dot100h _ _ _ _ A W b r c).trans ?_
  exact congrArg₂ (· + ·) (Finset.sum_congr rfl fun k _ => by rw [hA]) rfl

/-- The 50000-row head is the specification's head of the two layers' sum. -/
theorem head50_eq (A : FVec Ideal S50000x256 .f32) (h : Fin 50000 → Fin 256 → EReal)
    (hA : ∀ r j, A (ix2 r j) = h r j) (W : FVec Ideal S256x1 .f32) (b : FVec Ideal S1 .f32) :
    lrelu50 (headY50 A W b) = headArr (n := 50000) zeroW slopeW h (fun k => W (ix2 k (0 : Fin 1))) (b (ix1 (0 : Fin 1))) := by
  funext i
  obtain ⟨r, c, rfl⟩ : ∃ (r : Fin 50000) (c : Fin 1), i = ix2 r c := ⟨i 0, i 1, eq_ix2 i⟩
  unfold lrelu50
  refine (host_lrelu_apply _ _ _ _ (ix2 r c)).trans ?_
  rw [headArr_ix2]
  unfold headAt
  refine congrArg₂ (lrelu zeroW) rfl ?_
  unfold headY50 relu50
  refine (host_headsum_apply _ dot50h _ _ _ _ A W b r c).trans ?_
  exact congrArg₂ (· + ·) (Finset.sum_congr rfl fun k _ => by rw [hA]) rfl

/-! ## The three results as functions of the argument arrays -/

/-- The 100000-row output: the head of the layer over the edges from the 50000-row type. -/
def out100 (xs : FVec Ideal S50000x256 .f32) (xd : FVec Ideal S100000x256 .f32) (src dst : IVec S300000 32)
    (Wl : FVec Ideal S256x256 .f32) (bl : FVec Ideal S256 .f32) (Wr : FVec Ideal S256x256 .f32)
    (W : FVec Ideal S256x1 .f32) (b : FVec Ideal S1 .f32) : S100000x1.Idx → EReal :=
  headArr (n := 100000) zeroW slopeW
    (sageArr oneW (agg100 (F := Ideal) xs src dst) (fun r => cnt100 (F := Ideal) dst (ix1 r)) xd Wl bl Wr)
    (fun k => W (ix2 k (0 : Fin 1))) (b (ix1 (0 : Fin 1)))

/-- The 50000-row output: the head of the two layers' sum, over the edges from the 100000-row and the 20000-row types. -/
def out50 (xa : FVec Ideal S100000x256 .f32) (xb : FVec Ideal S20000x256 .f32) (xd : FVec Ideal S50000x256 .f32)
    (srca dsta srcb dstb : IVec S300000 32)
    (Wla : FVec Ideal S256x256 .f32) (bla : FVec Ideal S256 .f32) (Wra : FVec Ideal S256x256 .f32)
    (Wlb : FVec Ideal S256x256 .f32) (blb : FVec Ideal S256 .f32) (Wrb : FVec Ideal S256x256 .f32)
    (W : FVec Ideal S256x1 .f32) (b : FVec Ideal S1 .f32) : S50000x1.Idx → EReal :=
  headArr (n := 50000) zeroW slopeW
    (fun r k => sageArr oneW (agg50a (F := Ideal) xa srca dsta) (fun r => cnt50 (F := Ideal) dsta (ix1 r)) xd Wla bla Wra r k
      + sageArr oneW (agg50b (F := Ideal) xb srcb dstb) (fun r => cnt50 (F := Ideal) dstb (ix1 r)) xd Wlb blb Wrb r k)
    (fun k => W (ix2 k (0 : Fin 1))) (b (ix1 (0 : Fin 1)))

/-- The 20000-row output: the rectified layer over the edges from the 50000-row type. -/
def out20 (xs : FVec Ideal S50000x256 .f32) (xd : FVec Ideal S20000x256 .f32) (src dst : IVec S300000 32)
    (Wl : FVec Ideal S256x256 .f32) (bl : FVec Ideal S256 .f32) (Wr : FVec Ideal S256x256 .f32) : S20000x256.Idx → EReal :=
  reluArr (n := 20000) zeroW
    (sageArr oneW (agg20 (F := Ideal) xs src dst) (fun r => cnt20 (F := Ideal) dst (ix1 r)) xd Wl bl Wr)

theorem ref100 (xs : FVec Ideal S50000x256 .f32) (xd : FVec Ideal S100000x256 .f32) (src dst : IVec S300000 32)
    (Wl : FVec Ideal S256x256 .f32) (bl : FVec Ideal S256 .f32) (Wr : FVec Ideal S256x256 .f32)
    (W : FVec Ideal S256x1 .f32) (b : FVec Ideal S1 .f32) :
    lrelu100 (headY100 (sage100 (agg100 xs src dst) xd (cnt100 dst) Wl bl Wr) W b) = out100 xs xd src dst Wl bl Wr W b :=
  head100_eq _ _ (fun r j => sage100_apply _ _ _ _ _ _ r j) W b

theorem ref50 (xa : FVec Ideal S100000x256 .f32) (xb : FVec Ideal S20000x256 .f32) (xd : FVec Ideal S50000x256 .f32)
    (srca dsta srcb dstb : IVec S300000 32)
    (Wla : FVec Ideal S256x256 .f32) (bla : FVec Ideal S256 .f32) (Wra : FVec Ideal S256x256 .f32)
    (Wlb : FVec Ideal S256x256 .f32) (blb : FVec Ideal S256 .f32) (Wrb : FVec Ideal S256x256 .f32)
    (W : FVec Ideal S256x1 .f32) (b : FVec Ideal S1 .f32) :
    lrelu50 (headY50 (addf (sage50 (agg50a xa srca dsta) xd (cnt50 dsta) Wla bla Wra)
        (sage50 (agg50b xb srcb dstb) xd (cnt50 dstb) Wlb blb Wrb)) W b)
      = out50 xa xb xd srca dsta srcb dstb Wla bla Wra Wlb blb Wrb W b :=
  head50_eq _ _ (fun r j => by rw [addf_apply, sage50_apply, sage50_apply]) W b

theorem ref20 (xs : FVec Ideal S50000x256 .f32) (xd : FVec Ideal S20000x256 .f32) (src dst : IVec S300000 32)
    (Wl : FVec Ideal S256x256 .f32) (bl : FVec Ideal S256 .f32) (Wr : FVec Ideal S256x256 .f32) :
    relu20 (sage20 (agg20 xs src dst) xd (cnt20 dst) Wl bl Wr) = out20 xs xd src dst Wl bl Wr :=
  relu20_eq _ _ _ _ _ _

end Cert.ReferenceIdeal.Spec

end
-- ==== Proof.KValue.lean ====
/-
  The idealized kernel's three results as the row-level specification of its argument arrays: each region's entry
  contents read back through the host operations before it (the edge aggregations and message counts, the weights
  rounded for the matrix unit — the identity on extended reals —, the head's weights transposed to a row), the
  regions' output arrays from their write-backs, and the last boundary's contents at the three result buffers.
-/
import proofs.«148278_j50689204027573_2_alg».proof.Proof.KRegion0
import proofs.«148278_j50689204027573_2_alg».proof.Proof.KRegion1
import proofs.«148278_j50689204027573_2_alg».proof.Proof.KRegion2
import proofs.«148278_j50689204027573_2_alg».proof.Proof.RefSpec

set_option maxRecDepth 16384

noncomputable section

namespace Cert.KernelIdeal.Whole

open Cert.KernelIdeal Cert.KernelIdeal.Gen Cert.KernelIdeal.Blocks Idealize.ShloMosaic Idealize.ShloMosaic.TcCoe Idealize.ShloMosaic.ValueIdx Gnn
open Idealize.ShloMosaic.StableHlo

variable (m : (ℓ : Loc nD τ sig) → Buf (Elt Ideal) ℓ) (ρ : Dev nD → PrngReg)

/-! ## The contents after the first stretch of host operations (the first region's entry) -/

set_option maxHeartbeats 40000000 in
theorem a_main_v9 (c : Dev nD) : (W1 m ρ c (Proc.devRef .tc main_v9) : S100000x256.Idx → EReal) = (Cert.ReferenceIdeal.Terms.agg100 (F := Ideal) (m ((c : Thread nD τ).loc main_arg0)) (m ((c : Thread nD τ).loc main_arg3)) (m ((c : Thread nD τ).loc main_arg4)) : S100000x256.Idx → EReal) := by
  show StableHlo.after hostOps0 (W0 m ρ c) (Proc.devRef .tc main_v9) = _
  after_results_simp <;> rfl

set_option maxHeartbeats 40000000 in
theorem a_main_v14 (c : Dev nD) : (W1 m ρ c (Proc.devRef .tc main_v14) : S100000x1.Idx → EReal) = (shapeCast S100000x1 (Cert.ReferenceIdeal.Terms.cnt100 (F := Ideal) (m ((c : Thread nD τ).loc main_arg4))) shapeCasts_S100000_S100000x1 : S100000x1.Idx → EReal) := by
  show StableHlo.after hostOps0 (W0 m ρ c) (Proc.devRef .tc main_v14) = _
  after_results_simp <;> rfl

set_option maxHeartbeats 40000000 in
theorem a_main_v24 (c : Dev nD) : (W1 m ρ c (Proc.devRef .tc main_v24) : S50000x256.Idx → EReal) = (Cert.ReferenceIdeal.Terms.agg50a (F := Ideal) (m ((c : Thread nD τ).loc main_arg1)) (m ((c : Thread nD τ).loc main_arg5)) (m ((c : Thread nD τ).loc main_arg6)) : S50000x256.Idx → EReal) := by
  show StableHlo.after hostOps0 (W0 m ρ c) (Proc.devRef .tc main_v24) = _
  after_results_simp <;> rfl

set_option maxHeartbeats 40000000 in
theorem a_main_v29 (c : Dev nD) : (W1 m ρ c (Proc.devRef .tc main_v29) : S50000x1.Idx → EReal) = (shapeCast S50000x1 (Cert.ReferenceIdeal.Terms.cnt50 (F := Ideal) (m ((c : Thread nD τ).loc main_arg6))) shapeCasts_S50000_S50000x1 : S50000x1.Idx → EReal) := by
  show StableHlo.after hostOps0 (W0 m ρ c) (Proc.devRef .tc main_v29) = _
  after_results_simp <;> rfl

set_option maxHeartbeats 40000000 in
theorem a_main_v39 (c : Dev nD) : (W1 m ρ c (Proc.devRef .tc main_v39) : S50000x256.Idx → EReal) = (Cert.ReferenceIdeal.Terms.agg50b (F := Ideal) (m ((c : Thread nD τ).loc main_arg2)) (m ((c : Thread nD τ).loc main_arg9)) (m ((c : Thread nD τ).loc main_arg10)) : S50000x256.Idx → EReal) := by
  show StableHlo.after hostOps0 (W0 m ρ c) (Proc.devRef .tc main_v39) = _
  after_results_simp <;> rfl

set_option maxHeartbeats 40000000 in
theorem a_main_v44 (c : Dev nD) : (W1 m ρ c (Proc.devRef .tc main_v44) : S50000x1.Idx → EReal) = (shapeCast S50000x1 (Cert.ReferenceIdeal.Terms.cnt50 (F := Ideal) (m ((c : Thread nD τ).loc main_arg10))) shapeCasts_S50000_S50000x1 : S50000x1.Idx → EReal) := by
  show StableHlo.after hostOps0 (W0 m ρ c) (Proc.devRef .tc main_v44) = _
  after_results_simp <;> rfl

set_option maxHeartbeats 40000000 in
theorem a_main_v54 (c : Dev nD) : (W1 m ρ c (Proc.devRef .tc main_v54) : S20000x256.Idx → EReal) = (Cert.ReferenceIdeal.Terms.agg20 (F := Ideal) (m ((c : Thread nD τ).loc main_arg0)) (m ((c : Thread nD τ).loc main_arg7)) (m ((c : Thread nD τ).loc main_arg8)) : S20000x256.Idx → EReal) := by
  show StableHlo.after hostOps0 (W0 m ρ c) (Proc.devRef .tc main_v54) = _
  after_results_simp <;> rfl

set_option maxHeartbeats 40000000 in
theorem a_main_v59 (c : Dev nD) : (W1 m ρ c (Proc.devRef .tc main_v59) : S20000x1.Idx → EReal) = (shapeCast S20000x1 (Cert.ReferenceIdeal.Terms.cnt20 (F := Ideal) (m ((c : Thread nD τ).loc main_arg8))) shapeCasts_S20000_S20000x1 : S20000x1.Idx → EReal) := by
  show StableHlo.after hostOps0 (W0 m ρ c) (Proc.devRef .tc main_v59) = _
  after_results_simp <;> rfl

set_option maxHeartbeats 40000000 in
theorem a_main_v60 (c : Dev nD) : (W1 m ρ c (Proc.devRef .tc main_v60) : S256x256.Idx → EReal) = (truncf (F := Ideal) .bf16 ((m ((c : Thread nD τ).loc main_arg11)) : FVec Ideal S256x256 .f32) bitsLt_bf16_f32 : S256x256.Idx → EReal) := by
  show StableHlo.after hostOps0 (W0 m ρ c) (Proc.devRef .tc main_v60) = _
  after_results_simp <;> rfl

set_option maxHeartbeats 40000000 in
theorem a_main_v61 (c : Dev nD) : (W1 m ρ c (Proc.devRef .tc main_v61) : S256x256.Idx → EReal) = (truncf (F := Ideal) .bf16 ((m ((c : Thread nD τ).loc main_arg13)) : FVec Ideal S256x256 .f32) bitsLt_bf16_f32 : S256x256.Idx → EReal) := by
  show StableHlo.after hostOps0 (W0 m ρ c) (Proc.devRef .tc main_v61) = _
  after_results_simp <;> rfl

set_option maxHeartbeats 40000000 in
theorem a_main_v62 (c : Dev nD) : (W1 m ρ c (Proc.devRef .tc main_v62) : S1x256.Idx → EReal) = (transpose S1x256 [1, 0] ((m ((c : Thread nD τ).loc main_arg23)) : S256x1.Idx → EReal) transposes_S256x1_S1x256_1_0 : S1x256.Idx → EReal) := by
  show StableHlo.after hostOps0 (W0 m ρ c) (Proc.devRef .tc main_v62) = _
  after_results_simp <;> rfl

set_option maxHeartbeats 40000000 in
theorem a_main_arg0 (c : Dev nD) : (W1 m ρ c (Proc.devRef .tc main_arg0) : S50000x256.Idx → EReal) = ((m ((c : Thread nD τ).loc main_arg0)) : S50000x256.Idx → EReal) := by
  show StableHlo.after hostOps0 (W0 m ρ c) (Proc.devRef .tc main_arg0) = _
  after_results_simp <;> rfl

set_option maxHeartbeats 40000000 in
theorem a_main_arg1 (c : Dev nD) : (W1 m ρ c (Proc.devRef .tc main_arg1) : S100000x256.Idx → EReal) = ((m ((c : Thread nD τ).loc main_arg1)) : S100000x256.Idx → EReal) := by
  show StableHlo.after hostOps0 (W0 m ρ c) (Proc.devRef .tc main_arg1) = _
  after_results_simp <;> rfl

set_option maxHeartbeats 40000000 in
theorem a_main_arg2 (c : Dev nD) : (W1 m ρ c (Proc.devRef .tc main_arg2) : S20000x256.Idx → EReal) = ((m ((c : Thread nD τ).loc main_arg2)) : S20000x256.Idx → EReal) := by
  show StableHlo.after hostOps0 (W0 m ρ c) (Proc.devRef .tc main_arg2) = _
  after_results_simp <;> rfl

set_option maxHeartbeats 40000000 in
theorem a_main_arg12 (c : Dev nD) : (W1 m ρ c (Proc.devRef .tc main_arg12) : S256.Idx → EReal) = ((m ((c : Thread nD τ).loc main_arg12)) : S256.Idx → EReal) := by
  show StableHlo.after hostOps0 (W0 m ρ c) (Proc.devRef .tc main_arg12) = _
  after_results_simp <;> rfl

set_option maxHeartbeats 40000000 in
theorem a_main_arg14 (c : Dev nD) : (W1 m ρ c (Proc.devRef .tc main_arg14) : S256x256.Idx → EReal) = ((m ((c : Thread nD τ).loc main_arg14)) : S256x256.Idx → EReal) := by
  show StableHlo.after hostOps0 (W0 m ρ c) (Proc.devRef .tc main_arg14) = _
  after_results_simp <;> rfl

set_option maxHeartbeats 40000000 in
theorem a_main_arg15 (c : Dev nD) : (W1 m ρ c (Proc.devRef .tc main_arg15) : S256.Idx → EReal) = ((m ((c : Thread nD τ).loc main_arg15)) : S256.Idx → EReal) := by
  show StableHlo.after hostOps0 (W0 m ρ c) (Proc.devRef .tc main_arg15) = _
  after_results_simp <;> rfl

set_option maxHeartbeats 40000000 in
theorem a_main_arg16 (c : Dev nD) : (W1 m ρ c (Proc.devRef .tc main_arg16) : S256x256.Idx → EReal) = ((m ((c : Thread nD τ).loc main_arg16)) : S256x256.Idx → EReal) := by
  show StableHlo.after hostOps0 (W0 m ρ c) (Proc.devRef .tc main_arg16) = _
  after_results_simp <;> rfl

set_option maxHeartbeats 40000000 in
theorem a_main_arg17 (c : Dev nD) : (W1 m ρ c (Proc.devRef .tc main_arg17) : S256x256.Idx → EReal) = ((m ((c : Thread nD τ).loc main_arg17)) : S256x256.Idx → EReal) := by
  show StableHlo.after hostOps0 (W0 m ρ c) (Proc.devRef .tc main_arg17) = _
  after_results_simp <;> rfl

set_option maxHeartbeats 40000000 in
theorem a_main_arg18 (c : Dev nD) : (W1 m ρ c (Proc.devRef .tc main_arg18) : S256.Idx → EReal) = ((m ((c : Thread nD τ).loc main_arg18)) : S256.Idx → EReal) := by
  show StableHlo.after hostOps0 (W0 m ρ c) (Proc.devRef .tc main_arg18) = _
  after_results_simp <;> rfl

set_option maxHeartbeats 40000000 in
theorem a_main_arg19 (c : Dev nD) : (W1 m ρ c (Proc.devRef .tc main_arg19) : S256x256.Idx → EReal) = ((m ((c : Thread nD τ).loc main_arg19)) : S256x256.Idx → EReal) := by
  show StableHlo.after hostOps0 (W0 m ρ c) (Proc.devRef .tc main_arg19) = _
  after_results_simp <;> rfl

set_option maxHeartbeats 40000000 in
theorem a_main_arg20 (c : Dev nD) : (W1 m ρ c (Proc.devRef .tc main_arg20) : S256x256.Idx → EReal) = ((m ((c : Thread nD τ).loc main_arg20)) : S256x256.Idx → EReal) := by
  show StableHlo.after hostOps0 (W0 m ρ c) (Proc.devRef .tc main_arg20) = _
  after_results_simp <;> rfl

set_option maxHeartbeats 40000000 in
theorem a_main_arg21 (c : Dev nD) : (W1 m ρ c (Proc.devRef .tc main_arg21) : S256.Idx → EReal) = ((m ((c : Thread nD τ).loc main_arg21)) : S256.Idx → EReal) := by
  show StableHlo.after hostOps0 (W0 m ρ c) (Proc.devRef .tc main_arg21) = _
  after_results_simp <;> rfl

set_option maxHeartbeats 40000000 in
theorem a_main_arg22 (c : Dev nD) : (W1 m ρ c (Proc.devRef .tc main_arg22) : S256x256.Idx → EReal) = ((m ((c : Thread nD τ).loc main_arg22)) : S256x256.Idx → EReal) := by
  show StableHlo.after hostOps0 (W0 m ρ c) (Proc.devRef .tc main_arg22) = _
  after_results_simp <;> rfl

set_option maxHeartbeats 40000000 in
theorem a_main_arg24 (c : Dev nD) : (W1 m ρ c (Proc.devRef .tc main_arg24) : S1.Idx → EReal) = ((m ((c : Thread nD τ).loc main_arg24)) : S1.Idx → EReal) := by
  show StableHlo.after hostOps0 (W0 m ρ c) (Proc.devRef .tc main_arg24) = _
  after_results_simp <;> rfl

set_option maxHeartbeats 40000000 in
theorem a_main_arg25 (c : Dev nD) : (W1 m ρ c (Proc.devRef .tc main_arg25) : S256x1.Idx → EReal) = ((m ((c : Thread nD τ).loc main_arg25)) : S256x1.Idx → EReal) := by
  show StableHlo.after hostOps0 (W0 m ρ c) (Proc.devRef .tc main_arg25) = _
  after_results_simp <;> rfl

set_option maxHeartbeats 40000000 in
theorem a_main_arg26 (c : Dev nD) : (W1 m ρ c (Proc.devRef .tc main_arg26) : S1.Idx → EReal) = ((m ((c : Thread nD τ).loc main_arg26)) : S1.Idx → EReal) := by
  show StableHlo.after hostOps0 (W0 m ρ c) (Proc.devRef .tc main_arg26) = _
  after_results_simp <;> rfl

/-! ## The contents at the second region's entry: the first region wrote none of these, the second stretch rounds four weight matrices and transposes the head's -/

theorem c_main_v24 (c : Dev nD) : (W3 m ρ c (Proc.devRef .tc main_v24) : S50000x256.Idx → EReal) = (Cert.ReferenceIdeal.Terms.agg50a (F := Ideal) (m ((c : Thread nD τ).loc main_arg1)) (m ((c : Thread nD τ).loc main_arg5)) (m ((c : Thread nD τ).loc main_arg6)) : S50000x256.Idx → EReal) := by
  show StableHlo.after hostOps1 (W2 m ρ c) (Proc.devRef .tc main_v24) = _
  after_results_simp
  exact (W2_of_ne m ρ c main_v24 (by decide)).trans (a_main_v24 m ρ c)

theorem c_main_v29 (c : Dev nD) : (W3 m ρ c (Proc.devRef .tc main_v29) : S50000x1.Idx → EReal) = (shapeCast S50000x1 (Cert.ReferenceIdeal.Terms.cnt50 (F := Ideal) (m ((c : Thread nD τ).loc main_arg6))) shapeCasts_S50000_S50000x1 : S50000x1.Idx → EReal) := by
  show StableHlo.after hostOps1 (W2 m ρ c) (Proc.devRef .tc main_v29) = _
  after_results_simp
  exact (W2_of_ne m ρ c main_v29 (by decide)).trans (a_main_v29 m ρ c)

theorem c_main_v39 (c : Dev nD) : (W3 m ρ c (Proc.devRef .tc main_v39) : S50000x256.Idx → EReal) = (Cert.ReferenceIdeal.Terms.agg50b (F := Ideal) (m ((c : Thread nD τ).loc main_arg2)) (m ((c : Thread nD τ).loc main_arg9)) (m ((c : Thread nD τ).loc main_arg10)) : S50000x256.Idx → EReal) := by
  show StableHlo.after hostOps1 (W2 m ρ c) (Proc.devRef .tc main_v39) = _
  after_results_simp
  exact (W2_of_ne m ρ c main_v39 (by decide)).trans (a_main_v39 m ρ c)

theorem c_main_v44 (c : Dev nD) : (W3 m ρ c (Proc.devRef .tc main_v44) : S50000x1.Idx → EReal) = (shapeCast S50000x1 (Cert.ReferenceIdeal.Terms.cnt50 (F := Ideal) (m ((c : Thread nD τ).loc main_arg10))) shapeCasts_S50000_S50000x1 : S50000x1.Idx → EReal) := by
  show StableHlo.after hostOps1 (W2 m ρ c) (Proc.devRef .tc main_v44) = _
  after_results_simp
  exact (W2_of_ne m ρ c main_v44 (by decide)).trans (a_main_v44 m ρ c)

theorem c_main_arg0 (c : Dev nD) : (W3 m ρ c (Proc.devRef .tc main_arg0) : S50000x256.Idx → EReal) = ((m ((c : Thread nD τ).loc main_arg0)) : S50000x256.Idx → EReal) := by
  show StableHlo.after hostOps1 (W2 m ρ c) (Proc.devRef .tc main_arg0) = _
  after_results_simp
  exact (W2_of_ne m ρ c main_arg0 (by decide)).trans (a_main_arg0 m ρ c)

theorem c_main_arg15 (c : Dev nD) : (W3 m ρ c (Proc.devRef .tc main_arg15) : S256.Idx → EReal) = ((m ((c : Thread nD τ).loc main_arg15)) : S256.Idx → EReal) := by
  show StableHlo.after hostOps1 (W2 m ρ c) (Proc.devRef .tc main_arg15) = _
  after_results_simp
  exact (W2_of_ne m ρ c main_arg15 (by decide)).trans (a_main_arg15 m ρ c)

theorem c_main_arg21 (c : Dev nD) : (W3 m ρ c (Proc.devRef .tc main_arg21) : S256.Idx → EReal) = ((m ((c : Thread nD τ).loc main_arg21)) : S256.Idx → EReal) := by
  show StableHlo.after hostOps1 (W2 m ρ c) (Proc.devRef .tc main_arg21) = _
  after_results_simp
  exact (W2_of_ne m ρ c main_arg21 (by decide)).trans (a_main_arg21 m ρ c)

theorem c_main_arg26 (c : Dev nD) : (W3 m ρ c (Proc.devRef .tc main_arg26) : S1.Idx → EReal) = ((m ((c : Thread nD τ).loc main_arg26)) : S1.Idx → EReal) := by
  show StableHlo.after hostOps1 (W2 m ρ c) (Proc.devRef .tc main_arg26) = _
  after_results_simp
  exact (W2_of_ne m ρ c main_arg26 (by decide)).trans (a_main_arg26 m ρ c)

theorem c_main_v54 (c : Dev nD) : (W3 m ρ c (Proc.devRef .tc main_v54) : S20000x256.Idx → EReal) = (Cert.ReferenceIdeal.Terms.agg20 (F := Ideal) (m ((c : Thread nD τ).loc main_arg0)) (m ((c : Thread nD τ).loc main_arg7)) (m ((c : Thread nD τ).loc main_arg8)) : S20000x256.Idx → EReal) := by
  show StableHlo.after hostOps1 (W2 m ρ c) (Proc.devRef .tc main_v54) = _
  after_results_simp
  exact (W2_of_ne m ρ c main_v54 (by decide)).trans (a_main_v54 m ρ c)

theorem c_main_v59 (c : Dev nD) : (W3 m ρ c (Proc.devRef .tc main_v59) : S20000x1.Idx → EReal) = (shapeCast S20000x1 (Cert.ReferenceIdeal.Terms.cnt20 (F := Ideal) (m ((c : Thread nD τ).loc main_arg8))) shapeCasts_S20000_S20000x1 : S20000x1.Idx → EReal) := by
  show StableHlo.after hostOps1 (W2 m ρ c) (Proc.devRef .tc main_v59) = _
  after_results_simp
  exact (W2_of_ne m ρ c main_v59 (by decide)).trans (a_main_v59 m ρ c)

theorem c_main_arg2 (c : Dev nD) : (W3 m ρ c (Proc.devRef .tc main_arg2) : S20000x256.Idx → EReal) = ((m ((c : Thread nD τ).loc main_arg2)) : S20000x256.Idx → EReal) := by
  show StableHlo.after hostOps1 (W2 m ρ c) (Proc.devRef .tc main_arg2) = _
  after_results_simp
  exact (W2_of_ne m ρ c main_arg2 (by decide)).trans (a_main_arg2 m ρ c)

theorem c_main_arg18 (c : Dev nD) : (W3 m ρ c (Proc.devRef .tc main_arg18) : S256.Idx → EReal) = ((m ((c : Thread nD τ).loc main_arg18)) : S256.Idx → EReal) := by
  show StableHlo.after hostOps1 (W2 m ρ c) (Proc.devRef .tc main_arg18) = _
  after_results_simp
  exact (W2_of_ne m ρ c main_arg18 (by decide)).trans (a_main_arg18 m ρ c)

theorem c_main_arg17 (c : Dev nD) : (W3 m ρ c (Proc.devRef .tc main_arg17) : S256x256.Idx → EReal) = ((m ((c : Thread nD τ).loc main_arg17)) : S256x256.Idx → EReal) := by
  show StableHlo.after hostOps1 (W2 m ρ c) (Proc.devRef .tc main_arg17) = _
  after_results_simp
  exact (W2_of_ne m ρ c main_arg17 (by decide)).trans (a_main_arg17 m ρ c)

theorem c_main_arg19 (c : Dev nD) : (W3 m ρ c (Proc.devRef .tc main_arg19) : S256x256.Idx → EReal) = ((m ((c : Thread nD τ).loc main_arg19)) : S256x256.Idx → EReal) := by
  show StableHlo.after hostOps1 (W2 m ρ c) (Proc.devRef .tc main_arg19) = _
  after_results_simp
  exact (W2_of_ne m ρ c main_arg19 (by decide)).trans (a_main_arg19 m ρ c)

theorem c_main_v64 (c : Dev nD) : (W3 m ρ c (Proc.devRef .tc main_v64) : S256x256.Idx → EReal) = (truncf (F := Ideal) .bf16 ((m ((c : Thread nD τ).loc main_arg14)) : FVec Ideal S256x256 .f32) bitsLt_bf16_f32 : S256x256.Idx → EReal) := by
  show StableHlo.after hostOps1 (W2 m ρ c) (Proc.devRef .tc main_v64) = _
  after_results_simp
  rw [W2_of_ne m ρ c main_arg14 (by decide), a_main_arg14]

theorem c_main_v65 (c : Dev nD) : (W3 m ρ c (Proc.devRef .tc main_v65) : S256x256.Idx → EReal) = (truncf (F := Ideal) .bf16 ((m ((c : Thread nD τ).loc main_arg16)) : FVec Ideal S256x256 .f32) bitsLt_bf16_f32 : S256x256.Idx → EReal) := by
  show StableHlo.after hostOps1 (W2 m ρ c) (Proc.devRef .tc main_v65) = _
  after_results_simp
  rw [W2_of_ne m ρ c main_arg16 (by decide), a_main_arg16]

theorem c_main_v66 (c : Dev nD) : (W3 m ρ c (Proc.devRef .tc main_v66) : S256x256.Idx → EReal) = (truncf (F := Ideal) .bf16 ((m ((c : Thread nD τ).loc main_arg20)) : FVec Ideal S256x256 .f32) bitsLt_bf16_f32 : S256x256.Idx → EReal) := by
  show StableHlo.after hostOps1 (W2 m ρ c) (Proc.devRef .tc main_v66) = _
  after_results_simp
  rw [W2_of_ne m ρ c main_arg20 (by decide), a_main_arg20]

theorem c_main_v67 (c : Dev nD) : (W3 m ρ c (Proc.devRef .tc main_v67) : S256x256.Idx → EReal) = (truncf (F := Ideal) .bf16 ((m ((c : Thread nD τ).loc main_arg22)) : FVec Ideal S256x256 .f32) bitsLt_bf16_f32 : S256x256.Idx → EReal) := by
  show StableHlo.after hostOps1 (W2 m ρ c) (Proc.devRef .tc main_v67) = _
  after_results_simp
  rw [W2_of_ne m ρ c main_arg22 (by decide), a_main_arg22]

theorem c_main_v68 (c : Dev nD) : (W3 m ρ c (Proc.devRef .tc main_v68) : S1x256.Idx → EReal) = (transpose S1x256 [1, 0] ((m ((c : Thread nD τ).loc main_arg25)) : S256x1.Idx → EReal) transposes_S256x1_S1x256_1_0 : S1x256.Idx → EReal) := by
  show StableHlo.after hostOps1 (W2 m ρ c) (Proc.devRef .tc main_v68) = _
  after_results_simp
  rw [W2_of_ne m ρ c main_arg25 (by decide), a_main_arg25]

/-! ## The contents at the third region's entry -/

theorem e_main_v54 (c : Dev nD) : (W5 m ρ c (Proc.devRef .tc main_v54) : S20000x256.Idx → EReal) = (Cert.ReferenceIdeal.Terms.agg20 (F := Ideal) (m ((c : Thread nD τ).loc main_arg0)) (m ((c : Thread nD τ).loc main_arg7)) (m ((c : Thread nD τ).loc main_arg8)) : S20000x256.Idx → EReal) := by
  show StableHlo.after hostOps2 (W4 m ρ c) (Proc.devRef .tc main_v54) = _
  after_results_simp
  exact (W4_of_ne m ρ c main_v54 (by decide)).trans (c_main_v54 m ρ c)

theorem e_main_v59 (c : Dev nD) : (W5 m ρ c (Proc.devRef .tc main_v59) : S20000x1.Idx → EReal) = (shapeCast S20000x1 (Cert.ReferenceIdeal.Terms.cnt20 (F := Ideal) (m ((c : Thread nD τ).loc main_arg8))) shapeCasts_S20000_S20000x1 : S20000x1.Idx → EReal) := by
  show StableHlo.after hostOps2 (W4 m ρ c) (Proc.devRef .tc main_v59) = _
  after_results_simp
  exact (W4_of_ne m ρ c main_v59 (by decide)).trans (c_main_v59 m ρ c)

theorem e_main_arg2 (c : Dev nD) : (W5 m ρ c (Proc.devRef .tc main_arg2) : S20000x256.Idx → EReal) = ((m ((c : Thread nD τ).loc main_arg2)) : S20000x256.Idx → EReal) := by
  show StableHlo.after hostOps2 (W4 m ρ c) (Proc.devRef .tc main_arg2) = _
  after_results_simp
  exact (W4_of_ne m ρ c main_arg2 (by decide)).trans (c_main_arg2 m ρ c)

theorem e_main_arg18 (c : Dev nD) : (W5 m ρ c (Proc.devRef .tc main_arg18) : S256.Idx → EReal) = ((m ((c : Thread nD τ).loc main_arg18)) : S256.Idx → EReal) := by
  show StableHlo.after hostOps2 (W4 m ρ c) (Proc.devRef .tc main_arg18) = _
  after_results_simp
  exact (W4_of_ne m ρ c main_arg18 (by decide)).trans (c_main_arg18 m ρ c)

theorem e_main_v70 (c : Dev nD) : (W5 m ρ c (Proc.devRef .tc main_v70) : S256x256.Idx → EReal) = (truncf (F := Ideal) .bf16 ((m ((c : Thread nD τ).loc main_arg17)) : FVec Ideal S256x256 .f32) bitsLt_bf16_f32 : S256x256.Idx → EReal) := by
  show StableHlo.after hostOps2 (W4 m ρ c) (Proc.devRef .tc main_v70) = _
  after_results_simp
  rw [W4_of_ne m ρ c main_arg17 (by decide), c_main_arg17]

theorem e_main_v71 (c : Dev nD) : (W5 m ρ c (Proc.devRef .tc main_v71) : S256x256.Idx → EReal) = (truncf (F := Ideal) .bf16 ((m ((c : Thread nD τ).loc main_arg19)) : FVec Ideal S256x256 .f32) bitsLt_bf16_f32 : S256x256.Idx → EReal) := by
  show StableHlo.after hostOps2 (W4 m ρ c) (Proc.devRef .tc main_v71) = _
  after_results_simp
  rw [W4_of_ne m ρ c main_arg19 (by decide), c_main_arg19]

/-! ## Each region's output array, from the launch contents -/

/-- The 100000-row region's output array. -/
theorem out0_eq (c : Dev nD) :
    Region0.result (V1 m ρ) c = Cert.ReferenceIdeal.Spec.out100 (m ((c : Thread nD τ).loc main_arg0)) (m ((c : Thread nD τ).loc main_arg1)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg23)) (m ((c : Thread nD τ).loc main_arg24)) :=
  headArr_congr _ _
    (sageArr_congr _ (a_main_v9 m ρ c) (funext fun r => by
      show (W1 m ρ c (Proc.devRef .tc main_v14) : S100000x1.Idx → EReal) (ix2 r (0 : Fin 1)) = _
      rw [a_main_v14]; exact shapeCast_col_apply _ _ r 0) (a_main_arg1 m ρ c)
      ((a_main_v60 m ρ c).trans (truncf_ideal _ _)) (a_main_arg12 m ρ c) ((a_main_v61 m ρ c).trans (truncf_ideal _ _)))
    (funext fun k => by
      show (W1 m ρ c (Proc.devRef .tc main_v62) : S1x256.Idx → EReal) (ix2 (0 : Fin 1) k) = _
      rw [a_main_v62]; exact transpose_ix2_apply _ _ (0 : Fin 1) k)
    (by
      show (W1 m ρ c (Proc.devRef .tc main_arg24) : S1.Idx → EReal) (ix1 (0 : Fin 1)) = _
      rw [a_main_arg24])

/-- The 50000-row region's output array. -/
theorem out1_eq (c : Dev nD) :
    Region1.result (V3 m ρ) c = Cert.ReferenceIdeal.Spec.out50 (m ((c : Thread nD τ).loc main_arg1)) (m ((c : Thread nD τ).loc main_arg2)) (m ((c : Thread nD τ).loc main_arg0)) (m ((c : Thread nD τ).loc main_arg5)) (m ((c : Thread nD τ).loc main_arg6)) (m ((c : Thread nD τ).loc main_arg9)) (m ((c : Thread nD τ).loc main_arg10))
      (m ((c : Thread nD τ).loc main_arg14)) (m ((c : Thread nD τ).loc main_arg15)) (m ((c : Thread nD τ).loc main_arg16)) (m ((c : Thread nD τ).loc main_arg20)) (m ((c : Thread nD τ).loc main_arg21)) (m ((c : Thread nD τ).loc main_arg22)) (m ((c : Thread nD τ).loc main_arg25)) (m ((c : Thread nD τ).loc main_arg26)) :=
  headArr_congr _ _
    (funext fun r => funext fun k => congrArg₂ (· + ·)
      (congrFun (congrFun (sageArr_congr _ (c_main_v24 m ρ c) (funext fun r => by
      show (W3 m ρ c (Proc.devRef .tc main_v29) : S50000x1.Idx → EReal) (ix2 r (0 : Fin 1)) = _
      rw [c_main_v29]; exact shapeCast_col_apply _ _ r 0) (c_main_arg0 m ρ c)
        ((c_main_v64 m ρ c).trans (truncf_ideal _ _)) (c_main_arg15 m ρ c) ((c_main_v65 m ρ c).trans (truncf_ideal _ _))) r) k)
      (congrFun (congrFun (sageArr_congr _ (c_main_v39 m ρ c) (funext fun r => by
      show (W3 m ρ c (Proc.devRef .tc main_v44) : S50000x1.Idx → EReal) (ix2 r (0 : Fin 1)) = _
      rw [c_main_v44]; exact shapeCast_col_apply _ _ r 0) (c_main_arg0 m ρ c)
        ((c_main_v66 m ρ c).trans (truncf_ideal _ _)) (c_main_arg21 m ρ c) ((c_main_v67 m ρ c).trans (truncf_ideal _ _))) r) k))
    (funext fun k => by
      show (W3 m ρ c (Proc.devRef .tc main_v68) : S1x256.Idx → EReal) (ix2 (0 : Fin 1) k) = _
      rw [c_main_v68]; exact transpose_ix2_apply _ _ (0 : Fin 1) k)
    (by
      show (W3 m ρ c (Proc.devRef .tc main_arg26) : S1.Idx → EReal) (ix1 (0 : Fin 1)) = _
      rw [c_main_arg26])

/-- The 20000-row region's output array. -/
theorem out2_eq (c : Dev nD) :
    Region2.result (V5 m ρ) c = Cert.ReferenceIdeal.Spec.out20 (m ((c : Thread nD τ).loc main_arg0)) (m ((c : Thread nD τ).loc main_arg2)) (m ((c : Thread nD τ).loc main_arg7)) (m ((c : Thread nD τ).loc main_arg8)) (m ((c : Thread nD τ).loc main_arg17)) (m ((c : Thread nD τ).loc main_arg18)) (m ((c : Thread nD τ).loc main_arg19)) :=
  reluArr_congr _
    (sageArr_congr _ (e_main_v54 m ρ c) (funext fun r => by
      show (W5 m ρ c (Proc.devRef .tc main_v59) : S20000x1.Idx → EReal) (ix2 r (0 : Fin 1)) = _
      rw [e_main_v59]; exact shapeCast_col_apply _ _ r 0) (e_main_arg2 m ρ c)
      ((e_main_v70 m ρ c).trans (truncf_ideal _ _)) (e_main_arg18 m ρ c) ((e_main_v71 m ρ c).trans (truncf_ideal _ _)))

/-! ## The three result buffers at the last boundary -/

/-- The 20000-row result: the third region's output array. -/
theorem k_v72 (c : Dev nD) :
    (W6 m ρ c (Proc.devRef .tc main_v72) : S20000x256.Idx → EReal)
      = Cert.ReferenceIdeal.Spec.out20 (m ((c : Thread nD τ).loc main_arg0)) (m ((c : Thread nD τ).loc main_arg2)) (m ((c : Thread nD τ).loc main_arg7)) (m ((c : Thread nD τ).loc main_arg8)) (m ((c : Thread nD τ).loc main_arg17)) (m ((c : Thread nD τ).loc main_arg18)) (m ((c : Thread nD τ).loc main_arg19)) :=
  ((W6_arr m ρ c 6).trans (Region2.final (V5 m ρ) c)).trans (out2_eq m ρ c)

/-- The 50000-row result: the second region's output array, which nothing after it writes. -/
theorem k_v69 (c : Dev nD) :
    (W6 m ρ c (Proc.devRef .tc main_v69) : S50000x1.Idx → EReal)
      = Cert.ReferenceIdeal.Spec.out50 (m ((c : Thread nD τ).loc main_arg1)) (m ((c : Thread nD τ).loc main_arg2)) (m ((c : Thread nD τ).loc main_arg0)) (m ((c : Thread nD τ).loc main_arg5)) (m ((c : Thread nD τ).loc main_arg6)) (m ((c : Thread nD τ).loc main_arg9)) (m ((c : Thread nD τ).loc main_arg10))
      (m ((c : Thread nD τ).loc main_arg14)) (m ((c : Thread nD τ).loc main_arg15)) (m ((c : Thread nD τ).loc main_arg16)) (m ((c : Thread nD τ).loc main_arg20)) (m ((c : Thread nD τ).loc main_arg21)) (m ((c : Thread nD τ).loc main_arg22)) (m ((c : Thread nD τ).loc main_arg25)) (m ((c : Thread nD τ).loc main_arg26)) := by
  refine (W6_of_ne m ρ c main_v69 (by decide)).trans ?_
  have h5 : W5 m ρ c (Proc.devRef .tc main_v69) = W4 m ρ c (Proc.devRef .tc main_v69) := by
    show StableHlo.after hostOps2 (W4 m ρ c) (Proc.devRef .tc main_v69) = _
    after_results_simp
  exact h5.trans (((W4_arr m ρ c 13).trans (Region1.final (V3 m ρ) c)).trans (out1_eq m ρ c))

/-- The 100000-row result: the first region's output array, which nothing after it writes. -/
theorem k_v63 (c : Dev nD) :
    (W6 m ρ c (Proc.devRef .tc main_v63) : S100000x1.Idx → EReal)
      = Cert.ReferenceIdeal.Spec.out100 (m ((c : Thread nD τ).loc main_arg0)) (m ((c : Thread nD τ).loc main_arg1)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg23)) (m ((c : Thread nD τ).loc main_arg24)) := by
  refine (W6_of_ne m ρ c main_v63 (by decide)).trans ?_
  have h5 : W5 m ρ c (Proc.devRef .tc main_v63) = W4 m ρ c (Proc.devRef .tc main_v63) := by
    show StableHlo.after hostOps2 (W4 m ρ c) (Proc.devRef .tc main_v63) = _
    after_results_simp
  have h3 : W3 m ρ c (Proc.devRef .tc main_v63) = W2 m ρ c (Proc.devRef .tc main_v63) := by
    show StableHlo.after hostOps1 (W2 m ρ c) (Proc.devRef .tc main_v63) = _
    after_results_simp
  exact h5.trans ((W4_of_ne m ρ c main_v63 (by decide)).trans (h3.trans
    (((W2_arr m ρ c 8).trans (Region0.final (V1 m ρ) c)).trans (out0_eq m ρ c))))

end Cert.KernelIdeal.Whole

end
-- ==== Proof.KFinal.lean ====
/-
  The idealized kernel's run at the ideal instance: every weakly fair execution ends with the three results at the
  row-level specification of the launch contents of the arguments, and the arguments unchanged.
-/
import proofs.«148278_j50689204027573_2_alg».proof.Proof.KRun
import proofs.«148278_j50689204027573_2_alg».proof.Proof.KValue

set_option maxRecDepth 16384

noncomputable section

namespace Cert.KernelIdeal.Whole

open Cert.KernelIdeal Cert.KernelIdeal.Gen Idealize.ShloMosaic Idealize.ShloMosaic.TcCoe Idealize.SL.Sem
open Cert.ReferenceIdeal.Spec (out100 out50 out20)

variable (m : (ℓ : Loc nD τ sig) → Buf (Elt Ideal) ℓ) (ρ : Dev nD → PrngReg)

/-- Every weakly fair execution of the idealized kernel terminates with its three results at the specification of the
    arguments' launch contents, the arguments unchanged. -/
theorem run : θ_run defs (onTc (τ := τ) (main (F := Ideal))) ⟨m, fun _ => 0, ρ⟩ fun r => ∀ c : Dev nD,
      r.2.mem ((c.tc : Thread nD τ).loc main_v63)
        = out100 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg23)) (m ((c.tc : Thread nD τ).loc main_arg24))
      ∧ r.2.mem ((c.tc : Thread nD τ).loc main_v69)
        = out50 (m ((c.tc : Thread nD τ).loc main_arg1)) (m ((c.tc : Thread nD τ).loc main_arg2)) (m ((c.tc : Thread nD τ).loc main_arg0)) (m ((c.tc : Thread nD τ).loc main_arg5)) (m ((c.tc : Thread nD τ).loc main_arg6)) (m ((c.tc : Thread nD τ).loc main_arg9)) (m ((c.tc : Thread nD τ).loc main_arg10))
          (m ((c.tc : Thread nD τ).loc main_arg14)) (m ((c.tc : Thread nD τ).loc main_arg15)) (m ((c.tc : Thread nD τ).loc main_arg16)) (m ((c.tc : Thread nD τ).loc main_arg20)) (m ((c.tc : Thread nD τ).loc main_arg21)) (m ((c.tc : Thread nD τ).loc main_arg22)) (m ((c.tc : Thread nD τ).loc main_arg25)) (m ((c.tc : Thread nD τ).loc main_arg26))
      ∧ r.2.mem ((c.tc : Thread nD τ).loc main_v72)
        = out20 (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨(h c main_v63 (by decide)).trans (k_v63 m ρ c), (h c main_v69 (by decide)).trans (k_v69 m ρ c),
      (h c main_v72 (by decide)).trans (k_v72 m ρ c),
      (h c main_arg0 (by decide)).trans (W6_main_arg0 m ρ c),
      (h c main_arg1 (by decide)).trans (W6_main_arg1 m ρ c),
      (h c main_arg2 (by decide)).trans (W6_main_arg2 m ρ c),
      (h c main_arg3 (by decide)).trans (W6_main_arg3 m ρ c),
      (h c main_arg4 (by decide)).trans (W6_main_arg4 m ρ c),
      (h c main_arg5 (by decide)).trans (W6_main_arg5 m ρ c),
      (h c main_arg6 (by decide)).trans (W6_main_arg6 m ρ c),
      (h c main_arg7 (by decide)).trans (W6_main_arg7 m ρ c),
      (h c main_arg8 (by decide)).trans (W6_main_arg8 m ρ c),
      (h c main_arg9 (by decide)).trans (W6_main_arg9 m ρ c),
      (h c main_arg10 (by decide)).trans (W6_main_arg10 m ρ c),
      (h c main_arg11 (by decide)).trans (W6_main_arg11 m ρ c),
      (h c main_arg12 (by decide)).trans (W6_main_arg12 m ρ c),
      (h c main_arg13 (by decide)).trans (W6_main_arg13 m ρ c),
      (h c main_arg14 (by decide)).trans (W6_main_arg14 m ρ c),
      (h c main_arg15 (by decide)).trans (W6_main_arg15 m ρ c),
      (h c main_arg16 (by decide)).trans (W6_main_arg16 m ρ c),
      (h c main_arg17 (by decide)).trans (W6_main_arg17 m ρ c),
      (h c main_arg18 (by decide)).trans (W6_main_arg18 m ρ c),
      (h c main_arg19 (by decide)).trans (W6_main_arg19 m ρ c),
      (h c main_arg20 (by decide)).trans (W6_main_arg20 m ρ c),
      (h c main_arg21 (by decide)).trans (W6_main_arg21 m ρ c),
      (h c main_arg22 (by decide)).trans (W6_main_arg22 m ρ c),
      (h c main_arg23 (by decide)).trans (W6_main_arg23 m ρ c),
      (h c main_arg24 (by decide)).trans (W6_main_arg24 m ρ c),
      (h c main_arg25 (by decide)).trans (W6_main_arg25 m ρ c),
      (h c main_arg26 (by decide)).trans (W6_main_arg26 m ρ c)⟩)
    (run_last m ρ)

end Cert.KernelIdeal.Whole

end
-- ==== Proof.RefOps.lean ====
/-
  The reference program's @main read as one straight line of host operations: the three printed
  windows as three lists (the called functions — the rectifier and the leaky rectifier with
  its inner select — written at their call sites over the calls' own buffers), their concatenation,
  and the run: every weakly fair execution ends with each buffer at the fold of the operations'
  results over the launch contents. A buffer no operation writes keeps its launch contents.
-/
import proofs.«148278_j50689204027573_2_alg».proof.Proof.Gen.ReferenceIdeal
import Idealize.ShloMosaic.Lib.StableHlo.Run
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The first window's sixty operations: the two aggregations into the 100000-row node type and the first half of
    those into the 50000-row one. -/
abbrev ops0 : List (HloOp τ sig (Elt F)) :=
  [ StableHlo.nullary main_c (constantI S_ 32 0#32),
    StableHlo.unary main_c main_v0 (broadcastInDim S300000 ![] bcast_S_S300000 : (⟨S_, .i32⟩ : BufTy).Contents (Elt F) → (⟨S300000, .i32⟩ : BufTy).Contents (Elt F)),
    StableHlo.binary main_arg3 main_v0 main_v1 (cmpi .slt : (⟨S300000, .i32⟩ : BufTy).Contents (Elt F) → (⟨S300000, .i32⟩ : BufTy).Contents (Elt F) → (⟨S300000, .i1⟩ : BufTy).Contents (Elt F)),
    StableHlo.nullary main_c_0 (constantI S_ 32 50000#32),
    StableHlo.unary main_c_0 main_v2 (broadcastInDim S300000 ![] bcast_S_S300000 : (⟨S_, .i32⟩ : BufTy).Contents (Elt F) → (⟨S300000, .i32⟩ : BufTy).Contents (Elt F)),
    StableHlo.binary main_arg3 main_v2 main_v3 (addi : (⟨S300000, .i32⟩ : BufTy).Contents (Elt F) → (⟨S300000, .i32⟩ : BufTy).Contents (Elt F) → (⟨S300000, .i32⟩ : BufTy).Contents (Elt F)),
    StableHlo.ternary main_v1 main_v3 main_arg3 main_v4 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v4 main_v5 (broadcastInDim S300000x1 ![0] bcast_S300000_S300000x1_0 : (⟨S300000, .i32⟩ : BufTy).Contents (Elt F) → (⟨S300000x1, .i32⟩ : BufTy).Contents (Elt F)),
    StableHlo.binary main_arg0 main_v5 main_v6 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst (constant S_ .f32 0x00000000#32),
    StableHlo.unary main_cst main_v7 (broadcastInDim S100000x256 ![] bcast_S_S100000x256 : (⟨S_, .f32⟩ : BufTy).Contents (Elt F) → (⟨S100000x256, .f32⟩ : BufTy).Contents (Elt F)),
    StableHlo.unary main_arg4 main_v8 (broadcastInDim S300000x1 ![0] bcast_S300000_S300000x1_0 : (⟨S300000, .i32⟩ : BufTy).Contents (Elt F) → (⟨S300000x1, .i32⟩ : BufTy).Contents (Elt F)),
    StableHlo.ternary main_v7 main_v8 main_v6 main_v9 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.nullary main_cst_1 (constant S_ .f32 0x3F800000#32),
    StableHlo.unary main_cst_1 main_v10 (broadcastInDim S300000 ![] bcast_S_S300000 : (⟨S_, .f32⟩ : BufTy).Contents (Elt F) → (⟨S300000, .f32⟩ : BufTy).Contents (Elt F)),
    StableHlo.nullary main_cst_2 (constant S_ .f32 0x00000000#32),
    StableHlo.unary main_cst_2 main_v11 (broadcastInDim S100000 ![] bcast_S_S100000 : (⟨S_, .f32⟩ : BufTy).Contents (Elt F) → (⟨S100000, .f32⟩ : BufTy).Contents (Elt F)),
    StableHlo.unary main_arg4 main_v12 (broadcastInDim S300000x1 ![0] bcast_S300000_S300000x1_0 : (⟨S300000, .i32⟩ : BufTy).Contents (Elt F) → (⟨S300000x1, .i32⟩ : BufTy).Contents (Elt F)),
    StableHlo.ternary main_v11 main_v12 main_v10 main_v13 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    StableHlo.nullary main_cst_3 (constant S_ .f32 0x3F800000#32),
    StableHlo.unary main_cst_3 main_v14 (broadcastInDim S100000 ![] bcast_S_S100000 : (⟨S_, .f32⟩ : BufTy).Contents (Elt F) → (⟨S100000, .f32⟩ : BufTy).Contents (Elt F)),
    StableHlo.binary main_v13 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (broadcastInDim S100000x1 ![0] bcast_S100000_S100000x1_0 : (⟨S100000, .f32⟩ : BufTy).Contents (Elt F) → (⟨S100000x1, .f32⟩ : BufTy).Contents (Elt F)),
    StableHlo.unary main_v16 main_v17 (broadcastInDim S100000x256 ![0, 1] bcast_S100000x1_S100000x256_0_1 : (⟨S100000x1, .f32⟩ : BufTy).Contents (Elt F) → (⟨S100000x256, .f32⟩ : BufTy).Contents (Elt F)),
    StableHlo.binary main_v9 main_v17 main_v18 (Host.divf : (⟨S100000x256, .f32⟩ : BufTy).Contents (Elt F) → (⟨S100000x256, .f32⟩ : BufTy).Contents (Elt F) → (⟨S100000x256, .f32⟩ : BufTy).Contents (Elt F)),
    StableHlo.binary main_v18 main_arg11 main_v19 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg12 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S100000x256 ![0, 1] bcast_S1x256_S100000x256_0_1 : (⟨S1x256, .f32⟩ : BufTy).Contents (Elt F) → (⟨S100000x256, .f32⟩ : BufTy).Contents (Elt F)),
    StableHlo.binary main_v19 main_v21 main_v22 (addf : (⟨S100000x256, .f32⟩ : BufTy).Contents (Elt F) → (⟨S100000x256, .f32⟩ : BufTy).Contents (Elt F) → (⟨S100000x256, .f32⟩ : BufTy).Contents (Elt F)),
    StableHlo.binary main_arg1 main_arg13 main_v23 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v22 main_v23 main_v24 (addf : (⟨S100000x256, .f32⟩ : BufTy).Contents (Elt F) → (⟨S100000x256, .f32⟩ : BufTy).Contents (Elt F) → (⟨S100000x256, .f32⟩ : BufTy).Contents (Elt F)),
    StableHlo.nullary main_c_4 (constantI S_ 32 0#32),
    StableHlo.unary main_c_4 main_v25 (broadcastInDim S300000 ![] bcast_S_S300000 : (⟨S_, .i32⟩ : BufTy).Contents (Elt F) → (⟨S300000, .i32⟩ : BufTy).Contents (Elt F)),
    StableHlo.binary main_arg5 main_v25 main_v26 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 100000#32),
    StableHlo.unary main_c_5 main_v27 (broadcastInDim S300000 ![] bcast_S_S300000 : (⟨S_, .i32⟩ : BufTy).Contents (Elt F) → (⟨S300000, .i32⟩ : BufTy).Contents (Elt F)),
    StableHlo.binary main_arg5 main_v27 main_v28 (addi : (⟨S300000, .i32⟩ : BufTy).Contents (Elt F) → (⟨S300000, .i32⟩ : BufTy).Contents (Elt F) → (⟨S300000, .i32⟩ : BufTy).Contents (Elt F)),
    StableHlo.ternary main_v26 main_v28 main_arg5 main_v29 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v29 main_v30 (broadcastInDim S300000x1 ![0] bcast_S300000_S300000x1_0 : (⟨S300000, .i32⟩ : BufTy).Contents (Elt F) → (⟨S300000x1, .i32⟩ : BufTy).Contents (Elt F)),
    StableHlo.binary main_arg1 main_v30 main_v31 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    StableHlo.nullary main_cst_6 (constant S_ .f32 0x00000000#32),
    StableHlo.unary main_cst_6 main_v32 (broadcastInDim S50000x256 ![] bcast_S_S50000x256 : (⟨S_, .f32⟩ : BufTy).Contents (Elt F) → (⟨S50000x256, .f32⟩ : BufTy).Contents (Elt F)),
    StableHlo.unary main_arg6 main_v33 (broadcastInDim S300000x1 ![0] bcast_S300000_S300000x1_0 : (⟨S300000, .i32⟩ : BufTy).Contents (Elt F) → (⟨S300000x1, .i32⟩ : BufTy).Contents (Elt F)),
    StableHlo.ternary main_v32 main_v33 main_v31 main_v34 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.nullary main_cst_7 (constant S_ .f32 0x3F800000#32),
    StableHlo.unary main_cst_7 main_v35 (broadcastInDim S300000 ![] bcast_S_S300000 : (⟨S_, .f32⟩ : BufTy).Contents (Elt F) → (⟨S300000, .f32⟩ : BufTy).Contents (Elt F)),
    StableHlo.nullary main_cst_8 (constant S_ .f32 0x00000000#32),
    StableHlo.unary main_cst_8 main_v36 (broadcastInDim S50000 ![] bcast_S_S50000 : (⟨S_, .f32⟩ : BufTy).Contents (Elt F) → (⟨S50000, .f32⟩ : BufTy).Contents (Elt F)),
    StableHlo.unary main_arg6 main_v37 (broadcastInDim S300000x1 ![0] bcast_S300000_S300000x1_0 : (⟨S300000, .i32⟩ : BufTy).Contents (Elt F) → (⟨S300000x1, .i32⟩ : BufTy).Contents (Elt F)),
    StableHlo.ternary main_v36 main_v37 main_v35 main_v38 ((fun x i u => Host.scatterAdd scatter_S50000_S300000x1_S300000_n_0_0_1 x i u) : (⟨S50000, .f32⟩ : BufTy).Contents (Elt F) → (⟨S300000x1, .i32⟩ : BufTy).Contents (Elt F) → (⟨S300000, .f32⟩ : BufTy).Contents (Elt F) → (⟨S50000, .f32⟩ : BufTy).Contents (Elt F)),
    StableHlo.nullary main_cst_9 (constant S_ .f32 0x3F800000#32),
    StableHlo.unary main_cst_9 main_v39 (broadcastInDim S50000 ![] bcast_S_S50000 : (⟨S_, .f32⟩ : BufTy).Contents (Elt F) → (⟨S50000, .f32⟩ : BufTy).Contents (Elt F)),
    StableHlo.binary main_v38 main_v39 main_v40 (maximumf : (⟨S50000, .f32⟩ : BufTy).Contents (Elt F) → (⟨S50000, .f32⟩ : BufTy).Contents (Elt F) → (⟨S50000, .f32⟩ : BufTy).Contents (Elt F)),
    StableHlo.unary main_v40 main_v41 (broadcastInDim S50000x1 ![0] bcast_S50000_S50000x1_0 : (⟨S50000, .f32⟩ : BufTy).Contents (Elt F) → (⟨S50000x1, .f32⟩ : BufTy).Contents (Elt F)),
    StableHlo.unary main_v41 main_v42 (broadcastInDim S50000x256 ![0, 1] bcast_S50000x1_S50000x256_0_1 : (⟨S50000x1, .f32⟩ : BufTy).Contents (Elt F) → (⟨S50000x256, .f32⟩ : BufTy).Contents (Elt F)),
    StableHlo.binary main_v34 main_v42 main_v43 (Host.divf : (⟨S50000x256, .f32⟩ : BufTy).Contents (Elt F) → (⟨S50000x256, .f32⟩ : BufTy).Contents (Elt F) → (⟨S50000x256, .f32⟩ : BufTy).Contents (Elt F)),
    StableHlo.binary main_v43 main_arg14 main_v44 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg15 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S50000x256 ![0, 1] bcast_S1x256_S50000x256_0_1 : (⟨S1x256, .f32⟩ : BufTy).Contents (Elt F) → (⟨S50000x256, .f32⟩ : BufTy).Contents (Elt F)),
    StableHlo.binary main_v44 main_v46 main_v47 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
/-- The second window's sixty operations. -/
abbrev ops1 : List (HloOp τ sig (Elt F)) :=
  [ StableHlo.binary main_arg0 main_arg16 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v47 main_v48 main_v49 (addf : (⟨S50000x256, .f32⟩ : BufTy).Contents (Elt F) → (⟨S50000x256, .f32⟩ : BufTy).Contents (Elt F) → (⟨S50000x256, .f32⟩ : BufTy).Contents (Elt F)),
    StableHlo.nullary main_c_10 (constantI S_ 32 0#32),
    StableHlo.unary main_c_10 main_v50 (broadcastInDim S300000 ![] bcast_S_S300000 : (⟨S_, .i32⟩ : BufTy).Contents (Elt F) → (⟨S300000, .i32⟩ : BufTy).Contents (Elt F)),
    StableHlo.binary main_arg9 main_v50 main_v51 (cmpi .slt : (⟨S300000, .i32⟩ : BufTy).Contents (Elt F) → (⟨S300000, .i32⟩ : BufTy).Contents (Elt F) → (⟨S300000, .i1⟩ : BufTy).Contents (Elt F)),
    StableHlo.nullary main_c_11 (constantI S_ 32 20000#32),
    StableHlo.unary main_c_11 main_v52 (broadcastInDim S300000 ![] bcast_S_S300000 : (⟨S_, .i32⟩ : BufTy).Contents (Elt F) → (⟨S300000, .i32⟩ : BufTy).Contents (Elt F)),
    StableHlo.binary main_arg9 main_v52 main_v53 (addi : (⟨S300000, .i32⟩ : BufTy).Contents (Elt F) → (⟨S300000, .i32⟩ : BufTy).Contents (Elt F) → (⟨S300000, .i32⟩ : BufTy).Contents (Elt F)),
    StableHlo.ternary main_v51 main_v53 main_arg9 main_v54 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v54 main_v55 (broadcastInDim S300000x1 ![0] bcast_S300000_S300000x1_0 : (⟨S300000, .i32⟩ : BufTy).Contents (Elt F) → (⟨S300000x1, .i32⟩ : BufTy).Contents (Elt F)),
    StableHlo.binary main_arg2 main_v55 main_v56 ((fun x i => Host.gather gather_S20000x256_S300000x1_S300000x256_1_0_n_n_0_1_1256 x i) : (⟨S20000x256, .f32⟩ : BufTy).Contents (Elt F) → (⟨S300000x1, .i32⟩ : BufTy).Contents (Elt F) → (⟨S300000x256, .f32⟩ : BufTy).Contents (Elt F)),
    StableHlo.nullary main_cst_12 (constant S_ .f32 0x00000000#32),
    StableHlo.unary main_cst_12 main_v57 (broadcastInDim S50000x256 ![] bcast_S_S50000x256 : (⟨S_, .f32⟩ : BufTy).Contents (Elt F) → (⟨S50000x256, .f32⟩ : BufTy).Contents (Elt F)),
    StableHlo.unary main_arg10 main_v58 (broadcastInDim S300000x1 ![0] bcast_S300000_S300000x1_0 : (⟨S300000, .i32⟩ : BufTy).Contents (Elt F) → (⟨S300000x1, .i32⟩ : BufTy).Contents (Elt F)),
    StableHlo.ternary main_v57 main_v58 main_v56 main_v59 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.nullary main_cst_13 (constant S_ .f32 0x3F800000#32),
    StableHlo.unary main_cst_13 main_v60 (broadcastInDim S300000 ![] bcast_S_S300000 : (⟨S_, .f32⟩ : BufTy).Contents (Elt F) → (⟨S300000, .f32⟩ : BufTy).Contents (Elt F)),
    StableHlo.nullary main_cst_14 (constant S_ .f32 0x00000000#32),
    StableHlo.unary main_cst_14 main_v61 (broadcastInDim S50000 ![] bcast_S_S50000 : (⟨S_, .f32⟩ : BufTy).Contents (Elt F) → (⟨S50000, .f32⟩ : BufTy).Contents (Elt F)),
    StableHlo.unary main_arg10 main_v62 (broadcastInDim S300000x1 ![0] bcast_S300000_S300000x1_0 : (⟨S300000, .i32⟩ : BufTy).Contents (Elt F) → (⟨S300000x1, .i32⟩ : BufTy).Contents (Elt F)),
    StableHlo.ternary main_v61 main_v62 main_v60 main_v63 ((fun x i u => Host.scatterAdd scatter_S50000_S300000x1_S300000_n_0_0_1 x i u) : (⟨S50000, .f32⟩ : BufTy).Contents (Elt F) → (⟨S300000x1, .i32⟩ : BufTy).Contents (Elt F) → (⟨S300000, .f32⟩ : BufTy).Contents (Elt F) → (⟨S50000, .f32⟩ : BufTy).Contents (Elt F)),
    StableHlo.nullary main_cst_15 (constant S_ .f32 0x3F800000#32),
    StableHlo.unary main_cst_15 main_v64 (broadcastInDim S50000 ![] bcast_S_S50000 : (⟨S_, .f32⟩ : BufTy).Contents (Elt F) → (⟨S50000, .f32⟩ : BufTy).Contents (Elt F)),
    StableHlo.binary main_v63 main_v64 main_v65 (maximumf : (⟨S50000, .f32⟩ : BufTy).Contents (Elt F) → (⟨S50000, .f32⟩ : BufTy).Contents (Elt F) → (⟨S50000, .f32⟩ : BufTy).Contents (Elt F)),
    StableHlo.unary main_v65 main_v66 (broadcastInDim S50000x1 ![0] bcast_S50000_S50000x1_0 : (⟨S50000, .f32⟩ : BufTy).Contents (Elt F) → (⟨S50000x1, .f32⟩ : BufTy).Contents (Elt F)),
    StableHlo.unary main_v66 main_v67 (broadcastInDim S50000x256 ![0, 1] bcast_S50000x1_S50000x256_0_1 : (⟨S50000x1, .f32⟩ : BufTy).Contents (Elt F) → (⟨S50000x256, .f32⟩ : BufTy).Contents (Elt F)),
    StableHlo.binary main_v59 main_v67 main_v68 (Host.divf : (⟨S50000x256, .f32⟩ : BufTy).Contents (Elt F) → (⟨S50000x256, .f32⟩ : BufTy).Contents (Elt F) → (⟨S50000x256, .f32⟩ : BufTy).Contents (Elt F)),
    StableHlo.binary main_v68 main_arg20 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg21 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    StableHlo.binary main_arg0 main_arg22 main_v73 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v72 main_v73 main_v74 (addf : (⟨S50000x256, .f32⟩ : BufTy).Contents (Elt F) → (⟨S50000x256, .f32⟩ : BufTy).Contents (Elt F) → (⟨S50000x256, .f32⟩ : BufTy).Contents (Elt F)),
    StableHlo.binary main_v49 main_v74 main_v75 (addf : (⟨S50000x256, .f32⟩ : BufTy).Contents (Elt F) → (⟨S50000x256, .f32⟩ : BufTy).Contents (Elt F) → (⟨S50000x256, .f32⟩ : BufTy).Contents (Elt F)),
    StableHlo.nullary main_c_16 (constantI S_ 32 0#32),
    StableHlo.unary main_c_16 main_v76 (broadcastInDim S300000 ![] bcast_S_S300000 : (⟨S_, .i32⟩ : BufTy).Contents (Elt F) → (⟨S300000, .i32⟩ : BufTy).Contents (Elt F)),
    StableHlo.binary main_arg7 main_v76 main_v77 (cmpi .slt : (⟨S300000, .i32⟩ : BufTy).Contents (Elt F) → (⟨S300000, .i32⟩ : BufTy).Contents (Elt F) → (⟨S300000, .i1⟩ : BufTy).Contents (Elt F)),
    StableHlo.nullary main_c_17 (constantI S_ 32 50000#32),
    StableHlo.unary main_c_17 main_v78 (broadcastInDim S300000 ![] bcast_S_S300000 : (⟨S_, .i32⟩ : BufTy).Contents (Elt F) → (⟨S300000, .i32⟩ : BufTy).Contents (Elt F)),
    StableHlo.binary main_arg7 main_v78 main_v79 (addi : (⟨S300000, .i32⟩ : BufTy).Contents (Elt F) → (⟨S300000, .i32⟩ : BufTy).Contents (Elt F) → (⟨S300000, .i32⟩ : BufTy).Contents (Elt F)),
    StableHlo.ternary main_v77 main_v79 main_arg7 main_v80 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v80 main_v81 (broadcastInDim S300000x1 ![0] bcast_S300000_S300000x1_0 : (⟨S300000, .i32⟩ : BufTy).Contents (Elt F) → (⟨S300000x1, .i32⟩ : BufTy).Contents (Elt F)),
    StableHlo.binary main_arg0 main_v81 main_v82 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_18 (constant S_ .f32 0x00000000#32),
    StableHlo.unary main_cst_18 main_v83 (broadcastInDim S20000x256 ![] bcast_S_S20000x256 : (⟨S_, .f32⟩ : BufTy).Contents (Elt F) → (⟨S20000x256, .f32⟩ : BufTy).Contents (Elt F)),
    StableHlo.unary main_arg8 main_v84 (broadcastInDim S300000x1 ![0] bcast_S300000_S300000x1_0 : (⟨S300000, .i32⟩ : BufTy).Contents (Elt F) → (⟨S300000x1, .i32⟩ : BufTy).Contents (Elt F)),
    StableHlo.ternary main_v83 main_v84 main_v82 main_v85 ((fun x i u => Host.scatterAdd scatter_S20000x256_S300000x1_S300000x256_1_0_0_1 x i u) : (⟨S20000x256, .f32⟩ : BufTy).Contents (Elt F) → (⟨S300000x1, .i32⟩ : BufTy).Contents (Elt F) → (⟨S300000x256, .f32⟩ : BufTy).Contents (Elt F) → (⟨S20000x256, .f32⟩ : BufTy).Contents (Elt F)),
    StableHlo.nullary main_cst_19 (constant S_ .f32 0x3F800000#32),
    StableHlo.unary main_cst_19 main_v86 (broadcastInDim S300000 ![] bcast_S_S300000 : (⟨S_, .f32⟩ : BufTy).Contents (Elt F) → (⟨S300000, .f32⟩ : BufTy).Contents (Elt F)),
    StableHlo.nullary main_cst_20 (constant S_ .f32 0x00000000#32),
    StableHlo.unary main_cst_20 main_v87 (broadcastInDim S20000 ![] bcast_S_S20000 : (⟨S_, .f32⟩ : BufTy).Contents (Elt F) → (⟨S20000, .f32⟩ : BufTy).Contents (Elt F)),
    StableHlo.unary main_arg8 main_v88 (broadcastInDim S300000x1 ![0] bcast_S300000_S300000x1_0 : (⟨S300000, .i32⟩ : BufTy).Contents (Elt F) → (⟨S300000x1, .i32⟩ : BufTy).Contents (Elt F)),
    StableHlo.ternary main_v87 main_v88 main_v86 main_v89 ((fun x i u => Host.scatterAdd scatter_S20000_S300000x1_S300000_n_0_0_1 x i u) : (⟨S20000, .f32⟩ : BufTy).Contents (Elt F) → (⟨S300000x1, .i32⟩ : BufTy).Contents (Elt F) → (⟨S300000, .f32⟩ : BufTy).Contents (Elt F) → (⟨S20000, .f32⟩ : BufTy).Contents (Elt F)),
    StableHlo.nullary main_cst_21 (constant S_ .f32 0x3F800000#32),
    StableHlo.unary main_cst_21 main_v90 (broadcastInDim S20000 ![] bcast_S_S20000 : (⟨S_, .f32⟩ : BufTy).Contents (Elt F) → (⟨S20000, .f32⟩ : BufTy).Contents (Elt F)),
    StableHlo.binary main_v89 main_v90 main_v91 (maximumf : (⟨S20000, .f32⟩ : BufTy).Contents (Elt F) → (⟨S20000, .f32⟩ : BufTy).Contents (Elt F) → (⟨S20000, .f32⟩ : BufTy).Contents (Elt F)),
    StableHlo.unary main_v91 main_v92 (broadcastInDim S20000x1 ![0] bcast_S20000_S20000x1_0 : (⟨S20000, .f32⟩ : BufTy).Contents (Elt F) → (⟨S20000x1, .f32⟩ : BufTy).Contents (Elt F)),
    StableHlo.unary main_v92 main_v93 (broadcastInDim S20000x256 ![0, 1] bcast_S20000x1_S20000x256_0_1 : (⟨S20000x1, .f32⟩ : BufTy).Contents (Elt F) → (⟨S20000x256, .f32⟩ : BufTy).Contents (Elt F)),
    StableHlo.binary main_v85 main_v93 main_v94 (Host.divf : (⟨S20000x256, .f32⟩ : BufTy).Contents (Elt F) → (⟨S20000x256, .f32⟩ : BufTy).Contents (Elt F) → (⟨S20000x256, .f32⟩ : BufTy).Contents (Elt F)),
    StableHlo.binary main_v94 main_arg17 main_v95 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

set_option maxRecDepth 8192 in
set_option maxHeartbeats 4000000 in
/-- The last window: the rectifiers, the two heads and their leaky rectifiers, the called functions' operations in
    their calls' places. -/
abbrev ops2 : List (HloOp τ sig (Elt F)) :=
  [ StableHlo.unary main_arg18 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S20000x256 ![0, 1] bcast_S1x256_S20000x256_0_1 : (⟨S1x256, .f32⟩ : BufTy).Contents (Elt F) → (⟨S20000x256, .f32⟩ : BufTy).Contents (Elt F)),
    StableHlo.binary main_v95 main_v97 main_v98 (addf : (⟨S20000x256, .f32⟩ : BufTy).Contents (Elt F) → (⟨S20000x256, .f32⟩ : BufTy).Contents (Elt F) → (⟨S20000x256, .f32⟩ : BufTy).Contents (Elt F)),
    StableHlo.binary main_arg2 main_arg19 main_v99 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.binary main_v98 main_v99 main_v100 (addf : (⟨S20000x256, .f32⟩ : BufTy).Contents (Elt F) → (⟨S20000x256, .f32⟩ : BufTy).Contents (Elt F) → (⟨S20000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (.of main_v24) main_call0.v0 main_call0.v1 maximumf,
    StableHlo.TRef.nullary main_call1.cst (constant S_ .f32 0x00000000#32),
    StableHlo.TRef.unary main_call1.cst main_call1.v0 (broadcastInDim S50000x256 ![] bcast_S_S50000x256),
    StableHlo.TRef.binary (.of main_v75) main_call1.v0 main_call1.v1 maximumf,
    StableHlo.TRef.nullary main_call2.cst (constant S_ .f32 0x00000000#32),
    StableHlo.TRef.unary main_call2.cst main_call2.v0 (broadcastInDim S20000x256 ![] bcast_S_S20000x256),
    StableHlo.TRef.binary (.of main_v100) main_call2.v0 main_call2.v1 maximumf,
    StableHlo.binary main_v101 main_arg23 main_v104 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    StableHlo.unary main_arg24 main_v105 (broadcastInDim S1x1 ![1] bcast_S1_S1x1_1 : (⟨S1, .f32⟩ : BufTy).Contents (Elt F) → (⟨S1x1, .f32⟩ : BufTy).Contents (Elt F)),
    StableHlo.unary main_v105 main_v106 (broadcastInDim S100000x1 ![0, 1] bcast_S1x1_S100000x1_0_1 : (⟨S1x1, .f32⟩ : BufTy).Contents (Elt F) → (⟨S100000x1, .f32⟩ : BufTy).Contents (Elt F)),
    StableHlo.binary main_v104 main_v106 main_v107 (addf : (⟨S100000x1, .f32⟩ : BufTy).Contents (Elt F) → (⟨S100000x1, .f32⟩ : BufTy).Contents (Elt F) → (⟨S100000x1, .f32⟩ : BufTy).Contents (Elt F)),
    StableHlo.nullary main_cst_22 (constant S_ .f32 0x3A83126F#32),
    StableHlo.TRef.nullary main_call3.cst (constant S_ .f32 0x00000000#32),
    StableHlo.TRef.unary main_call3.cst main_call3.v0 (broadcastInDim S100000x1 ![] bcast_S_S100000x1),
    StableHlo.TRef.binary (.of main_v107) main_call3.v0 main_call3.v1 (cmpf .oge),
    StableHlo.TRef.unary (.of main_cst_22) main_call3.v2 id,
    StableHlo.TRef.unary main_call3.v2 main_call3.v3 (broadcastInDim S100000x1 ![] bcast_S_S100000x1),
    StableHlo.TRef.binary main_call3.v3 (.of main_v107) main_call3.v4 mulf,
    StableHlo.TRef.ternary main_call3.v1 (.of main_v107) main_call3.v4 main_call3.call0.v0 select,
    StableHlo.binary main_v102 main_arg25 main_v109 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg26 main_v110 (broadcastInDim S1x1 ![1] bcast_S1_S1x1_1 : (⟨S1, .f32⟩ : BufTy).Contents (Elt F) → (⟨S1x1, .f32⟩ : BufTy).Contents (Elt F)),
    StableHlo.unary main_v110 main_v111 (broadcastInDim S50000x1 ![0, 1] bcast_S1x1_S50000x1_0_1 : (⟨S1x1, .f32⟩ : BufTy).Contents (Elt F) → (⟨S50000x1, .f32⟩ : BufTy).Contents (Elt F)),
    StableHlo.binary main_v109 main_v111 main_v112 (addf : (⟨S50000x1, .f32⟩ : BufTy).Contents (Elt F) → (⟨S50000x1, .f32⟩ : BufTy).Contents (Elt F) → (⟨S50000x1, .f32⟩ : BufTy).Contents (Elt F)),
    StableHlo.nullary main_cst_23 (constant S_ .f32 0x3A83126F#32),
    StableHlo.TRef.nullary main_call4.cst (constant S_ .f32 0x00000000#32),
    StableHlo.TRef.unary main_call4.cst main_call4.v0 (broadcastInDim S50000x1 ![] bcast_S_S50000x1),
    StableHlo.TRef.binary (.of main_v112) main_call4.v0 main_call4.v1 (cmpf .oge),
    StableHlo.TRef.unary (.of main_cst_23) main_call4.v2 id,
    StableHlo.TRef.unary main_call4.v2 main_call4.v3 (broadcastInDim S50000x1 ![] bcast_S_S50000x1),
    StableHlo.TRef.binary main_call4.v3 (.of main_v112) main_call4.v4 mulf,
    StableHlo.TRef.ternary main_call4.v1 (.of main_v112) main_call4.v4 main_call4.call0.v0 select ]

/-- @main's operations, in order. -/
abbrev ops : List (HloOp τ sig (Elt F)) := ops0 ++ (ops1 ++ ops2)

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl

set_option maxRecDepth 8192 in
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩
set_option maxRecDepth 8192 in
theorem ops1_sub : (ops1 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩
set_option maxRecDepth 8192 in
theorem ops2_sub : (ops2 : List (HloOp τ sig (Elt F))).Forall fun op => op.bufs ⊆ tcRefs τ sig :=
  ⟨unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-- No operation allocates a buffer. -/
theorem ops_fresh : ∀ op ∈ (ops : List (HloOp τ sig (Elt F))), op.fresh = ∅ := by
  intro op h
  simp only [ops, List.mem_append] at h
  rcases h with h | h | h
  all_goals ((repeat (cases h with | head => rfl | tail _ h => ?_)); exact nomatch h)

/-- Every weakly fair execution of @main terminates, and every final state has each buffer at the fold of the
    operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.HostRun

end
-- ==== Proof.RefRead.lean ====
/-
  The reference's run read back: each of its three results, and the few intermediate arrays that cross from one
  window of @main to the next, as the named array-level functions of the launch contents; every argument array is
  written by no operation and keeps its contents.
-/
import proofs.«148278_j50689204027573_2_alg».proof.Proof.RefOps
import proofs.«148278_j50689204027573_2_alg».proof.Proof.RefTerms

noncomputable section

namespace Cert.ReferenceIdeal.HostRun

open Cert.ReferenceIdeal Cert.ReferenceIdeal.Gen Cert.ReferenceIdeal.Terms
open Idealize.ShloMosaic Idealize.ShloMosaic.TcCoe Idealize.SL.Sem Idealize.ShloMosaic.StableHlo

variable {F : FTy → Type} [FloatOps F]

/-! ## What each window writes -/

/-- The buffers the first window's operations write. -/
abbrev W0 : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19, main_v20, main_v21, main_v22, main_v23, main_v24, main_c_4, main_v25, main_v26, main_c_5, main_v27, main_v28, main_v29, main_v30, main_v31, main_cst_6, main_v32, main_v33, main_v34, main_cst_7, main_v35, main_cst_8, main_v36, main_v37, main_v38, main_cst_9, main_v39, main_v40, main_v41, main_v42, main_v43, main_v44, main_v45, main_v46, main_v47]
/-- The buffers the second window's operations write. -/
abbrev W1 : List (Ref sig .tc) := [main_v48, main_v49, main_c_10, main_v50, main_v51, main_c_11, main_v52, main_v53, main_v54, main_v55, main_v56, main_cst_12, main_v57, main_v58, main_v59, main_cst_13, main_v60, main_cst_14, main_v61, main_v62, main_v63, main_cst_15, main_v64, main_v65, main_v66, main_v67, main_v68, main_v69, main_v70, main_v71, main_v72, main_v73, main_v74, main_v75, main_c_16, main_v76, main_v77, main_c_17, main_v78, main_v79, main_v80, main_v81, main_v82, main_cst_18, main_v83, main_v84, main_v85, main_cst_19, main_v86, main_cst_20, main_v87, main_v88, main_v89, main_cst_21, main_v90, main_v91, main_v92, main_v93, main_v94, main_v95]
/-- The buffers the last window's operations write. -/
abbrev W2 : List (Ref sig .tc) := [main_v96, main_v97, main_v98, main_v99, main_v100, main_call0_cst, main_call0_v0, main_v101, main_call1_cst, main_call1_v0, main_v102, main_call2_cst, main_call2_v0, main_v103, main_v104, main_v105, main_v106, main_v107, main_cst_22, main_call3_cst, main_call3_v0, main_call3_v1, main_call3_v2, main_call3_v3, main_call3_v4, main_v108, main_v109, main_v110, main_v111, main_v112, main_cst_23, main_call4_cst, main_call4_v0, main_call4_v1, main_call4_v2, main_call4_v3, main_call4_v4, main_v113]

theorem sub_of_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

set_option maxRecDepth 8192 in
theorem writes0 : (ops0 : List (HloOp τ sig (Elt F))).Forall fun op => op.writes ⊆ (W0.map (Proc.devRef (τ := τ) .tc)).toFinset :=
  ⟨sub_of_mem main_c (by decide), sub_of_mem main_v0 (by decide), sub_of_mem main_v1 (by decide), sub_of_mem main_c_0 (by decide), sub_of_mem main_v2 (by decide), sub_of_mem main_v3 (by decide), sub_of_mem main_v4 (by decide), sub_of_mem main_v5 (by decide), sub_of_mem main_v6 (by decide), sub_of_mem main_cst (by decide), sub_of_mem main_v7 (by decide), sub_of_mem main_v8 (by decide), sub_of_mem main_v9 (by decide), sub_of_mem main_cst_1 (by decide), sub_of_mem main_v10 (by decide), sub_of_mem main_cst_2 (by decide), sub_of_mem main_v11 (by decide), sub_of_mem main_v12 (by decide), sub_of_mem main_v13 (by decide), sub_of_mem main_cst_3 (by decide), sub_of_mem main_v14 (by decide), sub_of_mem main_v15 (by decide), sub_of_mem main_v16 (by decide), sub_of_mem main_v17 (by decide), sub_of_mem main_v18 (by decide), sub_of_mem main_v19 (by decide), sub_of_mem main_v20 (by decide), sub_of_mem main_v21 (by decide), sub_of_mem main_v22 (by decide), sub_of_mem main_v23 (by decide), sub_of_mem main_v24 (by decide), sub_of_mem main_c_4 (by decide), sub_of_mem main_v25 (by decide), sub_of_mem main_v26 (by decide), sub_of_mem main_c_5 (by decide), sub_of_mem main_v27 (by decide), sub_of_mem main_v28 (by decide), sub_of_mem main_v29 (by decide), sub_of_mem main_v30 (by decide), sub_of_mem main_v31 (by decide), sub_of_mem main_cst_6 (by decide), sub_of_mem main_v32 (by decide), sub_of_mem main_v33 (by decide), sub_of_mem main_v34 (by decide), sub_of_mem main_cst_7 (by decide), sub_of_mem main_v35 (by decide), sub_of_mem main_cst_8 (by decide), sub_of_mem main_v36 (by decide), sub_of_mem main_v37 (by decide), sub_of_mem main_v38 (by decide), sub_of_mem main_cst_9 (by decide), sub_of_mem main_v39 (by decide), sub_of_mem main_v40 (by decide), sub_of_mem main_v41 (by decide), sub_of_mem main_v42 (by decide), sub_of_mem main_v43 (by decide), sub_of_mem main_v44 (by decide), sub_of_mem main_v45 (by decide), sub_of_mem main_v46 (by decide), sub_of_mem main_v47 (by decide)⟩
set_option maxRecDepth 8192 in
theorem writes1 : (ops1 : List (HloOp τ sig (Elt F))).Forall fun op => op.writes ⊆ (W1.map (Proc.devRef (τ := τ) .tc)).toFinset :=
  ⟨sub_of_mem main_v48 (by decide), sub_of_mem main_v49 (by decide), sub_of_mem main_c_10 (by decide), sub_of_mem main_v50 (by decide), sub_of_mem main_v51 (by decide), sub_of_mem main_c_11 (by decide), sub_of_mem main_v52 (by decide), sub_of_mem main_v53 (by decide), sub_of_mem main_v54 (by decide), sub_of_mem main_v55 (by decide), sub_of_mem main_v56 (by decide), sub_of_mem main_cst_12 (by decide), sub_of_mem main_v57 (by decide), sub_of_mem main_v58 (by decide), sub_of_mem main_v59 (by decide), sub_of_mem main_cst_13 (by decide), sub_of_mem main_v60 (by decide), sub_of_mem main_cst_14 (by decide), sub_of_mem main_v61 (by decide), sub_of_mem main_v62 (by decide), sub_of_mem main_v63 (by decide), sub_of_mem main_cst_15 (by decide), sub_of_mem main_v64 (by decide), sub_of_mem main_v65 (by decide), sub_of_mem main_v66 (by decide), sub_of_mem main_v67 (by decide), sub_of_mem main_v68 (by decide), sub_of_mem main_v69 (by decide), sub_of_mem main_v70 (by decide), sub_of_mem main_v71 (by decide), sub_of_mem main_v72 (by decide), sub_of_mem main_v73 (by decide), sub_of_mem main_v74 (by decide), sub_of_mem main_v75 (by decide), sub_of_mem main_c_16 (by decide), sub_of_mem main_v76 (by decide), sub_of_mem main_v77 (by decide), sub_of_mem main_c_17 (by decide), sub_of_mem main_v78 (by decide), sub_of_mem main_v79 (by decide), sub_of_mem main_v80 (by decide), sub_of_mem main_v81 (by decide), sub_of_mem main_v82 (by decide), sub_of_mem main_cst_18 (by decide), sub_of_mem main_v83 (by decide), sub_of_mem main_v84 (by decide), sub_of_mem main_v85 (by decide), sub_of_mem main_cst_19 (by decide), sub_of_mem main_v86 (by decide), sub_of_mem main_cst_20 (by decide), sub_of_mem main_v87 (by decide), sub_of_mem main_v88 (by decide), sub_of_mem main_v89 (by decide), sub_of_mem main_cst_21 (by decide), sub_of_mem main_v90 (by decide), sub_of_mem main_v91 (by decide), sub_of_mem main_v92 (by decide), sub_of_mem main_v93 (by decide), sub_of_mem main_v94 (by decide), sub_of_mem main_v95 (by decide)⟩
set_option maxRecDepth 8192 in
theorem writes2 : (ops2 : List (HloOp τ sig (Elt F))).Forall fun op => op.writes ⊆ (W2.map (Proc.devRef (τ := τ) .tc)).toFinset :=
  ⟨sub_of_mem main_v96 (by decide), sub_of_mem main_v97 (by decide), sub_of_mem main_v98 (by decide), sub_of_mem main_v99 (by decide), sub_of_mem main_v100 (by decide), sub_of_mem main_call0_cst (by decide), sub_of_mem main_call0_v0 (by decide), sub_of_mem main_v101 (by decide), sub_of_mem main_call1_cst (by decide), sub_of_mem main_call1_v0 (by decide), sub_of_mem main_v102 (by decide), sub_of_mem main_call2_cst (by decide), sub_of_mem main_call2_v0 (by decide), sub_of_mem main_v103 (by decide), sub_of_mem main_v104 (by decide), sub_of_mem main_v105 (by decide), sub_of_mem main_v106 (by decide), sub_of_mem main_v107 (by decide), sub_of_mem main_cst_22 (by decide), sub_of_mem main_call3_cst (by decide), sub_of_mem main_call3_v0 (by decide), sub_of_mem main_call3_v1 (by decide), sub_of_mem main_call3_v2 (by decide), sub_of_mem main_call3_v3 (by decide), sub_of_mem main_call3_v4 (by decide), sub_of_mem main_v108 (by decide), sub_of_mem main_v109 (by decide), sub_of_mem main_v110 (by decide), sub_of_mem main_v111 (by decide), sub_of_mem main_v112 (by decide), sub_of_mem main_cst_23 (by decide), sub_of_mem main_call4_cst (by decide), sub_of_mem main_call4_v0 (by decide), sub_of_mem main_call4_v1 (by decide), sub_of_mem main_call4_v2 (by decide), sub_of_mem main_call4_v3 (by decide), sub_of_mem main_call4_v4 (by decide), sub_of_mem main_v113 (by decide)⟩

/-- A buffer a window does not write keeps its contents through it. -/
theorem keep0 (V : Valuation τ sig (Elt F)) (r : Ref sig .tc) (h : r ∉ W0) :
    after ops0 V (Proc.devRef .tc r) = V (Proc.devRef .tc r) := after_of_writes_sub ops0 V writes0 h
theorem keep1 (V : Valuation τ sig (Elt F)) (r : Ref sig .tc) (h : r ∉ W1) :
    after ops1 V (Proc.devRef .tc r) = V (Proc.devRef .tc r) := after_of_writes_sub ops1 V writes1 h
theorem keep2 (V : Valuation τ sig (Elt F)) (r : Ref sig .tc) (h : r ∉ W2) :
    after ops2 V (Proc.devRef .tc r) = V (Proc.devRef .tc r) := after_of_writes_sub ops2 V writes2 h

/-- The whole line is the three windows one after the other. -/
theorem after_ops (V : Valuation τ sig (Elt F)) : after ops V = after ops2 (after ops1 (after ops0 V)) := by
  simp only [ops, StableHlo.after_append]

/-- A buffer no window writes keeps its launch contents to the end. -/
theorem keep (V : Valuation τ sig (Elt F)) (r : Ref sig .tc) (h0 : r ∉ W0) (h1 : r ∉ W1) (h2 : r ∉ W2) :
    after ops V (Proc.devRef .tc r) = V (Proc.devRef .tc r) := by
  rw [after_ops, keep2 _ r h2, keep1 _ r h1, keep0 _ r h0]

theorem keep01 (V : Valuation τ sig (Elt F)) (r : Ref sig .tc) (h0 : r ∉ W0) (h1 : r ∉ W1) :
    after ops1 (after ops0 V) (Proc.devRef .tc r) = V (Proc.devRef .tc r) := by
  rw [keep1 _ r h1, keep0 _ r h0]

/-! ## The first window -/

set_option maxRecDepth 8192 in
set_option maxHeartbeats 40000000 in
/-- The 100000-row layer, whole. -/
theorem win0_v24 (V : Valuation τ sig (Elt F)) :
    after ops0 V (Proc.devRef .tc main_v24)
      = sage100 (agg100 (V (Proc.devRef .tc main_arg0)) (V (Proc.devRef .tc main_arg3)) (V (Proc.devRef .tc main_arg4))) (V (Proc.devRef .tc main_arg1)) (cnt100 (V (Proc.devRef .tc main_arg4))) (V (Proc.devRef .tc main_arg11)) (V (Proc.devRef .tc main_arg12)) (V (Proc.devRef .tc main_arg13)) := by
  after_results_simp <;> rfl

set_option maxRecDepth 8192 in
set_option maxHeartbeats 40000000 in
/-- The left half of the 50000-row layer over the edges from the 100000-row type. -/
theorem win0_v47 (V : Valuation τ sig (Elt F)) :
    after ops0 V (Proc.devRef .tc main_v47) = left50 (agg50a (V (Proc.devRef .tc main_arg1)) (V (Proc.devRef .tc main_arg5)) (V (Proc.devRef .tc main_arg6))) (cnt50 (V (Proc.devRef .tc main_arg6))) (V (Proc.devRef .tc main_arg14)) (V (Proc.devRef .tc main_arg15)) := by
  after_results_simp <;> rfl

/-! ## The second window -/

set_option maxRecDepth 8192 in
set_option maxHeartbeats 40000000 in
/-- The two 50000-row layers summed: the first completed from its left half, the second whole. -/
theorem win1_v75 (V : Valuation τ sig (Elt F)) :
    after ops1 V (Proc.devRef .tc main_v75)
      = addf (addf (V (Proc.devRef .tc main_v47)) (Host.dotGeneral dot_S50000x256_S256x256_S50000x256_1_0_0_1_n_n none (V (Proc.devRef .tc main_arg0)) (V (Proc.devRef .tc main_arg16))))
          (sage50 (agg50b (V (Proc.devRef .tc main_arg2)) (V (Proc.devRef .tc main_arg9)) (V (Proc.devRef .tc main_arg10))) (V (Proc.devRef .tc main_arg0)) (cnt50 (V (Proc.devRef .tc main_arg10))) (V (Proc.devRef .tc main_arg20)) (V (Proc.devRef .tc main_arg21)) (V (Proc.devRef .tc main_arg22))) := by
  after_results_simp <;> rfl

set_option maxRecDepth 8192 in
set_option maxHeartbeats 40000000 in
/-- The 20000-row layer's means against the left weights. -/
theorem win1_v95 (V : Valuation τ sig (Elt F)) :
    after ops1 V (Proc.devRef .tc main_v95) = mean20 (agg20 (V (Proc.devRef .tc main_arg0)) (V (Proc.devRef .tc main_arg7)) (V (Proc.devRef .tc main_arg8))) (cnt20 (V (Proc.devRef .tc main_arg8))) (V (Proc.devRef .tc main_arg17)) := by
  after_results_simp <;> rfl

/-! ## The last window -/

set_option maxRecDepth 8192 in
set_option maxHeartbeats 40000000 in
theorem win2_v108 (V : Valuation τ sig (Elt F)) :
    after ops2 V (Proc.devRef .tc main_v108) = lrelu100 (headY100 (V (Proc.devRef .tc main_v24)) (V (Proc.devRef .tc main_arg23)) (V (Proc.devRef .tc main_arg24))) := by
  after_results_simp <;> rfl

set_option maxRecDepth 8192 in
set_option maxHeartbeats 40000000 in
theorem win2_v113 (V : Valuation τ sig (Elt F)) :
    after ops2 V (Proc.devRef .tc main_v113) = lrelu50 (headY50 (V (Proc.devRef .tc main_v75)) (V (Proc.devRef .tc main_arg25)) (V (Proc.devRef .tc main_arg26))) := by
  after_results_simp <;> rfl

set_option maxRecDepth 8192 in
set_option maxHeartbeats 40000000 in
theorem win2_v103 (V : Valuation τ sig (Elt F)) :
    after ops2 V (Proc.devRef .tc main_v103)
      = relu20 (addf (addf (V (Proc.devRef .tc main_v95))
            (broadcastInDim S20000x256 ![0, 1] bcast_S1x256_S20000x256_0_1 (broadcastInDim S1x256 ![1] bcast_S256_S1x256_1 (V (Proc.devRef .tc main_arg18)))))
          (Host.dotGeneral dot_S20000x256_S256x256_S20000x256_1_0_0_1_n_n none (V (Proc.devRef .tc main_arg2)) (V (Proc.devRef .tc main_arg19)))) := by
  after_results_simp <;> rfl

/-! ## The three results, from the launch contents -/

/-- The 100000-row head. -/
theorem res_v108 (V : Valuation τ sig (Elt F)) :
    after ops V (Proc.devRef .tc main_v108)
      = lrelu100 (headY100 (sage100 (agg100 (V (Proc.devRef .tc main_arg0)) (V (Proc.devRef .tc main_arg3)) (V (Proc.devRef .tc main_arg4))) (V (Proc.devRef .tc main_arg1)) (cnt100 (V (Proc.devRef .tc main_arg4))) (V (Proc.devRef .tc main_arg11)) (V (Proc.devRef .tc main_arg12)) (V (Proc.devRef .tc main_arg13)))
          (V (Proc.devRef .tc main_arg23)) (V (Proc.devRef .tc main_arg24))) := by
  rw [after_ops, win2_v108, keep1 _ main_v24 (by decide), win0_v24,
    keep01 V main_arg23 (by decide) (by decide), keep01 V main_arg24 (by decide) (by decide)]

/-- The 50000-row head. -/
theorem res_v113 (V : Valuation τ sig (Elt F)) :
    after ops V (Proc.devRef .tc main_v113)
      = lrelu50 (headY50 (addf (sage50 (agg50a (V (Proc.devRef .tc main_arg1)) (V (Proc.devRef .tc main_arg5)) (V (Proc.devRef .tc main_arg6))) (V (Proc.devRef .tc main_arg0)) (cnt50 (V (Proc.devRef .tc main_arg6))) (V (Proc.devRef .tc main_arg14)) (V (Proc.devRef .tc main_arg15)) (V (Proc.devRef .tc main_arg16)))
            (sage50 (agg50b (V (Proc.devRef .tc main_arg2)) (V (Proc.devRef .tc main_arg9)) (V (Proc.devRef .tc main_arg10))) (V (Proc.devRef .tc main_arg0)) (cnt50 (V (Proc.devRef .tc main_arg10))) (V (Proc.devRef .tc main_arg20)) (V (Proc.devRef .tc main_arg21)) (V (Proc.devRef .tc main_arg22))))
          (V (Proc.devRef .tc main_arg25)) (V (Proc.devRef .tc main_arg26))) := by
  rw [after_ops, win2_v113, win1_v75, win0_v47,
    keep0 V main_arg0 (by decide), keep0 V main_arg2 (by decide), keep0 V main_arg9 (by decide), keep0 V main_arg10 (by decide),
    keep0 V main_arg16 (by decide), keep0 V main_arg20 (by decide), keep0 V main_arg21 (by decide), keep0 V main_arg22 (by decide),
    keep01 V main_arg25 (by decide) (by decide), keep01 V main_arg26 (by decide) (by decide)]
  rfl

/-- The rectified 20000-row layer. -/
theorem res_v103 (V : Valuation τ sig (Elt F)) :
    after ops V (Proc.devRef .tc main_v103)
      = relu20 (sage20 (agg20 (V (Proc.devRef .tc main_arg0)) (V (Proc.devRef .tc main_arg7)) (V (Proc.devRef .tc main_arg8))) (V (Proc.devRef .tc main_arg2)) (cnt20 (V (Proc.devRef .tc main_arg8))) (V (Proc.devRef .tc main_arg17)) (V (Proc.devRef .tc main_arg18)) (V (Proc.devRef .tc main_arg19))) := by
  rw [after_ops, win2_v103, win1_v95,
    keep0 V main_arg0 (by decide), keep0 V main_arg7 (by decide), keep0 V main_arg8 (by decide), keep0 V main_arg17 (by decide),
    keep01 V main_arg18 (by decide) (by decide), keep01 V main_arg2 (by decide) (by decide), keep01 V main_arg19 (by decide) (by decide)]
  rfl

end Cert.ReferenceIdeal.HostRun

end
-- ==== Proof.RefFinal.lean ====
/-
  The reference's run at the ideal instance: every weakly fair execution ends with the three results at the row-level
  specification of the launch contents of the arguments, and the arguments unchanged.
-/
import proofs.«148278_j50689204027573_2_alg».proof.Proof.RefRead
import proofs.«148278_j50689204027573_2_alg».proof.Proof.RefSpec

noncomputable section

namespace Cert.ReferenceIdeal.HostRun

open Cert.ReferenceIdeal Cert.ReferenceIdeal.Gen Cert.ReferenceIdeal.Terms Cert.ReferenceIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg)

theorem r_v108 (c : Dev nD) :
    after ops (launchContents m c) (Proc.devRef .tc main_v108)
      = out100 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg23)) (m ((c.tc : Thread nD τ).loc main_arg24)) :=
  (res_v108 (launchContents m c)).trans (ref100 _ _ _ _ _ _ _ _ _)

theorem r_v113 (c : Dev nD) :
    after ops (launchContents m c) (Proc.devRef .tc main_v113)
      = out50 (m ((c.tc : Thread nD τ).loc main_arg1)) (m ((c.tc : Thread nD τ).loc main_arg2)) (m ((c.tc : Thread nD τ).loc main_arg0)) (m ((c.tc : Thread nD τ).loc main_arg5)) (m ((c.tc : Thread nD τ).loc main_arg6)) (m ((c.tc : Thread nD τ).loc main_arg9)) (m ((c.tc : Thread nD τ).loc main_arg10))
          (m ((c.tc : Thread nD τ).loc main_arg14)) (m ((c.tc : Thread nD τ).loc main_arg15)) (m ((c.tc : Thread nD τ).loc main_arg16)) (m ((c.tc : Thread nD τ).loc main_arg20)) (m ((c.tc : Thread nD τ).loc main_arg21)) (m ((c.tc : Thread nD τ).loc main_arg22)) (m ((c.tc : Thread nD τ).loc main_arg25)) (m ((c.tc : Thread nD τ).loc main_arg26)) :=
  (res_v113 (launchContents m c)).trans (ref50 _ _ _ _ _ _ _ _ _ _ _ _ _ _ _)

theorem r_v103 (c : Dev nD) :
    after ops (launchContents m c) (Proc.devRef .tc main_v103)
      = out20 (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg17)) (m ((c.tc : Thread nD τ).loc main_arg18)) (m ((c.tc : Thread nD τ).loc main_arg19)) :=
  (res_v103 (launchContents m c)).trans (ref20 _ _ _ _ _ _ _)

/-- Every weakly fair execution of the reference terminates with its three results at the specification of the
    arguments' launch contents, the arguments unchanged. -/
theorem run : θ_run defs (onTc (τ := τ) (main (F := Ideal))) ⟨m, fun _ => 0, ρ⟩ fun r => ∀ c : Dev nD,
      r.2.mem ((c.tc : Thread nD τ).loc main_v108)
        = out100 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg23)) (m ((c.tc : Thread nD τ).loc main_arg24))
      ∧ r.2.mem ((c.tc : Thread nD τ).loc main_v113)
        = out50 (m ((c.tc : Thread nD τ).loc main_arg1)) (m ((c.tc : Thread nD τ).loc main_arg2)) (m ((c.tc : Thread nD τ).loc main_arg0)) (m ((c.tc : Thread nD τ).loc main_arg5)) (m ((c.tc : Thread nD τ).loc main_arg6)) (m ((c.tc : Thread nD τ).loc main_arg9)) (m ((c.tc : Thread nD τ).loc main_arg10))
          (m ((c.tc : Thread nD τ).loc main_arg14)) (m ((c.tc : Thread nD τ).loc main_arg15)) (m ((c.tc : Thread nD τ).loc main_arg16)) (m ((c.tc : Thread nD τ).loc main_arg20)) (m ((c.tc : Thread nD τ).loc main_arg21)) (m ((c.tc : Thread nD τ).loc main_arg22)) (m ((c.tc : Thread nD τ).loc main_arg25)) (m ((c.tc : Thread nD τ).loc main_arg26))
      ∧ r.2.mem ((c.tc : Thread nD τ).loc main_v103)
        = out20 (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨(h c main_v108).trans (r_v108 m c), (h c main_v113).trans (r_v113 m c),
      (h c main_v103).trans (r_v103 m c),
      (h c main_arg0).trans (keep _ main_arg0 (by decide) (by decide) (by decide)),
      (h c main_arg1).trans (keep _ main_arg1 (by decide) (by decide) (by decide)),
      (h c main_arg2).trans (keep _ main_arg2 (by decide) (by decide) (by decide)),
      (h c main_arg3).trans (keep _ main_arg3 (by decide) (by decide) (by decide)),
      (h c main_arg4).trans (keep _ main_arg4 (by decide) (by decide) (by decide)),
      (h c main_arg5).trans (keep _ main_arg5 (by decide) (by decide) (by decide)),
      (h c main_arg6).trans (keep _ main_arg6 (by decide) (by decide) (by decide)),
      (h c main_arg7).trans (keep _ main_arg7 (by decide) (by decide) (by decide)),
      (h c main_arg8).trans (keep _ main_arg8 (by decide) (by decide) (by decide)),
      (h c main_arg9).trans (keep _ main_arg9 (by decide) (by decide) (by decide)),
      (h c main_arg10).trans (keep _ main_arg10 (by decide) (by decide) (by decide)),
      (h c main_arg11).trans (keep _ main_arg11 (by decide) (by decide) (by decide)),
      (h c main_arg12).trans (keep _ main_arg12 (by decide) (by decide) (by decide)),
      (h c main_arg13).trans (keep _ main_arg13 (by decide) (by decide) (by decide)),
      (h c main_arg14).trans (keep _ main_arg14 (by decide) (by decide) (by decide)),
      (h c main_arg15).trans (keep _ main_arg15 (by decide) (by decide) (by decide)),
      (h c main_arg16).trans (keep _ main_arg16 (by decide) (by decide) (by decide)),
      (h c main_arg17).trans (keep _ main_arg17 (by decide) (by decide) (by decide)),
      (h c main_arg18).trans (keep _ main_arg18 (by decide) (by decide) (by decide)),
      (h c main_arg19).trans (keep _ main_arg19 (by decide) (by decide) (by decide)),
      (h c main_arg20).trans (keep _ main_arg20 (by decide) (by decide) (by decide)),
      (h c main_arg21).trans (keep _ main_arg21 (by decide) (by decide) (by decide)),
      (h c main_arg22).trans (keep _ main_arg22 (by decide) (by decide) (by decide)),
      (h c main_arg23).trans (keep _ main_arg23 (by decide) (by decide) (by decide)),
      (h c main_arg24).trans (keep _ main_arg24 (by decide) (by decide) (by decide)),
      (h c main_arg25).trans (keep _ main_arg25 (by decide) (by decide) (by decide)),
      (h c main_arg26).trans (keep _ main_arg26 (by decide) (by decide) (by decide))⟩)
    (run_all m ρ)

end Cert.ReferenceIdeal.HostRun

end
-- ==== Proof.lean ====
/-
  The five claims. The word-level kernel and its idealization run, terminate and leave their arguments as launched
  (three pipelined regions among stretches of host operations); the reference — one straight line of host
  operations — does too. The idealization rewrote nothing, so it is the kernel's own text read at the ideal instance.

  At the ideal instance both programs compute, for every destination row r of each node type,
      h[r,j] = (Σ_k (agg[r,k] / max(cnt[r], 1)) · Wl[k,j] + bl[j]) + Σ_k x[r,k] · Wr[k,j],
  where agg and cnt are the same scatter-added gathers of the same argument arrays on both sides; the 20000-row result
  is max(h, 0), the 100000-row and 50000-row results are the leaky rectifier of Σ_k max(h[r,k], 0) · w[k] + b (the
  50000-row h the sum of two layers). The kernel reaches these block by block — rows 2000·t … 2000·t + 1999 at grid
  point t, the matrix products into zero accumulators, the head as a lane sum against the transposed weights — and
  the reference array-wide, its head a matrix product with the one-column weights; a format change is the identity
  on extended reals, and the two spellings of each product are one sum over the shared axis. No law that needs
  finiteness is used: the precondition is never opened.
-/
import proofs.«148278_j50689204027573_2_alg».proof.Defs
import proofs.«148278_j50689204027573_2_alg».proof.Proof.Gen.Kernel.Frame
import proofs.«148278_j50689204027573_2_alg».proof.Proof.Gen.Pre_finite_inputs
import proofs.«148278_j50689204027573_2_alg».proof.Proof.KFinal
import proofs.«148278_j50689204027573_2_alg».proof.Proof.RefFinal

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.HostRun.run m ρ)

theorem preserves : Cert.preserves_Kernel_KernelIdeal := trivial

/-- Both runs end at one function of the arguments; the arguments agree. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun r h c => ?_) (Cert.ReferenceIdeal.HostRun.run m' ρ')
  obtain ⟨h0, h1, h2, h3, h4, h5, h6, h7, h8, h9, h10, h11, h12, h13, h14, h15, h16, h17, h18, h19, h20, h21, h22, h23, h24, h25, h26⟩ := hagree c
  obtain ⟨g0, g1, g2, ga⟩ := h c
  refine ⟨g0.trans ?_, g1.trans ?_, g2.trans ?_, ga⟩
  · rw [h0, h1, h3, h4, h11, h12, h13, h23, h24]
  · rw [h1, h2, h0, h5, h6, h9, h10, h14, h15, h16, h20, h21, h22, h25, h26]
  · rw [h0, h2, h7, h8, h17, h18, h19]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
